-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x400000 : Shape := ⟨2, ![2, 400000]⟩
abbrev S400000 : Shape := ⟨1, ![400000]⟩
abbrev S512x256 : Shape := ⟨2, ![512, 256]⟩
abbrev S256 : Shape := ⟨1, ![256]⟩
abbrev S256x256 : Shape := ⟨2, ![256, 256]⟩
abbrev S768x8 : Shape := ⟨2, ![768, 8]⟩
abbrev S8 : Shape := ⟨1, ![8]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S400000 : S_.BroadcastsInDim S400000 (![] : Fin 0 → Fin S400000.rank)
  reducesTo_S400000_S_d0 : S400000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S768x8 : S_.BroadcastsInDim S768x8 (![] : Fin 0 → Fin S768x8.rank)
  reducesTo_S768x8_S_d0_1 : S768x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg8 : FVec F S256 .f32) (main_arg9 : FVec F S768x8 .f32) (main_arg10 : FVec F S8 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S768x8 .f32 := Host.absf main_arg9
  let main_cst_14 : FVec F S_ .f32 := constant S_ .f32 0x7F800000#32
  let main_v40 : FVec F S768x8 .f32 := broadcastInDim S768x8 ![] bcast_S_S768x8 main_cst_14
  let main_v41 : IVec S768x8 1 := cmpf .olt main_v39 main_v40
  let main_c_15 : IVec S_ 1 := constantI S_ 1 1#1
  let main_v42 : IVec S_ 1 := (fun x v => Host.reduce IntOp.andi x v reducesTo_S768x8_S_d0_1 h_S_) main_v41 main_c_15
  let main_v43 : IVec S_ 1 := andi main_v38 main_v42
  let main_v44 : FVec F S8 .f32 := Host.absf main_arg10
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x256 .f32) (main_arg8 : FVec F S256 .f32) (main_arg9 : FVec F S768x8 .f32) (main_arg10 : FVec F S8 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x512 .f32) (main_arg1 : IVec S2x400000 32) (main_arg2 : FVec F S400000 .f32) (main_arg3 : FVec F S512x256 .f32) (main_arg4 : FVec F S256 .f32) (main_arg5 : FVec F S256x256 .f32) (main_arg6 : FVec F S256 .f32) (main_arg7 : FVec F S256x256 .f32) (main_arg8 : FVec F S256 .f32) (main_arg9 : FVec F S768x8 .f32) (main_arg10 : FVec F S8 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S400000 .f32 := Host.absf main_arg2
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x512 : Shape := ⟨2, ![50000, 512]⟩
abbrev S2x400000 : Shape := ⟨2, ![2, 400000]⟩
abbrev S400000 : Shape := ⟨1, ![400000]⟩
abbrev S512x256 : Shape := ⟨2, ![512, 256]⟩
abbrev S256 : Shape := ⟨1, ![256]⟩
abbrev S256x256 : Shape := ⟨2, ![256, 256]⟩
abbrev S768x8 : Shape := ⟨2, ![768, 8]⟩
abbrev S8 : Shape := ⟨1, ![8]⟩
abbrev S1x400000 : Shape := ⟨2, ![1, 400000]⟩
abbrev S_ : Shape := ⟨0, ![]⟩
abbrev S50000 : Shape := ⟨1, ![50000]⟩
abbrev S400000x1 : Shape := ⟨2, ![400000, 1]⟩
abbrev S50000x256 : Shape := ⟨2, ![50000, 256]⟩
abbrev S2000x512 : Shape := ⟨2, ![2000, 512]⟩
abbrev S2000x256 : Shape := ⟨2, ![2000, 256]⟩
abbrev S400000x256 : Shape := ⟨2, ![400000, 256]⟩
abbrev S50000x1 : Shape := ⟨2, ![50000, 1]⟩
abbrev S1x256 : Shape := ⟨2, ![1, 256]⟩
abbrev S50000x768 : Shape := ⟨2, ![50000, 768]⟩
abbrev S1x8 : Shape := ⟨2, ![1, 8]⟩
abbrev S50000x8 : Shape := ⟨2, ![50000, 8]⟩
abbrev S2000x768 : Shape := ⟨2, ![2000, 768]⟩
abbrev S2000x8 : Shape := ⟨2, ![2000, 8]⟩

abbrev nBuf : Space → Nat
  | .hbm => 229
  | .vmem => 21
  | .smem => 0
  | _ => 0

abbrev hbmTy0_0 (i : Nat) : BufTy := match i % 128 with
  | 0 => ⟨S50000x512, .f32⟩
  | 1 => ⟨S2x400000, .i32⟩
  | 2 => ⟨S400000, .f32⟩
  | 3 => ⟨S512x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S768x8, .f32⟩
  | 10 => ⟨S8, .f32⟩
  | 11 => ⟨S1x400000, .i32⟩
  | 12 => ⟨S400000, .i32⟩
  | 13 => ⟨S1x400000, .i32⟩
  | 14 => ⟨S400000, .i32⟩
  | 15 => ⟨S400000, .f32⟩
  | 16 => ⟨S400000, .f32⟩
  | 17 => ⟨S_, .f32⟩
  | 18 => ⟨S400000, .f32⟩
  | 19 => ⟨S400000, .f32⟩
  | 20 => ⟨S_, .f32⟩
  | 21 => ⟨S400000, .f32⟩
  | 22 => ⟨S400000, .f32⟩
  | 23 => ⟨S_, .f32⟩
  | 24 => ⟨S400000, .f32⟩
  | 25 => ⟨S_, .f32⟩
  | 26 => ⟨S50000, .f32⟩
  | 27 => ⟨S400000x1, .i32⟩
  | 28 => ⟨S50000, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S400000, .i32⟩
  | 42 => ⟨S400000, .i1⟩
  | 43 => ⟨S_, .i32⟩
  | 44 => ⟨S400000, .i32⟩
  | 45 => ⟨S400000, .i32⟩
  | 46 => ⟨S400000, .i32⟩
  | 47 => ⟨S400000x1, .i32⟩
  | 48 => ⟨S400000, .f32⟩
  | 49 => ⟨S400000, .f32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S400000, .f32⟩
  | 59 => ⟨S400000, .f32⟩
  | 60 => ⟨S50000x256, .f32⟩
  | 61 => ⟨S_, .i32⟩
  | 62 => ⟨S400000, .i32⟩
  | 63 => ⟨S400000, .i1⟩
  | 64 => ⟨S_, .i32⟩
  | 65 => ⟨S400000, .i32⟩
  | 66 => ⟨S400000, .i32⟩
  | 67 => ⟨S400000, .i32⟩
  | 68 => ⟨S400000x1, .i32⟩
  | 69 => ⟨S400000x256, .f32⟩
  | 70 => ⟨S400000x1, .f32⟩
  | 71 => ⟨S400000x256, .f32⟩
  | 72 => ⟨S400000x256, .f32⟩
  | 73 => ⟨S_, .f32⟩
  | 74 => ⟨S50000x256, .f32⟩
  | 75 => ⟨S400000x1, .i32⟩
  | 76 => ⟨S50000x256, .f32⟩
  | 77 => ⟨S50000, .f32⟩
  | 78 => ⟨S50000x1, .f32⟩
  | 79 => ⟨S50000x256, .f32⟩
  | 80 => ⟨S50000x256, .f32⟩
  | 81 => ⟨S50000x256, .f32⟩
  | 82 => ⟨S1x256, .f32⟩
  | 83 => ⟨S50000x256, .f32⟩
  | 84 => ⟨S50000x256, .f32⟩
  | 85 => ⟨S_, .f32⟩
  | 86 => ⟨S50000x256, .f32⟩
  | 87 => ⟨S50000x256, .f32⟩
  | 88 => ⟨S_, .f32⟩
  | 89 => ⟨S50000, .f32⟩
  | 90 => ⟨S400000x1, .i32⟩
  | 91 => ⟨S50000, .f32⟩
  | 92 => ⟨S_, .f32⟩
  | 93 => ⟨S50000, .f32⟩
  | 94 => ⟨S50000, .f32⟩
  | 95 => ⟨S_, .f32⟩
  | 96 => ⟨S50000, .f32⟩
  | 97 => ⟨S50000, .i1⟩
  | 98 => ⟨S50000, .f32⟩
  | 99 => ⟨S_, .f32⟩
  | 100 => ⟨S_, .f32⟩
  | 101 => ⟨S50000, .f32⟩
  | 102 => ⟨S50000, .f32⟩
  | 103 => ⟨S_, .i32⟩
  | 104 => ⟨S400000, .i32⟩
  | 105 => ⟨S400000, .i1⟩
  | 106 => ⟨S_, .i32⟩
  | 107 => ⟨S400000, .i32⟩
  | 108 => ⟨S400000, .i32⟩
  | 109 => ⟨S400000, .i32⟩
  | 110 => ⟨S400000x1, .i32⟩
  | 111 => ⟨S400000, .f32⟩
  | 112 => ⟨S400000, .f32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S400000, .f32⟩
  | 122 => ⟨S400000, .f32⟩
  | 123 => ⟨S50000x256, .f32⟩
  | 124 => ⟨S_, .i32⟩
  | 125 => ⟨S400000, .i32⟩
  | 126 => ⟨S400000, .i1⟩
  | 127 => ⟨S_, .i32⟩
  | _ => ⟨S50000x512, .f32⟩

abbrev hbmTy0_1 (i : Nat) : BufTy := match i % 128 with
  | 0 => ⟨S400000, .i32⟩
  | 1 => ⟨S400000, .i32⟩
  | 2 => ⟨S400000, .i32⟩
  | 3 => ⟨S400000x1, .i32⟩
  | 4 => ⟨S400000x256, .f32⟩
  | 5 => ⟨S400000x1, .f32⟩
  | 6 => ⟨S400000x256, .f32⟩
  | 7 => ⟨S400000x256, .f32⟩
  | 8 => ⟨S_, .f32⟩
  | 9 => ⟨S50000x256, .f32⟩
  | 10 => ⟨S400000x1, .i32⟩
  | 11 => ⟨S50000x256, .f32⟩
  | 12 => ⟨S50000, .f32⟩
  | 13 => ⟨S50000x1, .f32⟩
  | 14 => ⟨S50000x256, .f32⟩
  | 15 => ⟨S50000x256, .f32⟩
  | 16 => ⟨S50000x256, .f32⟩
  | 17 => ⟨S1x256, .f32⟩
  | 18 => ⟨S50000x256, .f32⟩
  | 19 => ⟨S50000x256, .f32⟩
  | 20 => ⟨S_, .f32⟩
  | 21 => ⟨S50000x256, .f32⟩
  | 22 => ⟨S50000x256, .f32⟩
  | 23 => ⟨S_, .f32⟩
  | 24 => ⟨S50000, .f32⟩
  | 25 => ⟨S400000x1, .i32⟩
  | 26 => ⟨S50000, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .i1⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000, .f32⟩
  | 47 => ⟨S400000, .f32⟩
  | 48 => ⟨S_, .i32⟩
  | 49 => ⟨S400000, .i32⟩
  | 50 => ⟨S400000, .i1⟩
  | 51 => ⟨S_, .i32⟩
  | 52 => ⟨S400000, .i32⟩
  | 53 => ⟨S400000, .i32⟩
  | 54 => ⟨S400000, .i32⟩
  | 55 => ⟨S400000x1, .i32⟩
  | 56 => ⟨S400000, .f32⟩
  | 57 => ⟨S400000, .f32⟩
  | 58 => ⟨S50000x256, .f32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S400000x256, .f32⟩
  | 68 => ⟨S400000x1, .f32⟩
  | 69 => ⟨S400000x256, .f32⟩
  | 70 => ⟨S400000x256, .f32⟩
  | 71 => ⟨S_, .f32⟩
  | 72 => ⟨S50000x256, .f32⟩
  | 73 => ⟨S400000x1, .i32⟩
  | 74 => ⟨S50000x256, .f32⟩
  | 75 => ⟨S50000, .f32⟩
  | 76 => ⟨S50000x1, .f32⟩
  | 77 => ⟨S50000x256, .f32⟩
  | 78 => ⟨S50000x256, .f32⟩
  | 79 => ⟨S50000x256, .f32⟩
  | 80 => ⟨S1x256, .f32⟩
  | 81 => ⟨S50000x256, .f32⟩
  | 82 => ⟨S50000x256, .f32⟩
  | 83 => ⟨S50000x768, .f32⟩
  | 84 => ⟨S1x8, .f32⟩
  | 85 => ⟨S50000x8, .f32⟩
  | 86 => ⟨S_, .f32⟩
  | 87 => ⟨S50000, .f32⟩
  | 88 => ⟨S_, .f32⟩
  | 89 => ⟨S50000, .f32⟩
  | 90 => ⟨S50000, .f32⟩
  | 91 => ⟨S50000x1, .f32⟩
  | 92 => ⟨S50000x8, .f32⟩
  | 93 => ⟨S50000x8, .f32⟩
  | 94 => ⟨S50000x8, .f32⟩
  | 95 => ⟨S_, .f32⟩
  | 96 => ⟨S50000, .f32⟩
  | 97 => ⟨S50000x1, .f32⟩
  | 98 => ⟨S50000x1, .f32⟩
  | 99 => ⟨S50000x8, .f32⟩
  | 100 => ⟨S50000x8, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x768, .f32⟩
  | .local _ .vmem, ⟨16, _⟩ => ⟨S2000x768, .f32⟩
  | .local _ .vmem, ⟨17, _⟩ => ⟨S768x8, .f32⟩
  | .local _ .vmem, ⟨18, _⟩ => ⟨S1x8, .f32⟩
  | .local _ .vmem, ⟨19, _⟩ => ⟨S2000x8, .f32⟩
  | .local _ .vmem, ⟨20, _⟩ => ⟨S2000x8, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_c_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call1_cst : Ref sig .tc := ⟨.hbm, 85, rfl⟩
abbrev main_call1_v0 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_13 : Ref sig .tc := ⟨.hbm, 92, rfl⟩
abbrev main_v62 : Ref sig .tc := ⟨.hbm, 93, rfl⟩
abbrev main_v63 : Ref sig .tc := ⟨.hbm, 94, rfl⟩
abbrev main_cst_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_15 : Ref sig .tc := ⟨.hbm, 99, rfl⟩
abbrev main_call2_v0 : Ref sig .tc := ⟨.hbm, 100, rfl⟩
abbrev main_call2_v1 : Ref sig .tc := ⟨.hbm, 101, rfl⟩
abbrev main_v67 : Ref sig .tc := ⟨.hbm, 102, rfl⟩
abbrev main_c_16 : Ref sig .tc := ⟨.hbm, 103, rfl⟩
abbrev main_v68 : Ref sig .tc := ⟨.hbm, 104, rfl⟩
abbrev main_v69 : Ref sig .tc := ⟨.hbm, 105, rfl⟩
abbrev main_c_17 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_18 : Ref sig .tc := ⟨.hbm, 113, rfl⟩
abbrev main_v76 : Ref sig .tc := ⟨.hbm, 114, rfl⟩
abbrev main_v77 : Ref sig .tc := ⟨.hbm, 115, rfl⟩
abbrev main_c_19 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_c_20 : Ref sig .tc := ⟨.hbm, 124, rfl⟩
abbrev main_v85 : Ref sig .tc := ⟨.hbm, 125, rfl⟩
abbrev main_v86 : Ref sig .tc := ⟨.hbm, 126, rfl⟩
abbrev main_c_21 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_22 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_call3_cst : Ref sig .tc := ⟨.hbm, 148, rfl⟩
abbrev main_call3_v0 : Ref sig .tc := ⟨.hbm, 149, rfl⟩
abbrev main_v106 : Ref sig .tc := ⟨.hbm, 150, rfl⟩
abbrev main_cst_23 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_24 : Ref sig .tc := ⟨.hbm, 155, rfl⟩
abbrev main_v110 : Ref sig .tc := ⟨.hbm, 156, rfl⟩
abbrev main_v111 : Ref sig .tc := ⟨.hbm, 157, rfl⟩
abbrev main_cst_25 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_26 : Ref sig .tc := ⟨.hbm, 162, rfl⟩
abbrev main_call4_v0 : Ref sig .tc := ⟨.hbm, 163, rfl⟩
abbrev main_call4_v1 : Ref sig .tc := ⟨.hbm, 164, rfl⟩
abbrev main_v115 : Ref sig .tc := ⟨.hbm, 165, rfl⟩
abbrev main_c_27 : Ref sig .tc := ⟨.hbm, 166, rfl⟩
abbrev main_v116 : Ref sig .tc := ⟨.hbm, 167, rfl⟩
abbrev main_v117 : Ref sig .tc := ⟨.hbm, 168, rfl⟩
abbrev main_c_28 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_c_29 : Ref sig .tc := ⟨.hbm, 176, rfl⟩
abbrev main_v124 : Ref sig .tc := ⟨.hbm, 177, rfl⟩
abbrev main_v125 : Ref sig .tc := ⟨.hbm, 178, rfl⟩
abbrev main_c_30 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_c_31 : Ref sig .tc := ⟨.hbm, 187, rfl⟩
abbrev main_v133 : Ref sig .tc := ⟨.hbm, 188, rfl⟩
abbrev main_v134 : Ref sig .tc := ⟨.hbm, 189, rfl⟩
abbrev main_c_32 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_33 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_call5_cst : Ref sig .tc := ⟨.hbm, 214, rfl⟩
abbrev main_call5_v0 : Ref sig .tc := ⟨.hbm, 215, rfl⟩
abbrev main_call5_cst_0 : Ref sig .tc := ⟨.hbm, 216, rfl⟩
abbrev main_call5_v1 : Ref sig .tc := ⟨.hbm, 217, rfl⟩
abbrev main_call5_v2 : Ref sig .tc := ⟨.hbm, 218, rfl⟩
abbrev main_call5_v3 : Ref sig .tc := ⟨.hbm, 219, rfl⟩
abbrev main_call5_v4 : Ref sig .tc := ⟨.hbm, 220, rfl⟩
abbrev main_call5_v5 : Ref sig .tc := ⟨.hbm, 221, rfl⟩
abbrev main_call5_v6 : Ref sig .tc := ⟨.hbm, 222, rfl⟩
abbrev main_call5_cst_1 : Ref sig .tc := ⟨.hbm, 223, rfl⟩
abbrev main_call5_v7 : Ref sig .tc := ⟨.hbm, 224, rfl⟩
abbrev main_call5_v8 : Ref sig .tc := ⟨.hbm, 225, rfl⟩
abbrev main_call5_v9 : Ref sig .tc := ⟨.hbm, 226, rfl⟩
abbrev main_call5_v10 : Ref sig .tc := ⟨.hbm, 227, rfl⟩
abbrev main_v157 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S768x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x8 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  concatenates_S50000x256_S50000x256_S50000x256_S50000x768_d1 : Shape.Concatenates [S50000x256, S50000x256, S50000x256] S50000x768 1
  shapeCasts_S8_S1x8 : S8.ShapeCasts S1x8
  inb_S2000x768_S2000x768_0_0 : ∀ a, (![0, 0] : Fin 2 → Nat) a + S2000x768.size a ≤ S2000x768.size a
  h_S2000x768 : 0 < S2000x768.numel
  shapeCasts_S2000x768_S2000x768 : S2000x768.ShapeCasts S2000x768
  inb_S768x8_S768x8_0_0 : ∀ a, (![0, 0] : Fin 2 → Nat) a + S768x8.size a ≤ S768x8.size a
  h_S768x8 : 0 < S768x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  inb_S2000x8_S2000x8_0_0 : ∀ a, (![0, 0] : Fin 2 → Nat) a + S2000x8.size a ≤ S2000x8.size a
  h_S2000x8 : 0 < S2000x8.numel
  reducesTo_S50000x8_S50000_d1 : S50000x8.ReducesTo [1] S50000
  h_S_ : 0 < S_.numel
  bcast_S50000x1_S50000x8_0_1 : S50000x1.BroadcastsInDim S50000x8 (![0, 1] : Fin 2 → Fin S50000x8.rank)
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  dot_S2000x512_S512x256_S2000x256_1_0_0_1_n_n_wf : DotDims.WF S2000x512 S512x256 S2000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S2000x256_S256x256_S2000x256_1_0_0_1_n_n_wf : DotDims.WF S2000x256 S256x256 S2000x256 [1] [0] [0] [1] [] []
  dot_S2000x768_S768x8_S2000x8_1_0_0_1_n_n_wf : DotDims.WF S2000x768 S768x8 S2000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x768.size a ≤ S50000x768.size a
  hwx3_0 : ∀ i : grid3.Coords, EltTy.bits .f32 = 32 ∨ (Rect.block (s := S50000x768) S2000x768.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S768x8.size a ≤ S768x8.size a
  hwx3_1 : ∀ i : grid3.Coords, EltTy.bits .f32 = 32 ∨ (Rect.block (s := S768x8) S768x8.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x8.size a ≤ S1x8.size a
  hwx3_2 : ∀ i : grid3.Coords, EltTy.bits .f32 = 32 ∨ (Rect.block (s := S1x8) S1x8.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x8.size a ≤ S50000x8.size a
  hwx3_3 : ∀ i : grid3.Coords, EltTy.bits .f32 = 32 ∨ (Rect.block (s := S50000x8) S2000x8.size (cc3_transform_3 i) (hinb3_3 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x768_S768x8_S2000x8_1_0_0_1_n_n : DotDims S2000x768 S768x8 S2000x8 where
  lhsContracting := [1]
  rhsContracting := [0]
  lhsNonContracting := [0]
  rhsNonContracting := [1]
  lhsBatch := []
  rhsBatch := []
  wf := dot_S2000x768_S768x8_S2000x8_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v58) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v84) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v106) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v132) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v154) S2000x768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S768x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v155) S1x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v156) S2000x8.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x400000 : Shape := ⟨2, ![2, 400000]⟩
abbrev S400000 : Shape := ⟨1, ![400000]⟩
abbrev S512x256 : Shape := ⟨2, ![512, 256]⟩
abbrev S256 : Shape := ⟨1, ![256]⟩
abbrev S256x256 : Shape := ⟨2, ![256, 256]⟩
abbrev S768x8 : Shape := ⟨2, ![768, 8]⟩
abbrev S8 : Shape := ⟨1, ![8]⟩
abbrev S1x400000 : Shape := ⟨2, ![1, 400000]⟩
abbrev S_ : Shape := ⟨0, ![]⟩
abbrev S50000 : Shape := ⟨1, ![50000]⟩
abbrev S400000x1 : Shape := ⟨2, ![400000, 1]⟩
abbrev S50000x256 : Shape := ⟨2, ![50000, 256]⟩
abbrev S400000x256 : Shape := ⟨2, ![400000, 256]⟩
abbrev S50000x1 : Shape := ⟨2, ![50000, 1]⟩
abbrev S1x256 : Shape := ⟨2, ![1, 256]⟩
abbrev S50000x768 : Shape := ⟨2, ![50000, 768]⟩
abbrev S50000x8 : Shape := ⟨2, ![50000, 8]⟩
abbrev S1x8 : Shape := ⟨2, ![1, 8]⟩

abbrev nBuf : Space → Nat
  | .hbm => 231
  | .vmem => 0
  | .smem => 0
  | _ => 0

abbrev hbmTy0_0 (i : Nat) : BufTy := match i % 128 with
  | 0 => ⟨S50000x512, .f32⟩
  | 1 => ⟨S2x400000, .i32⟩
  | 2 => ⟨S400000, .f32⟩
  | 3 => ⟨S512x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S768x8, .f32⟩
  | 10 => ⟨S8, .f32⟩
  | 11 => ⟨S1x400000, .i32⟩
  | 12 => ⟨S400000, .i32⟩
  | 13 => ⟨S1x400000, .i32⟩
  | 14 => ⟨S400000, .i32⟩
  | 15 => ⟨S400000, .f32⟩
  | 16 => ⟨S400000, .f32⟩
  | 17 => ⟨S_, .f32⟩
  | 18 => ⟨S400000, .f32⟩
  | 19 => ⟨S400000, .f32⟩
  | 20 => ⟨S_, .f32⟩
  | 21 => ⟨S400000, .f32⟩
  | 22 => ⟨S400000, .f32⟩
  | 23 => ⟨S_, .f32⟩
  | 24 => ⟨S400000, .f32⟩
  | 25 => ⟨S_, .f32⟩
  | 26 => ⟨S50000, .f32⟩
  | 27 => ⟨S400000x1, .i32⟩
  | 28 => ⟨S50000, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S400000, .i32⟩
  | 42 => ⟨S400000, .i1⟩
  | 43 => ⟨S_, .i32⟩
  | 44 => ⟨S400000, .i32⟩
  | 45 => ⟨S400000, .i32⟩
  | 46 => ⟨S400000, .i32⟩
  | 47 => ⟨S400000x1, .i32⟩
  | 48 => ⟨S400000, .f32⟩
  | 49 => ⟨S400000, .f32⟩
  | 50 => ⟨S_, .i32⟩
  | 51 => ⟨S400000, .i32⟩
  | 52 => ⟨S400000, .i1⟩
  | 53 => ⟨S_, .i32⟩
  | 54 => ⟨S400000, .i32⟩
  | 55 => ⟨S400000, .i32⟩
  | 56 => ⟨S400000, .i32⟩
  | 57 => ⟨S400000x1, .i32⟩
  | 58 => ⟨S400000, .f32⟩
  | 59 => ⟨S400000, .f32⟩
  | 60 => ⟨S50000x256, .f32⟩
  | 61 => ⟨S_, .i32⟩
  | 62 => ⟨S400000, .i32⟩
  | 63 => ⟨S400000, .i1⟩
  | 64 => ⟨S_, .i32⟩
  | 65 => ⟨S400000, .i32⟩
  | 66 => ⟨S400000, .i32⟩
  | 67 => ⟨S400000, .i32⟩
  | 68 => ⟨S400000x1, .i32⟩
  | 69 => ⟨S400000x256, .f32⟩
  | 70 => ⟨S400000x1, .f32⟩
  | 71 => ⟨S400000x256, .f32⟩
  | 72 => ⟨S400000x256, .f32⟩
  | 73 => ⟨S_, .f32⟩
  | 74 => ⟨S50000x256, .f32⟩
  | 75 => ⟨S400000x1, .i32⟩
  | 76 => ⟨S50000x256, .f32⟩
  | 77 => ⟨S50000, .f32⟩
  | 78 => ⟨S50000x1, .f32⟩
  | 79 => ⟨S50000x256, .f32⟩
  | 80 => ⟨S50000x256, .f32⟩
  | 81 => ⟨S50000x256, .f32⟩
  | 82 => ⟨S1x256, .f32⟩
  | 83 => ⟨S50000x256, .f32⟩
  | 84 => ⟨S50000x256, .f32⟩
  | 85 => ⟨S_, .f32⟩
  | 86 => ⟨S50000x256, .f32⟩
  | 87 => ⟨S50000x256, .f32⟩
  | 88 => ⟨S_, .f32⟩
  | 89 => ⟨S50000, .f32⟩
  | 90 => ⟨S400000x1, .i32⟩
  | 91 => ⟨S50000, .f32⟩
  | 92 => ⟨S_, .f32⟩
  | 93 => ⟨S50000, .f32⟩
  | 94 => ⟨S50000, .f32⟩
  | 95 => ⟨S_, .f32⟩
  | 96 => ⟨S50000, .f32⟩
  | 97 => ⟨S50000, .i1⟩
  | 98 => ⟨S50000, .f32⟩
  | 99 => ⟨S_, .f32⟩
  | 100 => ⟨S_, .f32⟩
  | 101 => ⟨S50000, .f32⟩
  | 102 => ⟨S50000, .f32⟩
  | 103 => ⟨S_, .i32⟩
  | 104 => ⟨S400000, .i32⟩
  | 105 => ⟨S400000, .i1⟩
  | 106 => ⟨S_, .i32⟩
  | 107 => ⟨S400000, .i32⟩
  | 108 => ⟨S400000, .i32⟩
  | 109 => ⟨S400000, .i32⟩
  | 110 => ⟨S400000x1, .i32⟩
  | 111 => ⟨S400000, .f32⟩
  | 112 => ⟨S400000, .f32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S400000, .f32⟩
  | 122 => ⟨S400000, .f32⟩
  | 123 => ⟨S50000x256, .f32⟩
  | 124 => ⟨S_, .i32⟩
  | 125 => ⟨S400000, .i32⟩
  | 126 => ⟨S400000, .i1⟩
  | 127 => ⟨S_, .i32⟩
  | _ => ⟨S50000x512, .f32⟩

abbrev hbmTy0_1 (i : Nat) : BufTy := match i % 128 with
  | 0 => ⟨S400000, .i32⟩
  | 1 => ⟨S400000, .i32⟩
  | 2 => ⟨S400000, .i32⟩
  | 3 => ⟨S400000x1, .i32⟩
  | 4 => ⟨S400000x256, .f32⟩
  | 5 => ⟨S400000x1, .f32⟩
  | 6 => ⟨S400000x256, .f32⟩
  | 7 => ⟨S400000x256, .f32⟩
  | 8 => ⟨S_, .f32⟩
  | 9 => ⟨S50000x256, .f32⟩
  | 10 => ⟨S400000x1, .i32⟩
  | 11 => ⟨S50000x256, .f32⟩
  | 12 => ⟨S50000, .f32⟩
  | 13 => ⟨S50000x1, .f32⟩
  | 14 => ⟨S50000x256, .f32⟩
  | 15 => ⟨S50000x256, .f32⟩
  | 16 => ⟨S50000x256, .f32⟩
  | 17 => ⟨S1x256, .f32⟩
  | 18 => ⟨S50000x256, .f32⟩
  | 19 => ⟨S50000x256, .f32⟩
  | 20 => ⟨S_, .f32⟩
  | 21 => ⟨S50000x256, .f32⟩
  | 22 => ⟨S50000x256, .f32⟩
  | 23 => ⟨S_, .f32⟩
  | 24 => ⟨S50000, .f32⟩
  | 25 => ⟨S400000x1, .i32⟩
  | 26 => ⟨S50000, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .i1⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S400000, .i32⟩
  | 40 => ⟨S400000, .i1⟩
  | 41 => ⟨S_, .i32⟩
  | 42 => ⟨S400000, .i32⟩
  | 43 => ⟨S400000, .i32⟩
  | 44 => ⟨S400000, .i32⟩
  | 45 => ⟨S400000x1, .i32⟩
  | 46 => ⟨S400000, .f32⟩
  | 47 => ⟨S400000, .f32⟩
  | 48 => ⟨S_, .i32⟩
  | 49 => ⟨S400000, .i32⟩
  | 50 => ⟨S400000, .i1⟩
  | 51 => ⟨S_, .i32⟩
  | 52 => ⟨S400000, .i32⟩
  | 53 => ⟨S400000, .i32⟩
  | 54 => ⟨S400000, .i32⟩
  | 55 => ⟨S400000x1, .i32⟩
  | 56 => ⟨S400000, .f32⟩
  | 57 => ⟨S400000, .f32⟩
  | 58 => ⟨S50000x256, .f32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S400000x256, .f32⟩
  | 68 => ⟨S400000x1, .f32⟩
  | 69 => ⟨S400000x256, .f32⟩
  | 70 => ⟨S400000x256, .f32⟩
  | 71 => ⟨S_, .f32⟩
  | 72 => ⟨S50000x256, .f32⟩
  | 73 => ⟨S400000x1, .i32⟩
  | 74 => ⟨S50000x256, .f32⟩
  | 75 => ⟨S50000, .f32⟩
  | 76 => ⟨S50000x1, .f32⟩
  | 77 => ⟨S50000x256, .f32⟩
  | 78 => ⟨S50000x256, .f32⟩
  | 79 => ⟨S50000x256, .f32⟩
  | 80 => ⟨S1x256, .f32⟩
  | 81 => ⟨S50000x256, .f32⟩
  | 82 => ⟨S50000x256, .f32⟩
  | 83 => ⟨S50000x768, .f32⟩
  | 84 => ⟨S50000x8, .f32⟩
  | 85 => ⟨S1x8, .f32⟩
  | 86 => ⟨S50000x8, .f32⟩
  | 87 => ⟨S50000x8, .f32⟩
  | 88 => ⟨S_, .f32⟩
  | 89 => ⟨S50000, .f32⟩
  | 90 => ⟨S_, .f32⟩
  | 91 => ⟨S50000, .f32⟩
  | 92 => ⟨S50000, .f32⟩
  | 93 => ⟨S50000x1, .f32⟩
  | 94 => ⟨S50000x8, .f32⟩
  | 95 => ⟨S50000x8, .f32⟩
  | 96 => ⟨S50000x8, .f32⟩
  | 97 => ⟨S_, .f32⟩
  | 98 => ⟨S50000, .f32⟩
  | 99 => ⟨S50000x1, .f32⟩
  | 100 => ⟨S50000x1, .f32⟩
  | 101 => ⟨S50000x8, .f32⟩
  | 102 => ⟨S50000x8, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_c_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call1_cst : Ref sig .tc := ⟨.hbm, 85, rfl⟩
abbrev main_call1_v0 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_13 : Ref sig .tc := ⟨.hbm, 92, rfl⟩
abbrev main_v62 : Ref sig .tc := ⟨.hbm, 93, rfl⟩
abbrev main_v63 : Ref sig .tc := ⟨.hbm, 94, rfl⟩
abbrev main_cst_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_15 : Ref sig .tc := ⟨.hbm, 99, rfl⟩
abbrev main_call2_v0 : Ref sig .tc := ⟨.hbm, 100, rfl⟩
abbrev main_call2_v1 : Ref sig .tc := ⟨.hbm, 101, rfl⟩
abbrev main_v67 : Ref sig .tc := ⟨.hbm, 102, rfl⟩
abbrev main_c_16 : Ref sig .tc := ⟨.hbm, 103, rfl⟩
abbrev main_v68 : Ref sig .tc := ⟨.hbm, 104, rfl⟩
abbrev main_v69 : Ref sig .tc := ⟨.hbm, 105, rfl⟩
abbrev main_c_17 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_18 : Ref sig .tc := ⟨.hbm, 113, rfl⟩
abbrev main_v76 : Ref sig .tc := ⟨.hbm, 114, rfl⟩
abbrev main_v77 : Ref sig .tc := ⟨.hbm, 115, rfl⟩
abbrev main_c_19 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_c_20 : Ref sig .tc := ⟨.hbm, 124, rfl⟩
abbrev main_v85 : Ref sig .tc := ⟨.hbm, 125, rfl⟩
abbrev main_v86 : Ref sig .tc := ⟨.hbm, 126, rfl⟩
abbrev main_c_21 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_22 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_call3_cst : Ref sig .tc := ⟨.hbm, 148, rfl⟩
abbrev main_call3_v0 : Ref sig .tc := ⟨.hbm, 149, rfl⟩
abbrev main_v106 : Ref sig .tc := ⟨.hbm, 150, rfl⟩
abbrev main_cst_23 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_24 : Ref sig .tc := ⟨.hbm, 155, rfl⟩
abbrev main_v110 : Ref sig .tc := ⟨.hbm, 156, rfl⟩
abbrev main_v111 : Ref sig .tc := ⟨.hbm, 157, rfl⟩
abbrev main_cst_25 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_26 : Ref sig .tc := ⟨.hbm, 162, rfl⟩
abbrev main_call4_v0 : Ref sig .tc := ⟨.hbm, 163, rfl⟩
abbrev main_call4_v1 : Ref sig .tc := ⟨.hbm, 164, rfl⟩
abbrev main_v115 : Ref sig .tc := ⟨.hbm, 165, rfl⟩
abbrev main_c_27 : Ref sig .tc := ⟨.hbm, 166, rfl⟩
abbrev main_v116 : Ref sig .tc := ⟨.hbm, 167, rfl⟩
abbrev main_v117 : Ref sig .tc := ⟨.hbm, 168, rfl⟩
abbrev main_c_28 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_c_29 : Ref sig .tc := ⟨.hbm, 176, rfl⟩
abbrev main_v124 : Ref sig .tc := ⟨.hbm, 177, rfl⟩
abbrev main_v125 : Ref sig .tc := ⟨.hbm, 178, rfl⟩
abbrev main_c_30 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_c_31 : Ref sig .tc := ⟨.hbm, 187, rfl⟩
abbrev main_v133 : Ref sig .tc := ⟨.hbm, 188, rfl⟩
abbrev main_v134 : Ref sig .tc := ⟨.hbm, 189, rfl⟩
abbrev main_c_32 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_33 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_call5_cst : Ref sig .tc := ⟨.hbm, 216, rfl⟩
abbrev main_call5_v0 : Ref sig .tc := ⟨.hbm, 217, rfl⟩
abbrev main_call5_cst_0 : Ref sig .tc := ⟨.hbm, 218, rfl⟩
abbrev main_call5_v1 : Ref sig .tc := ⟨.hbm, 219, rfl⟩
abbrev main_call5_v2 : Ref sig .tc := ⟨.hbm, 220, rfl⟩
abbrev main_call5_v3 : Ref sig .tc := ⟨.hbm, 221, rfl⟩
abbrev main_call5_v4 : Ref sig .tc := ⟨.hbm, 222, rfl⟩
abbrev main_call5_v5 : Ref sig .tc := ⟨.hbm, 223, rfl⟩
abbrev main_call5_v6 : Ref sig .tc := ⟨.hbm, 224, rfl⟩
abbrev main_call5_cst_1 : Ref sig .tc := ⟨.hbm, 225, rfl⟩
abbrev main_call5_v7 : Ref sig .tc := ⟨.hbm, 226, rfl⟩
abbrev main_call5_v8 : Ref sig .tc := ⟨.hbm, 227, rfl⟩
abbrev main_call5_v9 : Ref sig .tc := ⟨.hbm, 228, rfl⟩
abbrev main_call5_v10 : Ref sig .tc := ⟨.hbm, 229, rfl⟩
abbrev main_v159 : Ref sig .tc := ⟨.hbm, 230, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  concatenates_S50000x256_S50000x256_S50000x256_S50000x768_d1 : Shape.Concatenates [S50000x256, S50000x256, S50000x256] S50000x768 1
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  reducesTo_S50000x8_S50000_d1 : S50000x8.ReducesTo [1] S50000
  h_S_ : 0 < S_.numel
  bcast_S50000x1_S50000x8_0_1 : S50000x1.BroadcastsInDim S50000x8 (![0, 1] : Fin 2 → Fin S50000x8.rank)
  scatter_S50000_S400000x1_S400000_n_0_0_1_wf : ScatterDims.WF S50000 S400000x1 S400000 [] [0] [0] 1
  gather_S50000_S400000x1_S400000_n_0_n_n_0_1_1_wf : GatherDims.WF S50000 S400000x1 S400000 [] [0] [] [0] [] 1 ![1]
  dot_S50000x512_S512x256_S50000x256_1_0_0_1_n_n_wf : DotDims.WF S50000x512 S512x256 S50000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S50000x256_S256x256_S50000x256_1_0_0_1_n_n_wf : DotDims.WF S50000x256 S256x256 S50000x256 [1] [0] [0] [1] [] []
  dot_S50000x768_S768x8_S50000x8_1_0_0_1_n_n_wf : DotDims.WF S50000x768 S768x8 S50000x8 [1] [0] [0] [1] [] []

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x768_S768x8_S50000x8_1_0_0_1_n_n : DotDims S50000x768 S768x8 S50000x8 where
  lhsContracting := [1]
  rhsContracting := [0]
  lhsNonContracting := [0]
  rhsNonContracting := [1]
  lhsBatch := []
  rhsBatch := []
  wf := dot_S50000x768_S768x8_S50000x8_1_0_0_1_n_n_wf

class Facts : Prop extends Facts₀ where

variable [Facts]
-- ==== Proof.K.Reg0.lean ====
/-
  Region 0 of @main: one `_matmul_kernel` launch over a grid of 25 points. At a point the pipeline hands the body
  three whole staging buffers: a block of 2000 rows of the left operand, the whole weight matrix, and the output
  block. The body reads the two inputs (and, unused, the output buffer), rounds both inputs to bf16, multiplies them
  into a zero accumulator and stores the product over the whole output block. So after the body the output buffer
  holds `k0_pay1` of the two input blocks, whatever it held before, and the inputs are untouched. This module
  states that as the body's triple, packages it as the pipeline's proof data at an arbitrary contents `V` of the
  buffers on entry, and discharges the pipeline's per-point body obligation. Everything is generic in the float
  instance `F`: no arithmetic is opened.
-/
import proofs.«141398_j71476845740179_1_alg».proof.Proof.Gen.Kernel.Launch
import proofs.«141398_j71476845740179_1_alg».proof.Proof.Gen.Kernel.Skeleton
import proofs.«141398_j71476845740179_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point, for any proof data over the entry contents
    whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight matrix at every point: it is fetched at the first point only,
    and its block index never moves, so an unfetched point still finds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2000x512 := Rect.unit (s := S2000x512) ![0, 0] S2000x512.size inb_S2000x512_S2000x512_0_0
abbrev r0_1 : Rect S512x256 := Rect.unit (s := S512x256) ![0, 0] S512x256.size inb_S512x256_S512x256_0_0
abbrev r0_2 : Rect S2000x256 := Rect.unit (s := S2000x256) ![0, 0] S2000x256.size inb_S2000x256_S2000x256_0_0

/-! ## What the body leaves in the output buffer -/

/-- The output buffer after the body: its one store, of the product of the two input blocks, over the whole block. -/
def out0_2 (x0 : Vec F S2000x512 .f32) (x1 : Vec F S512x256 .f32) : Vec F S2000x256 .f32 :=
  View.canon [⟨r0_2, k0_pay1 (View.ld x0 r0_0) (View.ld x1 r0_1)⟩]

/-- The one store covers the output block. -/
theorem cover0_2 (p0 : Vec F S2000x256 .f32) (y : S2000x256.Idx) :
    ∃ pc ∈ ([⟨r0_2, p0⟩] : List (View.Piece (Elt F) S2000x256 .f32)), y ∈ pc.1.set :=
  View.cover_of_tiled [⟨r0_2, p0⟩] S2000x256.size (by rfl) y

/-! ## The body's triple -/

set_option maxHeartbeats 1000000 in
/-- The body on whole staging buffers — the inputs' at contents `x0`, `x1`, the output's at anything — runs to the
    continuation with the inputs as they were and the output at `out0_2 x0 x1`. -/
theorem sound_kernel0 (c : Dev nD) (E : Set ℕ) (i : grid0.Coords)
    (arg1 : Memref sig .tc .vmem S2000x512 .f32) (harg1 : arg1.IsWhole)
    (arg2 : Memref sig .tc .vmem S512x256 .f32) (harg2 : arg2.IsWhole)
    (arg3 : Memref sig .tc .vmem S2000x256 .f32) (harg3 : arg3.IsWhole)
    (x0 : Vec F S2000x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t`
    each input's buffer still at its block and the output's at the product of the two input blocks; the invariant is
    the plain one (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of @main: one `_matmul_kernel` launch over a grid of 25 points. At a point the pipeline hands the body
  three whole staging buffers: a block of 2000 rows of the left operand, the whole weight matrix, and the output
  block. The body reads the two inputs (and, unused, the output buffer), rounds both inputs to bf16, multiplies them
  into a zero accumulator and stores the product over the whole output block. So after the body the output buffer
  holds `k1_pay1` of the two input blocks, whatever it held before, and the inputs are untouched. This module
  states that as the body's triple, packages it as the pipeline's proof data at an arbitrary contents `V` of the
  buffers on entry, and discharges the pipeline's per-point body obligation. Everything is generic in the float
  instance `F`: no arithmetic is opened.
-/
import proofs.«141398_j71476845740179_1_alg».proof.Proof.Gen.Kernel.Launch
import proofs.«141398_j71476845740179_1_alg».proof.Proof.Gen.Kernel.Skeleton
import proofs.«141398_j71476845740179_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point, for any proof data over the entry contents
    whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' staging buffer holds the whole weight matrix at every point: it is fetched at the first point only,
    and its block index never moves, so an unfetched point still finds the same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2000x256 := Rect.unit (s := S2000x256) ![0, 0] S2000x256.size inb_S2000x256_S2000x256_0_0
abbrev r1_1 : Rect S256x256 := Rect.unit (s := S256x256) ![0, 0] S256x256.size inb_S256x256_S256x256_0_0
abbrev r1_2 : Rect S2000x256 := Rect.unit (s := S2000x256) ![0, 0] S2000x256.size inb_S2000x256_S2000x256_0_0

/-! ## What the body leaves in the output buffer -/

/-- The output buffer after the body: its one store, of the product of the two input blocks, over the whole block. -/
def out1_2 (x0 : Vec F S2000x256 .f32) (x1 : Vec F S256x256 .f32) : Vec F S2000x256 .f32 :=
  View.canon [⟨r1_2, k1_pay1 (View.ld x0 r1_0) (View.ld x1 r1_1)⟩]

/-- The one store covers the output block. -/
theorem cover1_2 (p0 : Vec F S2000x256 .f32) (y : S2000x256.Idx) :
    ∃ pc ∈ ([⟨r1_2, p0⟩] : List (View.Piece (Elt F) S2000x256 .f32)), y ∈ pc.1.set :=
  View.cover_of_tiled [⟨r1_2, p0⟩] S2000x256.size (by rfl) y

/-! ## The body's triple -/

set_option maxHeartbeats 1000000 in
/-- The body on whole staging buffers — the inputs' at contents `x0`, `x1`, the output's at anything — runs to the
    continuation with the inputs as they were and the output at `out1_2 x0 x1`. -/
theorem sound_kernel1 (c : Dev nD) (E : Set ℕ) (i : grid1.Coords)
    (arg1 : Memref sig .tc .vmem S2000x256 .f32) (harg1 : arg1.IsWhole)
    (arg2 : Memref sig .tc .vmem S256x256 .f32) (harg2 : arg2.IsWhole)
    (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point `t`
    each input's buffer still at its block and the output's at the product of the two input blocks; the invariant is
    the plain one (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of @main: one `_matmul_kernel` launch over a grid of 25 points. At a point the pipeline hands the body
  three whole staging buffers: a block of 2000 rows of the left operand, the whole weight matrix, and the output
  block. The body reads the two inputs (and, unused, the output buffer), rounds both inputs to bf16, multiplies them
  into a zero accumulator and stores the product over the whole output block. So after the body the output buffer
  holds `k2_pay1` of the two input blocks, whatever it held before, and the inputs are untouched. This module
  states that as the body's triple, packages it as the pipeline's proof data at an arbitrary contents `V` of the
  buffers on entry, and discharges the pipeline's per-point body obligation. Everything is generic in the float
  instance `F`: no arithmetic is opened.
-/
import proofs.«141398_j71476845740179_1_alg».proof.Proof.Gen.Kernel.Launch
import proofs.«141398_j71476845740179_1_alg».proof.Proof.Gen.Kernel.Skeleton
import proofs.«141398_j71476845740179_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point, for any proof data over the entry contents
    whose body leaves that block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' staging buffer holds the whole weight matrix at every point: it is fetched at the first point only,
    and its block index never moves, so an unfetched point still finds the same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S2000x256 := Rect.unit (s := S2000x256) ![0, 0] S2000x256.size inb_S2000x256_S2000x256_0_0
abbrev r2_1 : Rect S256x256 := Rect.unit (s := S256x256) ![0, 0] S256x256.size inb_S256x256_S256x256_0_0
abbrev r2_2 : Rect S2000x256 := Rect.unit (s := S2000x256) ![0, 0] S2000x256.size inb_S2000x256_S2000x256_0_0

/-! ## What the body leaves in the output buffer -/

/-- The output buffer after the body: its one store, of the product of the two input blocks, over the whole block. -/
def out2_2 (x0 : Vec F S2000x256 .f32) (x1 : Vec F S256x256 .f32) : Vec F S2000x256 .f32 :=
  View.canon [⟨r2_2, k2_pay1 (View.ld x0 r2_0) (View.ld x1 r2_1)⟩]

/-- The one store covers the output block. -/
theorem cover2_2 (p0 : Vec F S2000x256 .f32) (y : S2000x256.Idx) :
    ∃ pc ∈ ([⟨r2_2, p0⟩] : List (View.Piece (Elt F) S2000x256 .f32)), y ∈ pc.1.set :=
  View.cover_of_tiled [⟨r2_2, p0⟩] S2000x256.size (by rfl) y

/-! ## The body's triple -/

set_option maxHeartbeats 1000000 in
/-- The body on whole staging buffers — the inputs' at contents `x0`, `x1`, the output's at anything — runs to the
    continuation with the inputs as they were and the output at `out2_2 x0 x1`. -/
theorem sound_kernel2 (c : Dev nD) (E : Set ℕ) (i : grid2.Coords)
    (arg1 : Memref sig .tc .vmem S2000x256 .f32) (harg1 : arg1.IsWhole)
    (arg2 : Memref sig .tc .vmem S256x256 .f32) (harg2 : arg2.IsWhole)
    (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them; after the body at point `t`
    each input's buffer still at its block and the output's at the product of the two input blocks; the invariant is
    the plain one (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/-
  Region 3 of @main: the `_linear_kernel` launch over a grid of 25 points. At a point the pipeline hands the body four
  whole staging buffers: a block of 2000 rows of the concatenated features, the whole weight matrix, the bias as one
  row, and the output block. The body reads the three inputs (and, unused, the output buffer), rounds the two matrix
  operands to bf16, multiplies them into a zero accumulator, adds the bias row to every row and stores the result over
  the whole output block. So after the body the output buffer holds `k3_pay1` of the three input blocks, whatever it
  held before, and the inputs are untouched. This module states that as the body's triple, packages it as the
  pipeline's proof data at an arbitrary contents `V` of the buffers on entry, and discharges the pipeline's per-point
  body obligation. Everything is generic in the float instance `F`: no arithmetic is opened.
-/
import proofs.«141398_j71476845740179_1_alg».proof.Proof.Gen.Kernel.Launch
import proofs.«141398_j71476845740179_1_alg».proof.Proof.Gen.Kernel.Skeleton
import proofs.«141398_j71476845740179_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The feature block's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weights' staging buffer holds the whole weight matrix at every point (fetched once; its index never moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias row's staging buffer holds the bias at every point (fetched once; its index never moves). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S2000x768 := Rect.unit (s := S2000x768) ![0, 0] S2000x768.size inb_S2000x768_S2000x768_0_0
abbrev r3_1 : Rect S768x8 := Rect.unit (s := S768x8) ![0, 0] S768x8.size inb_S768x8_S768x8_0_0
abbrev r3_2 : Rect S1x8 := Rect.unit (s := S1x8) ![0, 0] S1x8.size inb_S1x8_S1x8_0_0
abbrev r3_3 : Rect S2000x8 := Rect.unit (s := S2000x8) ![0, 0] S2000x8.size inb_S2000x8_S2000x8_0_0

/-! ## What the body leaves in the output buffer -/

/-- The output buffer after the body: its one store, of the product of the two matrix blocks plus the bias row, over the
    whole block. -/
def out3_3 (x0 : Vec F S2000x768 .f32) (x1 : Vec F S768x8 .f32) (x2 : Vec F S1x8 .f32) : Vec F S2000x8 .f32 :=
  View.canon [⟨r3_3, k3_pay1 (View.ld x0 r3_0) (View.ld x1 r3_1) (View.ld x2 r3_2)⟩]

/-- The one store covers the output block. -/
theorem cover3_3 (p0 : Vec F S2000x8 .f32) (y : S2000x8.Idx) :
    ∃ pc ∈ ([⟨r3_3, p0⟩] : List (View.Piece (Elt F) S2000x8 .f32)), y ∈ pc.1.set :=
  View.cover_of_tiled [⟨r3_3, p0⟩] S2000x8.size (by rfl) y

/-! ## The body's triple -/

set_option maxHeartbeats 1000000 in
/-- The body on whole staging buffers — the inputs' at contents `x0`, `x1`, `x2`, the output's at anything — runs to
    the continuation with the inputs as they were and the output at `out3_3 x0 x1 x2`. -/
theorem sound_kernel3 (c : Dev nD) (E : Set ℕ) (i : grid3.Coords)
    (arg1 : Memref sig .tc .vmem S2000x768 .f32) (harg1 : arg1.IsWhole)
    (arg2 : Memref sig .tc .vmem S768x8 .f32) (harg2 : arg2.IsWhole)
    (arg3 : Memref sig .tc .vmem S1x8 .f32) (harg3 : arg3.IsWhole)
    (arg4 : Memref sig .tc .vmem S2000x8 .f32) (harg4 : arg4.IsWhole)
    (x0 : Vec F S2000x768 .f32) (x1 : Vec F S768x8 .f32) (x2 : Vec F S1x8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this pipeline on core `c`: the arrays as the region finds them; after the body at point `t`
    each input's buffer still at its block and the output's at the product plus bias of the input blocks; the plain
    invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
/-
  @main of the program as a run of segments. @main is nineteen items: host stretches of jnp glue and, between them,
  the four kernel launches (three matrix products and the final linear layer). Between two items a core holds every
  unscoped buffer whole at known contents: the launch memory, then each host stretch's operations applied in order,
  then, after a launch, the same contents with the launch's output array replaced by what the pipeline's write-backs
  leave (`Dat.arrAt` of the output window at the last point). This module fixes those four output arrays
  (`OutsOk`), gives each launch as a segment record over that thread state (its arrays split out of the unscoped
  buffers on entry and put back on exit), chains the nineteen items, and reads every unscoped buffer back at the end.
  Two consequences: the argument arrays end as launched (no item writes one), and the result buffer ends at the last
  stretch's value of it. Everything is generic in the float instance.
-/
import proofs.«141398_j71476845740179_1_alg».proof.Proof.Gen.Kernel.Regions
import proofs.«141398_j71476845740179_1_alg».proof.Proof.K.Reg0
import proofs.«141398_j71476845740179_1_alg».proof.Proof.K.Reg1
import proofs.«141398_j71476845740179_1_alg».proof.Proof.K.Reg2
import proofs.«141398_j71476845740179_1_alg».proof.Proof.K.Reg3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the four launches leave -/

/-- The contents each launch leaves in its output array are what its pipeline's write-backs leave there, the pipeline
    entered at the contents the items before it produce. (Launch 1 is entered at contents that depend on launch 0's
    output, and so on: the four equations are stated about one family `outs`.) -/
structure OutsOk (outs : Outs (F := F)) : Prop where
  o4 : ∀ c : Dev nD, outs 4 main_v36 c = (dat0 (fun c b => V3 m c b) c).arrAt 2 cfg0.N
  o10 : ∀ c : Dev nD, outs 10 main_v84 c = (dat1 (fun c b => V9 m outs c b) c).arrAt 2 cfg1.N
  o16 : ∀ c : Dev nD, outs 16 main_v132 c = (dat2 (fun c b => V15 m outs c b) c).arrAt 2 cfg2.N
  o18 : ∀ c : Dev nD, outs 18 main_v156 c = (dat3 (fun c b => V17 m outs c b) c).arrAt 3 cfg3.N

/-- Every pipeline's proof data, each at its launch's entry contents. -/
def pdats (outs : Outs (F := F)) : (p : Fin 4) → (c : Dev nD) → Dat τ (Elt F) Unit ℕ (UR sig nD τ) ℕ (cfgs p) c
  | ⟨0, _⟩ => fun c => dat0 (fun c b => V3 m c b) c
  | ⟨1, _⟩ => fun c => dat1 (fun c b => V9 m outs c b) c
  | ⟨2, _⟩ => fun c => dat2 (fun c b => V15 m outs c b) c
  | ⟨3, _⟩ => fun c => dat3 (fun c b => V17 m outs c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev Rr (c : Dev nD) : sProp 𝕄 := iprop((∃ r, prngReg c r) ∗ ∃ W, owes (c : Thread nD τ) (0 : CellTallies nD τ sig Unit) W)
abbrev Es : Fin 5 → Dev nD → sProp 𝕄 := fun _ c => Rr c

/-! ## A launch's exit contents: its arrays at what the pipeline leaves, every other buffer as entered -/

theorem hF0 (outs : Outs (F := F)) (hok : OutsOk m outs) (c : Dev nD) :
    ∀ w : Fin cfg0.W, (pdats m outs 0 c).arrAt w cfg0.N = V4 m outs c (Pipeline.arrRef spec0 w)
  | ⟨0, _⟩ => ((dat0 (fun c b => V3 m c b) c).arrAt_in 0 rfl _).trans (((A_eq0 (fun c b => V3 m c b) c 0)).trans (V4_of m outs c main_arg0 (by decide)).symm)
  | ⟨1, _⟩ => ((dat0 (fun c b => V3 m c b) c).arrAt_in 1 rfl _).trans (((A_eq0 (fun c b => V3 m c b) c 1)).trans (V4_of m outs c main_arg3 (by decide)).symm)
  | ⟨2, _⟩ => (hok.o4 c).symm.trans (show V4 m outs c main_v36 = outs 4 main_v36 c from by dsimp only [V4]; exact Function.update_self _ _ _).symm
theorem hrest0 (outs : Outs (F := F)) (c : Dev nD) : ∀ b, b ∉ Finset.univ.image (Pipeline.arrRef spec0) → V4 m outs c b = V3 m c b :=
  fun b hb => V4_of m outs c b (by
    simp only [List.mem_singleton]; intro e; exact hb (Finset.mem_image.mpr ⟨2, Finset.mem_univ _, e.symm⟩))

theorem hF1 (outs : Outs (F := F)) (hok : OutsOk m outs) (c : Dev nD) :
    ∀ w : Fin cfg1.W, (pdats m outs 1 c).arrAt w cfg1.N = V10 m outs c (Pipeline.arrRef spec1 w)
  | ⟨0, _⟩ => ((dat1 (fun c b => V9 m outs c b) c).arrAt_in 0 rfl _).trans (((A_eq1 (fun c b => V9 m outs c b) c 0)).trans (V10_of m outs c main_v58 (by decide)).symm)
  | ⟨1, _⟩ => ((dat1 (fun c b => V9 m outs c b) c).arrAt_in 1 rfl _).trans (((A_eq1 (fun c b => V9 m outs c b) c 1)).trans (V10_of m outs c main_arg5 (by decide)).symm)
  | ⟨2, _⟩ => (hok.o10 c).symm.trans (show V10 m outs c main_v84 = outs 10 main_v84 c from by dsimp only [V10]; exact Function.update_self _ _ _).symm
theorem hrest1 (outs : Outs (F := F)) (c : Dev nD) : ∀ b, b ∉ Finset.univ.image (Pipeline.arrRef spec1) → V10 m outs c b = V9 m outs c b :=
  fun b hb => V10_of m outs c b (by
    simp only [List.mem_singleton]; intro e; exact hb (Finset.mem_image.mpr ⟨2, Finset.mem_univ _, e.symm⟩))

theorem hF2 (outs : Outs (F := F)) (hok : OutsOk m outs) (c : Dev nD) :
    ∀ w : Fin cfg2.W, (pdats m outs 2 c).arrAt w cfg2.N = V16 m outs c (Pipeline.arrRef spec2 w)
  | ⟨0, _⟩ => ((dat2 (fun c b => V15 m outs c b) c).arrAt_in 0 rfl _).trans (((A_eq2 (fun c b => V15 m outs c b) c 0)).trans (V16_of m outs c main_v106 (by decide)).symm)
  | ⟨1, _⟩ => ((dat2 (fun c b => V15 m outs c b) c).arrAt_in 1 rfl _).trans (((A_eq2 (fun c b => V15 m outs c b) c 1)).trans (V16_of m outs c main_arg7 (by decide)).symm)
  | ⟨2, _⟩ => (hok.o16 c).symm.trans (show V16 m outs c main_v132 = outs 16 main_v132 c from by dsimp only [V16]; exact Function.update_self _ _ _).symm
theorem hrest2 (outs : Outs (F := F)) (c : Dev nD) : ∀ b, b ∉ Finset.univ.image (Pipeline.arrRef spec2) → V16 m outs c b = V15 m outs c b :=
  fun b hb => V16_of m outs c b (by
    simp only [List.mem_singleton]; intro e; exact hb (Finset.mem_image.mpr ⟨2, Finset.mem_univ _, e.symm⟩))

theorem hF3 (outs : Outs (F := F)) (hok : OutsOk m outs) (c : Dev nD) :
    ∀ w : Fin cfg3.W, (pdats m outs 3 c).arrAt w cfg3.N = V18 m outs c (Pipeline.arrRef spec3 w)
  | ⟨0, _⟩ => ((dat3 (fun c b => V17 m outs c b) c).arrAt_in 0 rfl _).trans (((A_eq3 (fun c b => V17 m outs c b) c 0)).trans (V18_of m outs c main_v154 (by decide)).symm)
  | ⟨1, _⟩ => ((dat3 (fun c b => V17 m outs c b) c).arrAt_in 1 rfl _).trans (((A_eq3 (fun c b => V17 m outs c b) c 1)).trans (V18_of m outs c main_arg9 (by decide)).symm)
  | ⟨2, _⟩ => ((dat3 (fun c b => V17 m outs c b) c).arrAt_in 2 rfl _).trans (((A_eq3 (fun c b => V17 m outs c b) c 2)).trans (V18_of m outs c main_v155 (by decide)).symm)
  | ⟨3, _⟩ => (hok.o18 c).symm.trans (show V18 m outs c main_v156 = outs 18 main_v156 c from by dsimp only [V18]; exact Function.update_self _ _ _).symm
theorem hrest3 (outs : Outs (F := F)) (c : Dev nD) : ∀ b, b ∉ Finset.univ.image (Pipeline.arrRef spec3) → V18 m outs c b = V17 m outs c b :=
  fun b hb => V18_of m outs c b (by
    simp only [List.mem_singleton]; intro e; exact hb (Finset.mem_image.mpr ⟨3, Finset.mem_univ _, e.symm⟩))

/-! ## The launches as segments -/

-- unifying a library lemma stated over a pinned configuration with the printed one needs plain definitions unfolded in a
-- metavariable's type
set_option backward.isDefEq.respectTransparency.types false in
/-- Region 0 as a segment of @main over the thread state "every unscoped buffer at the boundary's contents, the
    generator register at some state, nothing owed": entered from the contents before it, left at those contents with
    its output array replaced by what the pipeline's write-backs leave. Its arrays are split out of the unscoped
    buffers on entry and put back on exit; the generator register goes into the pipeline's invariant and comes back. -/
def reg0 (outs : Outs (F := F)) (hok : OutsOk m outs) : RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V3 m c b) c).loose
  hwaits := Pipeline.hwaits_of_owed_zero _ _ _ _ L lv 0 fun _ _ => rfl
  pre c := iprop(StableHlo.held (c : Thread nD τ) (Pipeline.ucRefs τ sig) (V3 m c) ∗ Rr c)
  post c := iprop(StableHlo.held (c : Thread nD τ) (Pipeline.ucRefs τ sig) (V4 m outs c) ∗ Rr c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (fun b => V3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (fun b => V3 m c b) (fun b => V4 m outs c b) ((pdats m outs 0 c).arrAt · cfg0.N) (hF0 m outs hok c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over a pinned configuration with the printed one needs plain definitions unfolded in a
-- metavariable's type
set_option backward.isDefEq.respectTransparency.types false in
/-- Region 1 as a segment of @main over the thread state "every unscoped buffer at the boundary's contents, the
    generator register at some state, nothing owed": entered from the contents before it, left at those contents with
    its output array replaced by what the pipeline's write-backs leave. Its arrays are split out of the unscoped
    buffers on entry and put back on exit; the generator register goes into the pipeline's invariant and comes back. -/
def reg1 (outs : Outs (F := F)) (hok : OutsOk m outs) : RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V9 m outs c b) c).loose
  hwaits := Pipeline.hwaits_of_owed_zero _ _ _ _ L lv 1 fun _ _ => rfl
  pre c := iprop(StableHlo.held (c : Thread nD τ) (Pipeline.ucRefs τ sig) (V9 m outs c) ∗ Rr c)
  post c := iprop(StableHlo.held (c : Thread nD τ) (Pipeline.ucRefs τ sig) (V10 m outs c) ∗ Rr c)
  X c := iprop(∃ r, prngReg c r)
  Y c := iprop(∃ r, prngReg c r)
  Z c := Pipeline.unscopedRest (Ix := Unit) (Name := ℕ) (U := UR sig nD τ) (Lvl := ℕ) spec1 c (fun b => V9 m outs c b)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (fun b => V9 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (fun b => V9 m outs c b) (fun b => V10 m outs c b) ((pdats m outs 1 c).arrAt · cfg1.N) (hF1 m outs hok c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over a pinned configuration with the printed one needs plain definitions unfolded in a
-- metavariable's type
set_option backward.isDefEq.respectTransparency.types false in
/-- Region 2 as a segment of @main over the thread state "every unscoped buffer at the boundary's contents, the
    generator register at some state, nothing owed": entered from the contents before it, left at those contents with
    its output array replaced by what the pipeline's write-backs leave. Its arrays are split out of the unscoped
    buffers on entry and put back on exit; the generator register goes into the pipeline's invariant and comes back. -/
def reg2 (outs : Outs (F := F)) (hok : OutsOk m outs) : RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => V15 m outs c b) c).loose
  hwaits := Pipeline.hwaits_of_owed_zero _ _ _ _ L lv 2 fun _ _ => rfl
  pre c := iprop(StableHlo.held (c : Thread nD τ) (Pipeline.ucRefs τ sig) (V15 m outs c) ∗ Rr c)
  post c := iprop(StableHlo.held (c : Thread nD τ) (Pipeline.ucRefs τ sig) (V16 m outs c) ∗ Rr c)
  X c := iprop(∃ r, prngReg c r)
  Y c := iprop(∃ r, prngReg c r)
  Z c := Pipeline.unscopedRest (Ix := Unit) (Name := ℕ) (U := UR sig nD τ) (Lvl := ℕ) spec2 c (fun b => V15 m outs c b)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (fun b => V15 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (fun b => V15 m outs c b) (fun b => V16 m outs c b) ((pdats m outs 2 c).arrAt · cfg2.N) (hF2 m outs hok c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over a pinned configuration with the printed one needs plain definitions unfolded in a
-- metavariable's type
set_option backward.isDefEq.respectTransparency.types false in
/-- Region 3 as a segment of @main over the thread state "every unscoped buffer at the boundary's contents, the
    generator register at some state, nothing owed": entered from the contents before it, left at those contents with
    its output array replaced by what the pipeline's write-backs leave. Its arrays are split out of the unscoped
    buffers on entry and put back on exit; the generator register goes into the pipeline's invariant and comes back. -/
def reg3 (outs : Outs (F := F)) (hok : OutsOk m outs) : RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => V17 m outs c b) c).loose
  hwaits := Pipeline.hwaits_of_owed_zero _ _ _ _ L lv 3 fun _ _ => rfl
  pre c := iprop(StableHlo.held (c : Thread nD τ) (Pipeline.ucRefs τ sig) (V17 m outs c) ∗ Rr c)
  post c := iprop(StableHlo.held (c : Thread nD τ) (Pipeline.ucRefs τ sig) (V18 m outs c) ∗ Rr c)
  X c := iprop(∃ r, prngReg c r)
  Y c := iprop(∃ r, prngReg c r)
  Z c := Pipeline.unscopedRest (Ix := Unit) (Name := ℕ) (U := UR sig nD τ) (Lvl := ℕ) spec3 c (fun b => V17 m outs c b)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (fun b => V17 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (fun b => V17 m outs c b) (fun b => V18 m outs c b) ((pdats m outs 3 c).arrAt · cfg3.N) (hF3 m outs hok c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The last thread state regrouped: the buffers and the generator register on one side, the dues on the other. -/
theorem lastState (outs : Outs (F := F)) (c : Dev nD) :
    (iprop(StableHlo.held (c : Thread nD τ) (Pipeline.ucRefs τ sig) (V19 m outs c) ∗ Rr c) : sProp 𝕄)
      ⊢ iprop((StableHlo.held (c : Thread nD τ) (Pipeline.ucRefs τ sig) (V19 m outs c) ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO

-- the launch theorem's implicit arguments are found by unifying its conclusion with this one, which takes unfolding plain
-- definitions in a metavariable's type
set_option backward.isDefEq.respectTransparency.types false in
/-- Every weakly fair execution of @main from memory `m` with zero counters terminates, nothing faulting, and every
    final memory holds each unscoped buffer of every core at the contents the nineteen items compose (`V19`): the
    library's launch theorem over the segment list, the last thread state read against the final state. -/
theorem run_all (ρ : Dev nD → PrngReg) (outs : Outs (F := F)) (hok : OutsOk m outs)
    {Q : PUnit × MemSt nD τ sig (Elt F) → Prop}
    (hQ : ∀ s : MemSt nD τ sig (Elt F), (∀ c : Dev nD, ∀ b ∈ Pipeline.ucRefs τ sig, s.mem (((c : Thread nD τ)).1, b) = V19 m outs c b) → Q (⟨⟩, s)) :
    θ_run defs (onTc (τ := τ) (main (F := F))) ⟨m, fun _ => 0, ρ⟩ Q := by
  refine Pipeline.θ_run_regions_kit_dev (pcfgs (F := F)) adm (pdats m outs) () cellOf_inj emb₁ defs₀ 𝒱₀ L lv m ρ main
    (segs m outs 𝒱₀ L lv Es () (pdats m outs) (reg0 m outs hok) (reg1 m outs hok) (reg2 m outs hok) (reg3 m outs hok))
    (fun c Q => by
      rewrite [main_chain c, Seg.run_eq_chain,
        show (segs m outs 𝒱₀ L lv Es () (pdats m outs) (reg0 m outs hok) (reg1 m outs hok) (reg2 m outs hok) (reg3 m outs hok) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Es 0 c))
    (Tₙ := fun c => iprop(StableHlo.held (c : Thread nD τ) (Pipeline.ucRefs τ sig) (V19 m outs c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, lastState m outs c⟩)
    (hinit := ?_)
    (QY := fun c s => ∀ b ∈ Pipeline.ucRefs τ sig, s.mem (((c : Thread nD τ)).1, b) = V19 m outs c b)
    (hfin := fun c s' => ?_) (hQ := hQ)
  · -- the launch: each core's unscoped buffers are held at the launch contents; the register and the dues ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last contents
    iintro ⟨⟨Hh, -⟩, HSI⟩
    unfold StableHlo.held
    imodintro
    iapply (pointsTo_read_all (Pipeline.ucRefs τ sig) (fun b => (((c : Thread nD τ)).1, b)) (V19 m outs c) s')
    isplitl [Hh] <;> iassumption

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every weakly fair execution terminates, faults nowhere, and the argument arrays end as launched. -/
theorem frame_of (ρ : Dev nD → PrngReg) (outs : Outs (F := F)) (hok : OutsOk m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_all m ρ outs hok fun s h c =>
    ⟨(h c _ (mem_uc main_arg0 (by decide))).trans (V19_main_arg0 m outs c),
     (h c _ (mem_uc main_arg1 (by decide))).trans (V19_main_arg1 m outs c),
     (h c _ (mem_uc main_arg2 (by decide))).trans (V19_main_arg2 m outs c),
     (h c _ (mem_uc main_arg3 (by decide))).trans (V19_main_arg3 m outs c),
     (h c _ (mem_uc main_arg4 (by decide))).trans (V19_main_arg4 m outs c),
     (h c _ (mem_uc main_arg5 (by decide))).trans (V19_main_arg5 m outs c),
     (h c _ (mem_uc main_arg6 (by decide))).trans (V19_main_arg6 m outs c),
     (h c _ (mem_uc main_arg7 (by decide))).trans (V19_main_arg7 m outs c),
     (h c _ (mem_uc main_arg8 (by decide))).trans (V19_main_arg8 m outs c),
     (h c _ (mem_uc main_arg9 (by decide))).trans (V19_main_arg9 m outs c),
     (h c _ (mem_uc main_arg10 (by decide))).trans (V19_main_arg10 m outs c)⟩

end Cert.Kernel.Hand

end
-- ==== Proof.K.Outs.lean ====
/-
  The four launches' output arrays exist. Launch 0's output is read off its pipeline entered at the contents the first
  three host stretches produce; launch 1's pipeline is entered at contents that already depend on launch 0's output,
  launch 2's on the first two, launch 3's on all three. So the family `outs` is built in four steps, each step fixing
  one more array and never changing the earlier ones, and the contents before a launch depend only on the arrays
  fixed before it.
-/
import proofs.«141398_j71476845740179_1_alg».proof.Proof.K.Run

set_option maxRecDepth 16384

noncomputable section

namespace Cert.Kernel.Hand

open Cert.Kernel Cert.Kernel.Gen
open Idealize.ShloMosaic Idealize.ShloMosaic.TcCoe Idealize.SL.Sem

variable {F : FTy → Type} [FloatOps F]

variable (m : (ℓ : Loc nD τ sig) → Buf (Elt F) ℓ)

/-- Step one: launch 0's output array, whatever the index asked. -/
def outsA : Outs (F := F) := fun _ r c =>
  Function.update (V3 m c) main_v36 ((dat0 (fun c b => V3 m c b) c).arrAt 2 cfg0.N) r
/-- Step two: launch 1's output array, the pipeline entered at contents made with step one. -/
def outsB : Outs (F := F) := fun j r c =>
  if j = 4 then outsA m j r c
  else Function.update (V9 m (outsA m) c) main_v84 ((dat1 (fun c b => V9 m (outsA m) c b) c).arrAt 2 cfg1.N) r
/-- Step three: launch 2's output array. -/
def outsC : Outs (F := F) := fun j r c =>
  if j = 4 ∨ j = 10 then outsB m j r c
  else Function.update (V15 m (outsB m) c) main_v132 ((dat2 (fun c b => V15 m (outsB m) c b) c).arrAt 2 cfg2.N) r
/-- Step four: launch 3's output array. -/
def outsD : Outs (F := F) := fun j r c =>
  if j = 4 ∨ j = 10 ∨ j = 16 then outsC m j r c
  else Function.update (V17 m (outsC m) c) main_v156 ((dat3 (fun c b => V17 m (outsC m) c b) c).arrAt 3 cfg3.N) r

/-! The contents before a launch depend only on the arrays fixed before it. -/

theorem V9_congr (c : Dev nD) (o o' : Outs (F := F)) (h4 : o 4 main_v36 c = o' 4 main_v36 c) : V9 m o c = V9 m o' c := by
  dsimp only [V9, V8, V7, V6, V5, V4]; rw [h4]
theorem V15_congr (c : Dev nD) (o o' : Outs (F := F)) (h4 : o 4 main_v36 c = o' 4 main_v36 c) (h10 : o 10 main_v84 c = o' 10 main_v84 c) :
    V15 m o c = V15 m o' c := by
  dsimp only [V15, V14, V13, V12, V11, V10, V9, V8, V7, V6, V5, V4]; rw [h4, h10]
theorem V17_congr (c : Dev nD) (o o' : Outs (F := F)) (h4 : o 4 main_v36 c = o' 4 main_v36 c) (h10 : o 10 main_v84 c = o' 10 main_v84 c)
    (h16 : o 16 main_v132 c = o' 16 main_v132 c) : V17 m o c = V17 m o' c := by
  dsimp only [V17, V16, V15, V14, V13, V12, V11, V10, V9, V8, V7, V6, V5, V4]; rw [h4, h10, h16]

theorem outsD_4 (r : Ref sig .tc) (c : Dev nD) : outsD m 4 r c = outsA m 4 r c := by
  unfold outsD; rw [if_pos (by decide)]; unfold outsC; rw [if_pos (by decide)]; unfold outsB; rw [if_pos rfl]
theorem outsC_4 (r : Ref sig .tc) (c : Dev nD) : outsC m 4 r c = outsA m 4 r c := by
  unfold outsC; rw [if_pos (by decide)]; unfold outsB; rw [if_pos rfl]
theorem outsB_4 (r : Ref sig .tc) (c : Dev nD) : outsB m 4 r c = outsA m 4 r c := by
  unfold outsB; rw [if_pos rfl]
theorem outsD_10 (r : Ref sig .tc) (c : Dev nD) : outsD m 10 r c = outsB m 10 r c := by
  unfold outsD; rw [if_pos (by decide)]; unfold outsC; rw [if_pos (by decide)]
theorem outsC_10 (r : Ref sig .tc) (c : Dev nD) : outsC m 10 r c = outsB m 10 r c := by
  unfold outsC; rw [if_pos (by decide)]
theorem outsD_16 (r : Ref sig .tc) (c : Dev nD) : outsD m 16 r c = outsC m 16 r c := by
  unfold outsD; rw [if_pos (by decide)]

theorem entry1 : (fun (c : Dev nD) (b : Ref sig .tc) => V9 m (outsA m) c b) = fun (c : Dev nD) (b : Ref sig .tc) => V9 m (outsD m) c b :=
  funext fun c => funext fun b => congrFun (V9_congr m c _ _ (outsD_4 m main_v36 c).symm) b
theorem entry2 : (fun (c : Dev nD) (b : Ref sig .tc) => V15 m (outsB m) c b) = fun (c : Dev nD) (b : Ref sig .tc) => V15 m (outsD m) c b :=
  funext fun c => funext fun b => congrFun (V15_congr m c _ _ ((outsB_4 m main_v36 c).trans (outsD_4 m main_v36 c).symm) (outsD_10 m main_v84 c).symm) b
theorem entry3 : (fun (c : Dev nD) (b : Ref sig .tc) => V17 m (outsC m) c b) = fun (c : Dev nD) (b : Ref sig .tc) => V17 m (outsD m) c b :=
  funext fun c => funext fun b => congrFun (V17_congr m c _ _ ((outsC_4 m main_v36 c).trans (outsD_4 m main_v36 c).symm)
    ((outsC_10 m main_v84 c).trans (outsD_10 m main_v84 c).symm) (outsD_16 m main_v132 c).symm) b

/-- The family built above satisfies the four equations. -/
theorem outsD_ok : OutsOk m (outsD m) where
  o4 c := by
    rw [outsD_4]; unfold outsA; exact Function.update_self _ _ _
  o10 c := by
    rw [outsD_10, ← entry1]; unfold outsB; rw [if_neg (by decide)]; exact Function.update_self _ _ _
  o16 c := by
    rw [outsD_16, ← entry2]; unfold outsC; rw [if_neg (by decide)]; exact Function.update_self _ _ _
  o18 c := by
    rw [← entry3]; unfold outsD; rw [if_neg (by decide)]; exact Function.update_self _ _ _

end Cert.Kernel.Hand

end
-- ==== Proof.KI.Reg0.lean ====
/-
  Region 0 of @main: one `_matmul_kernel` launch over a grid of 25 points. At a point the pipeline hands the body
  three whole staging buffers: a block of 2000 rows of the left operand, the whole weight matrix, and the output
  block. The body reads the two inputs (and, unused, the output buffer), rounds both inputs to bf16, multiplies them
  into a zero accumulator and stores the product over the whole output block. So after the body the output buffer
  holds `k0_pay1` of the two input blocks, whatever it held before, and the inputs are untouched. This module
  states that as the body's triple, packages it as the pipeline's proof data at an arbitrary contents `V` of the
  buffers on entry, and discharges the pipeline's per-point body obligation. Everything is generic in the float
  instance `F`: no arithmetic is opened.
-/
import proofs.«141398_j71476845740179_1_alg».proof.Proof.Gen.KernelIdeal.Launch
import proofs.«141398_j71476845740179_1_alg».proof.Proof.Gen.KernelIdeal.Skeleton
import proofs.«141398_j71476845740179_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point, for any proof data over the entry contents
    whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight matrix at every point: it is fetched at the first point only,
    and its block index never moves, so an unfetched point still finds the same block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2000x512 := Rect.unit (s := S2000x512) ![0, 0] S2000x512.size inb_S2000x512_S2000x512_0_0
abbrev r0_1 : Rect S512x256 := Rect.unit (s := S512x256) ![0, 0] S512x256.size inb_S512x256_S512x256_0_0
abbrev r0_2 : Rect S2000x256 := Rect.unit (s := S2000x256) ![0, 0] S2000x256.size inb_S2000x256_S2000x256_0_0

/-! ## What the body leaves in the output buffer -/

/-- The output buffer after the body: its one store, of the product of the two input blocks, over the whole block. -/
def out0_2 (x0 : Vec F S2000x512 .f32) (x1 : Vec F S512x256 .f32) : Vec F S2000x256 .f32 :=
  View.canon [⟨r0_2, k0_pay1 (View.ld x0 r0_0) (View.ld x1 r0_1)⟩]

/-- The one store covers the output block. -/
theorem cover0_2 (p0 : Vec F S2000x256 .f32) (y : S2000x256.Idx) :
    ∃ pc ∈ ([⟨r0_2, p0⟩] : List (View.Piece (Elt F) S2000x256 .f32)), y ∈ pc.1.set :=
  View.cover_of_tiled [⟨r0_2, p0⟩] S2000x256.size (by rfl) y

/-! ## The body's triple -/

set_option maxHeartbeats 1000000 in
/-- The body on whole staging buffers — the inputs' at contents `x0`, `x1`, the output's at anything — runs to the
    continuation with the inputs as they were and the output at `out0_2 x0 x1`. -/
theorem sound_kernel0 (c : Dev nD) (E : Set ℕ) (i : grid0.Coords)
    (arg1 : Memref sig .tc .vmem S2000x512 .f32) (harg1 : arg1.IsWhole)
    (arg2 : Memref sig .tc .vmem S512x256 .f32) (harg2 : arg2.IsWhole)
    (arg3 : Memref sig .tc .vmem S2000x256 .f32) (harg3 : arg3.IsWhole)
    (x0 : Vec F S2000x512 .f32) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t`
    each input's buffer still at its block and the output's at the product of the two input blocks; the invariant is
    the plain one (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of @main: one `_matmul_kernel` launch over a grid of 25 points. At a point the pipeline hands the body
  three whole staging buffers: a block of 2000 rows of the left operand, the whole weight matrix, and the output
  block. The body reads the two inputs (and, unused, the output buffer), rounds both inputs to bf16, multiplies them
  into a zero accumulator and stores the product over the whole output block. So after the body the output buffer
  holds `k1_pay1` of the two input blocks, whatever it held before, and the inputs are untouched. This module
  states that as the body's triple, packages it as the pipeline's proof data at an arbitrary contents `V` of the
  buffers on entry, and discharges the pipeline's per-point body obligation. Everything is generic in the float
  instance `F`: no arithmetic is opened.
-/
import proofs.«141398_j71476845740179_1_alg».proof.Proof.Gen.KernelIdeal.Launch
import proofs.«141398_j71476845740179_1_alg».proof.Proof.Gen.KernelIdeal.Skeleton
import proofs.«141398_j71476845740179_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point, for any proof data over the entry contents
    whose body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weights' staging buffer holds the whole weight matrix at every point: it is fetched at the first point only,
    and its block index never moves, so an unfetched point still finds the same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2000x256 := Rect.unit (s := S2000x256) ![0, 0] S2000x256.size inb_S2000x256_S2000x256_0_0
abbrev r1_1 : Rect S256x256 := Rect.unit (s := S256x256) ![0, 0] S256x256.size inb_S256x256_S256x256_0_0
abbrev r1_2 : Rect S2000x256 := Rect.unit (s := S2000x256) ![0, 0] S2000x256.size inb_S2000x256_S2000x256_0_0

/-! ## What the body leaves in the output buffer -/

/-- The output buffer after the body: its one store, of the product of the two input blocks, over the whole block. -/
def out1_2 (x0 : Vec F S2000x256 .f32) (x1 : Vec F S256x256 .f32) : Vec F S2000x256 .f32 :=
  View.canon [⟨r1_2, k1_pay1 (View.ld x0 r1_0) (View.ld x1 r1_1)⟩]

/-- The one store covers the output block. -/
theorem cover1_2 (p0 : Vec F S2000x256 .f32) (y : S2000x256.Idx) :
    ∃ pc ∈ ([⟨r1_2, p0⟩] : List (View.Piece (Elt F) S2000x256 .f32)), y ∈ pc.1.set :=
  View.cover_of_tiled [⟨r1_2, p0⟩] S2000x256.size (by rfl) y

/-! ## The body's triple -/

set_option maxHeartbeats 1000000 in
/-- The body on whole staging buffers — the inputs' at contents `x0`, `x1`, the output's at anything — runs to the
    continuation with the inputs as they were and the output at `out1_2 x0 x1`. -/
theorem sound_kernel1 (c : Dev nD) (E : Set ℕ) (i : grid1.Coords)
    (arg1 : Memref sig .tc .vmem S2000x256 .f32) (harg1 : arg1.IsWhole)
    (arg2 : Memref sig .tc .vmem S256x256 .f32) (harg2 : arg2.IsWhole)
    (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core `c`: the arrays as the region finds them; after the body at point `t`
    each input's buffer still at its block and the output's at the product of the two input blocks; the invariant is
    the plain one (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of @main: one `_matmul_kernel` launch over a grid of 25 points. At a point the pipeline hands the body
  three whole staging buffers: a block of 2000 rows of the left operand, the whole weight matrix, and the output
  block. The body reads the two inputs (and, unused, the output buffer), rounds both inputs to bf16, multiplies them
  into a zero accumulator and stores the product over the whole output block. So after the body the output buffer
  holds `k2_pay1` of the two input blocks, whatever it held before, and the inputs are untouched. This module
  states that as the body's triple, packages it as the pipeline's proof data at an arbitrary contents `V` of the
  buffers on entry, and discharges the pipeline's per-point body obligation. Everything is generic in the float
  instance `F`: no arithmetic is opened.
-/
import proofs.«141398_j71476845740179_1_alg».proof.Proof.Gen.KernelIdeal.Launch
import proofs.«141398_j71476845740179_1_alg».proof.Proof.Gen.KernelIdeal.Skeleton
import proofs.«141398_j71476845740179_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds its block at every point, for any proof data over the entry contents
    whose body leaves that block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' staging buffer holds the whole weight matrix at every point: it is fetched at the first point only,
    and its block index never moves, so an unfetched point still finds the same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S2000x256 := Rect.unit (s := S2000x256) ![0, 0] S2000x256.size inb_S2000x256_S2000x256_0_0
abbrev r2_1 : Rect S256x256 := Rect.unit (s := S256x256) ![0, 0] S256x256.size inb_S256x256_S256x256_0_0
abbrev r2_2 : Rect S2000x256 := Rect.unit (s := S2000x256) ![0, 0] S2000x256.size inb_S2000x256_S2000x256_0_0

/-! ## What the body leaves in the output buffer -/

/-- The output buffer after the body: its one store, of the product of the two input blocks, over the whole block. -/
def out2_2 (x0 : Vec F S2000x256 .f32) (x1 : Vec F S256x256 .f32) : Vec F S2000x256 .f32 :=
  View.canon [⟨r2_2, k2_pay1 (View.ld x0 r2_0) (View.ld x1 r2_1)⟩]

/-- The one store covers the output block. -/
theorem cover2_2 (p0 : Vec F S2000x256 .f32) (y : S2000x256.Idx) :
    ∃ pc ∈ ([⟨r2_2, p0⟩] : List (View.Piece (Elt F) S2000x256 .f32)), y ∈ pc.1.set :=
  View.cover_of_tiled [⟨r2_2, p0⟩] S2000x256.size (by rfl) y

/-! ## The body's triple -/

set_option maxHeartbeats 1000000 in
/-- The body on whole staging buffers — the inputs' at contents `x0`, `x1`, the output's at anything — runs to the
    continuation with the inputs as they were and the output at `out2_2 x0 x1`. -/
theorem sound_kernel2 (c : Dev nD) (E : Set ℕ) (i : grid2.Coords)
    (arg1 : Memref sig .tc .vmem S2000x256 .f32) (harg1 : arg1.IsWhole)
    (arg2 : Memref sig .tc .vmem S256x256 .f32) (harg2 : arg2.IsWhole)
    (arg3 : Memref sig .tc .vmem S2000x256 .f32) (harg3 : arg3.IsWhole)
    (x0 : Vec F S2000x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them; after the body at point `t`
    each input's buffer still at its block and the output's at the product of the two input blocks; the invariant is
    the plain one (the scoped rest and the generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3 of @main: the `_linear_kernel` launch over a grid of 25 points. At a point the pipeline hands the body four
  whole staging buffers: a block of 2000 rows of the concatenated features, the whole weight matrix, the bias as one
  row, and the output block. The body reads the three inputs (and, unused, the output buffer), rounds the two matrix
  operands to bf16, multiplies them into a zero accumulator, adds the bias row to every row and stores the result over
  the whole output block. So after the body the output buffer holds `k3_pay1` of the three input blocks, whatever it
  held before, and the inputs are untouched. This module states that as the body's triple, packages it as the
  pipeline's proof data at an arbitrary contents `V` of the buffers on entry, and discharges the pipeline's per-point
  body obligation. Everything is generic in the float instance `F`: no arithmetic is opened.
-/
import proofs.«141398_j71476845740179_1_alg».proof.Proof.Gen.KernelIdeal.Launch
import proofs.«141398_j71476845740179_1_alg».proof.Proof.Gen.KernelIdeal.Skeleton
import proofs.«141398_j71476845740179_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The feature block's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weights' staging buffer holds the whole weight matrix at every point (fetched once; its index never moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias row's staging buffer holds the bias at every point (fetched once; its index never moves). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S2000x768 := Rect.unit (s := S2000x768) ![0, 0] S2000x768.size inb_S2000x768_S2000x768_0_0
abbrev r3_1 : Rect S768x8 := Rect.unit (s := S768x8) ![0, 0] S768x8.size inb_S768x8_S768x8_0_0
abbrev r3_2 : Rect S1x8 := Rect.unit (s := S1x8) ![0, 0] S1x8.size inb_S1x8_S1x8_0_0
abbrev r3_3 : Rect S2000x8 := Rect.unit (s := S2000x8) ![0, 0] S2000x8.size inb_S2000x8_S2000x8_0_0

/-! ## What the body leaves in the output buffer -/

/-- The output buffer after the body: its one store, of the product of the two matrix blocks plus the bias row, over the
    whole block. -/
def out3_3 (x0 : Vec F S2000x768 .f32) (x1 : Vec F S768x8 .f32) (x2 : Vec F S1x8 .f32) : Vec F S2000x8 .f32 :=
  View.canon [⟨r3_3, k3_pay1 (View.ld x0 r3_0) (View.ld x1 r3_1) (View.ld x2 r3_2)⟩]

/-- The one store covers the output block. -/
theorem cover3_3 (p0 : Vec F S2000x8 .f32) (y : S2000x8.Idx) :
    ∃ pc ∈ ([⟨r3_3, p0⟩] : List (View.Piece (Elt F) S2000x8 .f32)), y ∈ pc.1.set :=
  View.cover_of_tiled [⟨r3_3, p0⟩] S2000x8.size (by rfl) y

/-! ## The body's triple -/

set_option maxHeartbeats 1000000 in
/-- The body on whole staging buffers — the inputs' at contents `x0`, `x1`, `x2`, the output's at anything — runs to
    the continuation with the inputs as they were and the output at `out3_3 x0 x1 x2`. -/
theorem sound_kernel3 (c : Dev nD) (E : Set ℕ) (i : grid3.Coords)
    (arg1 : Memref sig .tc .vmem S2000x768 .f32) (harg1 : arg1.IsWhole)
    (arg2 : Memref sig .tc .vmem S768x8 .f32) (harg2 : arg2.IsWhole)
    (arg3 : Memref sig .tc .vmem S1x8 .f32) (harg3 : arg3.IsWhole)
    (arg4 : Memref sig .tc .vmem S2000x8 .f32) (harg4 : arg4.IsWhole)
    (x0 : Vec F S2000x768 .f32) (x1 : Vec F S768x8 .f32) (x2 : Vec F S1x8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this pipeline on core `c`: the arrays as the region finds them; after the body at point `t`
    each input's buffer still at its block and the output's at the product plus bias of the input blocks; the plain
    invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  @main of the program as a run of segments. @main is nineteen items: host stretches of jnp glue and, between them,
  the four kernel launches (three matrix products and the final linear layer). Between two items a core holds every
  unscoped buffer whole at known contents: the launch memory, then each host stretch's operations applied in order,
  then, after a launch, the same contents with the launch's output array replaced by what the pipeline's write-backs
  leave (`Dat.arrAt` of the output window at the last point). This module fixes those four output arrays
  (`OutsOk`), gives each launch as a segment record over that thread state (its arrays split out of the unscoped
  buffers on entry and put back on exit), chains the nineteen items, and reads every unscoped buffer back at the end.
  Two consequences: the argument arrays end as launched (no item writes one), and the result buffer ends at the last
  stretch's value of it. Everything is generic in the float instance.
-/
import proofs.«141398_j71476845740179_1_alg».proof.Proof.Gen.KernelIdeal.Regions
import proofs.«141398_j71476845740179_1_alg».proof.Proof.KI.Reg0
import proofs.«141398_j71476845740179_1_alg».proof.Proof.KI.Reg1
import proofs.«141398_j71476845740179_1_alg».proof.Proof.KI.Reg2
import proofs.«141398_j71476845740179_1_alg».proof.Proof.KI.Reg3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the four launches leave -/

/-- The contents each launch leaves in its output array are what its pipeline's write-backs leave there, the pipeline
    entered at the contents the items before it produce. (Launch 1 is entered at contents that depend on launch 0's
    output, and so on: the four equations are stated about one family `outs`.) -/
structure OutsOk (outs : Outs (F := F)) : Prop where
  o4 : ∀ c : Dev nD, outs 4 main_v36 c = (dat0 (fun c b => V3 m c b) c).arrAt 2 cfg0.N
  o10 : ∀ c : Dev nD, outs 10 main_v84 c = (dat1 (fun c b => V9 m outs c b) c).arrAt 2 cfg1.N
  o16 : ∀ c : Dev nD, outs 16 main_v132 c = (dat2 (fun c b => V15 m outs c b) c).arrAt 2 cfg2.N
  o18 : ∀ c : Dev nD, outs 18 main_v156 c = (dat3 (fun c b => V17 m outs c b) c).arrAt 3 cfg3.N

/-- Every pipeline's proof data, each at its launch's entry contents. -/
def pdats (outs : Outs (F := F)) : (p : Fin 4) → (c : Dev nD) → Dat τ (Elt F) Unit ℕ (UR sig nD τ) ℕ (cfgs p) c
  | ⟨0, _⟩ => fun c => dat0 (fun c b => V3 m c b) c
  | ⟨1, _⟩ => fun c => dat1 (fun c b => V9 m outs c b) c
  | ⟨2, _⟩ => fun c => dat2 (fun c b => V15 m outs c b) c
  | ⟨3, _⟩ => fun c => dat3 (fun c b => V17 m outs c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev Rr (c : Dev nD) : sProp 𝕄 := iprop((∃ r, prngReg c r) ∗ ∃ W, owes (c : Thread nD τ) (0 : CellTallies nD τ sig Unit) W)
abbrev Es : Fin 5 → Dev nD → sProp 𝕄 := fun _ c => Rr c

/-! ## A launch's exit contents: its arrays at what the pipeline leaves, every other buffer as entered -/

theorem hF0 (outs : Outs (F := F)) (hok : OutsOk m outs) (c : Dev nD) :
    ∀ w : Fin cfg0.W, (pdats m outs 0 c).arrAt w cfg0.N = V4 m outs c (Pipeline.arrRef spec0 w)
  | ⟨0, _⟩ => ((dat0 (fun c b => V3 m c b) c).arrAt_in 0 rfl _).trans (((A_eq0 (fun c b => V3 m c b) c 0)).trans (V4_of m outs c main_arg0 (by decide)).symm)
  | ⟨1, _⟩ => ((dat0 (fun c b => V3 m c b) c).arrAt_in 1 rfl _).trans (((A_eq0 (fun c b => V3 m c b) c 1)).trans (V4_of m outs c main_arg3 (by decide)).symm)
  | ⟨2, _⟩ => (hok.o4 c).symm.trans (show V4 m outs c main_v36 = outs 4 main_v36 c from by dsimp only [V4]; exact Function.update_self _ _ _).symm
theorem hrest0 (outs : Outs (F := F)) (c : Dev nD) : ∀ b, b ∉ Finset.univ.image (Pipeline.arrRef spec0) → V4 m outs c b = V3 m c b :=
  fun b hb => V4_of m outs c b (by
    simp only [List.mem_singleton]; intro e; exact hb (Finset.mem_image.mpr ⟨2, Finset.mem_univ _, e.symm⟩))

theorem hF1 (outs : Outs (F := F)) (hok : OutsOk m outs) (c : Dev nD) :
    ∀ w : Fin cfg1.W, (pdats m outs 1 c).arrAt w cfg1.N = V10 m outs c (Pipeline.arrRef spec1 w)
  | ⟨0, _⟩ => ((dat1 (fun c b => V9 m outs c b) c).arrAt_in 0 rfl _).trans (((A_eq1 (fun c b => V9 m outs c b) c 0)).trans (V10_of m outs c main_v58 (by decide)).symm)
  | ⟨1, _⟩ => ((dat1 (fun c b => V9 m outs c b) c).arrAt_in 1 rfl _).trans (((A_eq1 (fun c b => V9 m outs c b) c 1)).trans (V10_of m outs c main_arg5 (by decide)).symm)
  | ⟨2, _⟩ => (hok.o10 c).symm.trans (show V10 m outs c main_v84 = outs 10 main_v84 c from by dsimp only [V10]; exact Function.update_self _ _ _).symm
theorem hrest1 (outs : Outs (F := F)) (c : Dev nD) : ∀ b, b ∉ Finset.univ.image (Pipeline.arrRef spec1) → V10 m outs c b = V9 m outs c b :=
  fun b hb => V10_of m outs c b (by
    simp only [List.mem_singleton]; intro e; exact hb (Finset.mem_image.mpr ⟨2, Finset.mem_univ _, e.symm⟩))

theorem hF2 (outs : Outs (F := F)) (hok : OutsOk m outs) (c : Dev nD) :
    ∀ w : Fin cfg2.W, (pdats m outs 2 c).arrAt w cfg2.N = V16 m outs c (Pipeline.arrRef spec2 w)
  | ⟨0, _⟩ => ((dat2 (fun c b => V15 m outs c b) c).arrAt_in 0 rfl _).trans (((A_eq2 (fun c b => V15 m outs c b) c 0)).trans (V16_of m outs c main_v106 (by decide)).symm)
  | ⟨1, _⟩ => ((dat2 (fun c b => V15 m outs c b) c).arrAt_in 1 rfl _).trans (((A_eq2 (fun c b => V15 m outs c b) c 1)).trans (V16_of m outs c main_arg7 (by decide)).symm)
  | ⟨2, _⟩ => (hok.o16 c).symm.trans (show V16 m outs c main_v132 = outs 16 main_v132 c from by dsimp only [V16]; exact Function.update_self _ _ _).symm
theorem hrest2 (outs : Outs (F := F)) (c : Dev nD) : ∀ b, b ∉ Finset.univ.image (Pipeline.arrRef spec2) → V16 m outs c b = V15 m outs c b :=
  fun b hb => V16_of m outs c b (by
    simp only [List.mem_singleton]; intro e; exact hb (Finset.mem_image.mpr ⟨2, Finset.mem_univ _, e.symm⟩))

theorem hF3 (outs : Outs (F := F)) (hok : OutsOk m outs) (c : Dev nD) :
    ∀ w : Fin cfg3.W, (pdats m outs 3 c).arrAt w cfg3.N = V18 m outs c (Pipeline.arrRef spec3 w)
  | ⟨0, _⟩ => ((dat3 (fun c b => V17 m outs c b) c).arrAt_in 0 rfl _).trans (((A_eq3 (fun c b => V17 m outs c b) c 0)).trans (V18_of m outs c main_v154 (by decide)).symm)
  | ⟨1, _⟩ => ((dat3 (fun c b => V17 m outs c b) c).arrAt_in 1 rfl _).trans (((A_eq3 (fun c b => V17 m outs c b) c 1)).trans (V18_of m outs c main_arg9 (by decide)).symm)
  | ⟨2, _⟩ => ((dat3 (fun c b => V17 m outs c b) c).arrAt_in 2 rfl _).trans (((A_eq3 (fun c b => V17 m outs c b) c 2)).trans (V18_of m outs c main_v155 (by decide)).symm)
  | ⟨3, _⟩ => (hok.o18 c).symm.trans (show V18 m outs c main_v156 = outs 18 main_v156 c from by dsimp only [V18]; exact Function.update_self _ _ _).symm
theorem hrest3 (outs : Outs (F := F)) (c : Dev nD) : ∀ b, b ∉ Finset.univ.image (Pipeline.arrRef spec3) → V18 m outs c b = V17 m outs c b :=
  fun b hb => V18_of m outs c b (by
    simp only [List.mem_singleton]; intro e; exact hb (Finset.mem_image.mpr ⟨3, Finset.mem_univ _, e.symm⟩))

/-! ## The launches as segments -/

-- unifying a library lemma stated over a pinned configuration with the printed one needs plain definitions unfolded in a
-- metavariable's type
set_option backward.isDefEq.respectTransparency.types false in
/-- Region 0 as a segment of @main over the thread state "every unscoped buffer at the boundary's contents, the
    generator register at some state, nothing owed": entered from the contents before it, left at those contents with
    its output array replaced by what the pipeline's write-backs leave. Its arrays are split out of the unscoped
    buffers on entry and put back on exit; the generator register goes into the pipeline's invariant and comes back. -/
def reg0 (outs : Outs (F := F)) (hok : OutsOk m outs) : RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => V3 m c b) c).loose
  hwaits := Pipeline.hwaits_of_owed_zero _ _ _ _ L lv 0 fun _ _ => rfl
  pre c := iprop(StableHlo.held (c : Thread nD τ) (Pipeline.ucRefs τ sig) (V3 m c) ∗ Rr c)
  post c := iprop(StableHlo.held (c : Thread nD τ) (Pipeline.ucRefs τ sig) (V4 m outs c) ∗ Rr c)
  X c := iprop(∃ r, prngReg c r)
  Y c := iprop(∃ r, prngReg c r)
  Z c := Pipeline.unscopedRest (Ix := Unit) (Name := ℕ) (U := UR sig nD τ) (Lvl := ℕ) spec0 c (fun b => V3 m c b)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (fun b => V3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (fun b => V3 m c b) (fun b => V4 m outs c b) ((pdats m outs 0 c).arrAt · cfg0.N) (hF0 m outs hok c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over a pinned configuration with the printed one needs plain definitions unfolded in a
-- metavariable's type
set_option backward.isDefEq.respectTransparency.types false in
/-- Region 1 as a segment of @main over the thread state "every unscoped buffer at the boundary's contents, the
    generator register at some state, nothing owed": entered from the contents before it, left at those contents with
    its output array replaced by what the pipeline's write-backs leave. Its arrays are split out of the unscoped
    buffers on entry and put back on exit; the generator register goes into the pipeline's invariant and comes back. -/
def reg1 (outs : Outs (F := F)) (hok : OutsOk m outs) : RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => V9 m outs c b) c).loose
  hwaits := Pipeline.hwaits_of_owed_zero _ _ _ _ L lv 1 fun _ _ => rfl
  pre c := iprop(StableHlo.held (c : Thread nD τ) (Pipeline.ucRefs τ sig) (V9 m outs c) ∗ Rr c)
  post c := iprop(StableHlo.held (c : Thread nD τ) (Pipeline.ucRefs τ sig) (V10 m outs c) ∗ Rr c)
  X c := iprop(∃ r, prngReg c r)
  Y c := iprop(∃ r, prngReg c r)
  Z c := Pipeline.unscopedRest (Ix := Unit) (Name := ℕ) (U := UR sig nD τ) (Lvl := ℕ) spec1 c (fun b => V9 m outs c b)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (fun b => V9 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (fun b => V9 m outs c b) (fun b => V10 m outs c b) ((pdats m outs 1 c).arrAt · cfg1.N) (hF1 m outs hok c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over a pinned configuration with the printed one needs plain definitions unfolded in a
-- metavariable's type
set_option backward.isDefEq.respectTransparency.types false in
/-- Region 2 as a segment of @main over the thread state "every unscoped buffer at the boundary's contents, the
    generator register at some state, nothing owed": entered from the contents before it, left at those contents with
    its output array replaced by what the pipeline's write-backs leave. Its arrays are split out of the unscoped
    buffers on entry and put back on exit; the generator register goes into the pipeline's invariant and comes back. -/
def reg2 (outs : Outs (F := F)) (hok : OutsOk m outs) : RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => V15 m outs c b) c).loose
  hwaits := Pipeline.hwaits_of_owed_zero _ _ _ _ L lv 2 fun _ _ => rfl
  pre c := iprop(StableHlo.held (c : Thread nD τ) (Pipeline.ucRefs τ sig) (V15 m outs c) ∗ Rr c)
  post c := iprop(StableHlo.held (c : Thread nD τ) (Pipeline.ucRefs τ sig) (V16 m outs c) ∗ Rr c)
  X c := iprop(∃ r, prngReg c r)
  Y c := iprop(∃ r, prngReg c r)
  Z c := Pipeline.unscopedRest (Ix := Unit) (Name := ℕ) (U := UR sig nD τ) (Lvl := ℕ) spec2 c (fun b => V15 m outs c b)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (fun b => V15 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (fun b => V15 m outs c b) (fun b => V16 m outs c b) ((pdats m outs 2 c).arrAt · cfg2.N) (hF2 m outs hok c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over a pinned configuration with the printed one needs plain definitions unfolded in a
-- metavariable's type
set_option backward.isDefEq.respectTransparency.types false in
/-- Region 3 as a segment of @main over the thread state "every unscoped buffer at the boundary's contents, the
    generator register at some state, nothing owed": entered from the contents before it, left at those contents with
    its output array replaced by what the pipeline's write-backs leave. Its arrays are split out of the unscoped
    buffers on entry and put back on exit; the generator register goes into the pipeline's invariant and comes back. -/
def reg3 (outs : Outs (F := F)) (hok : OutsOk m outs) : RegionSeg (pcfgs (F := F)) adm (pdats m outs) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => V17 m outs c b) c).loose
  hwaits := Pipeline.hwaits_of_owed_zero _ _ _ _ L lv 3 fun _ _ => rfl
  pre c := iprop(StableHlo.held (c : Thread nD τ) (Pipeline.ucRefs τ sig) (V17 m outs c) ∗ Rr c)
  post c := iprop(StableHlo.held (c : Thread nD τ) (Pipeline.ucRefs τ sig) (V18 m outs c) ∗ Rr c)
  X c := iprop(∃ r, prngReg c r)
  Y c := iprop(∃ r, prngReg c r)
  Z c := Pipeline.unscopedRest (Ix := Unit) (Name := ℕ) (U := UR sig nD τ) (Lvl := ℕ) spec3 c (fun b => V17 m outs c b)
  hentry c := by
    rw [Pipeline.ownSems0_none]
    have hsplit := Pipeline.arrays_of_unscopedBufs (p := 3) (pcfgs (F := F)) adm (pdats m outs) launch3.win launch3.arr_whole c
      ((pdats m outs 3 c).share_full fun _ => rfl) (fun b => V17 m outs c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m outs) ((pdats m outs 3 c).share_full fun _ => rfl)
      (fun b => V17 m outs c b) (fun b => V18 m outs c b) ((pdats m outs 3 c).arrAt · cfg3.N) (hF3 m outs hok c) (hrest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The last thread state regrouped: the buffers and the generator register on one side, the dues on the other. -/
theorem lastState (outs : Outs (F := F)) (c : Dev nD) :
    (iprop(StableHlo.held (c : Thread nD τ) (Pipeline.ucRefs τ sig) (V19 m outs c) ∗ Rr c) : sProp 𝕄)
      ⊢ iprop((StableHlo.held (c : Thread nD τ) (Pipeline.ucRefs τ sig) (V19 m outs c) ∗ ∃ r, prngReg c r)
          ∗ ∃ W, owes (c : Thread nD τ) (0 : CellTallies nD τ sig Unit) W) := by
  iintro ⟨Hh, Hp, HO⟩
  isplitl [Hh Hp]
  · isplitl [Hh]; · iexact Hh
    iexact Hp
  iexact HO

-- the launch theorem's implicit arguments are found by unifying its conclusion with this one, which takes unfolding plain
-- definitions in a metavariable's type
set_option backward.isDefEq.respectTransparency.types false in
/-- Every weakly fair execution of @main from memory `m` with zero counters terminates, nothing faulting, and every
    final memory holds each unscoped buffer of every core at the contents the nineteen items compose (`V19`): the
    library's launch theorem over the segment list, the last thread state read against the final state. -/
theorem run_all (ρ : Dev nD → PrngReg) (outs : Outs (F := F)) (hok : OutsOk m outs)
    {Q : PUnit × MemSt nD τ sig (Elt F) → Prop}
    (hQ : ∀ s : MemSt nD τ sig (Elt F), (∀ c : Dev nD, ∀ b ∈ Pipeline.ucRefs τ sig, s.mem (((c : Thread nD τ)).1, b) = V19 m outs c b) → Q (⟨⟩, s)) :
    θ_run defs (onTc (τ := τ) (main (F := F))) ⟨m, fun _ => 0, ρ⟩ Q := by
  refine Pipeline.θ_run_regions_kit_dev (pcfgs (F := F)) adm (pdats m outs) () cellOf_inj emb₁ defs₀ 𝒱₀ L lv m ρ main
    (segs m outs 𝒱₀ L lv Es () (pdats m outs) (reg0 m outs hok) (reg1 m outs hok) (reg2 m outs hok) (reg3 m outs hok))
    (fun c Q => by
      rewrite [main_chain c, Seg.run_eq_chain,
        show (segs m outs 𝒱₀ L lv Es () (pdats m outs) (reg0 m outs hok) (reg1 m outs hok) (reg2 m outs hok) (reg3 m outs hok) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Es 0 c))
    (Tₙ := fun c => iprop(StableHlo.held (c : Thread nD τ) (Pipeline.ucRefs τ sig) (V19 m outs c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, lastState m outs c⟩)
    (hinit := ?_)
    (QY := fun c s => ∀ b ∈ Pipeline.ucRefs τ sig, s.mem (((c : Thread nD τ)).1, b) = V19 m outs c b)
    (hfin := fun c s' => ?_) (hQ := hQ)
  · -- the launch: each core's unscoped buffers are held at the launch contents; the register and the dues ride along
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last contents
    iintro ⟨⟨Hh, -⟩, HSI⟩
    unfold StableHlo.held
    imodintro
    iapply (pointsTo_read_all (Pipeline.ucRefs τ sig) (fun b => (((c : Thread nD τ)).1, b)) (V19 m outs c) s')
    isplitl [Hh] <;> iassumption

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every weakly fair execution terminates, faults nowhere, and the argument arrays end as launched. -/
theorem frame_of (ρ : Dev nD → PrngReg) (outs : Outs (F := F)) (hok : OutsOk m outs) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_all m ρ outs hok fun s h c =>
    ⟨(h c _ (mem_uc main_arg0 (by decide))).trans (V19_main_arg0 m outs c),
     (h c _ (mem_uc main_arg1 (by decide))).trans (V19_main_arg1 m outs c),
     (h c _ (mem_uc main_arg2 (by decide))).trans (V19_main_arg2 m outs c),
     (h c _ (mem_uc main_arg3 (by decide))).trans (V19_main_arg3 m outs c),
     (h c _ (mem_uc main_arg4 (by decide))).trans (V19_main_arg4 m outs c),
     (h c _ (mem_uc main_arg5 (by decide))).trans (V19_main_arg5 m outs c),
     (h c _ (mem_uc main_arg6 (by decide))).trans (V19_main_arg6 m outs c),
     (h c _ (mem_uc main_arg7 (by decide))).trans (V19_main_arg7 m outs c),
     (h c _ (mem_uc main_arg8 (by decide))).trans (V19_main_arg8 m outs c),
     (h c _ (mem_uc main_arg9 (by decide))).trans (V19_main_arg9 m outs c),
     (h c _ (mem_uc main_arg10 (by decide))).trans (V19_main_arg10 m outs c)⟩

/-- The same run with the result buffer named: it ends at the last stretch's value of it. -/
theorem run_value (ρ : Dev nD → PrngReg) (outs : Outs (F := F)) (hok : OutsOk m outs) :
    θ_run defs (onTc (τ := τ) (main (F := F))) ⟨m, fun _ => 0, ρ⟩ (fun r => ∀ c : Dev nD,
      r.2.mem ((c.tc : Thread nD τ).loc main_v157) = V19 m outs c main_v157
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_all m ρ outs hok fun s h c =>
    ⟨h c _ (mem_uc main_v157 (by decide)),
     (h c _ (mem_uc main_arg0 (by decide))).trans (V19_main_arg0 m outs c),
     (h c _ (mem_uc main_arg1 (by decide))).trans (V19_main_arg1 m outs c),
     (h c _ (mem_uc main_arg2 (by decide))).trans (V19_main_arg2 m outs c),
     (h c _ (mem_uc main_arg3 (by decide))).trans (V19_main_arg3 m outs c),
     (h c _ (mem_uc main_arg4 (by decide))).trans (V19_main_arg4 m outs c),
     (h c _ (mem_uc main_arg5 (by decide))).trans (V19_main_arg5 m outs c),
     (h c _ (mem_uc main_arg6 (by decide))).trans (V19_main_arg6 m outs c),
     (h c _ (mem_uc main_arg7 (by decide))).trans (V19_main_arg7 m outs c),
     (h c _ (mem_uc main_arg8 (by decide))).trans (V19_main_arg8 m outs c),
     (h c _ (mem_uc main_arg9 (by decide))).trans (V19_main_arg9 m outs c),
     (h c _ (mem_uc main_arg10 (by decide))).trans (V19_main_arg10 m outs c)⟩

end Cert.KernelIdeal.Hand

end
-- ==== Proof.KI.Outs.lean ====
/-
  The four launches' output arrays exist. Launch 0's output is read off its pipeline entered at the contents the first
  three host stretches produce; launch 1's pipeline is entered at contents that already depend on launch 0's output,
  launch 2's on the first two, launch 3's on all three. So the family `outs` is built in four steps, each step fixing
  one more array and never changing the earlier ones, and the contents before a launch depend only on the arrays
  fixed before it.
-/
import proofs.«141398_j71476845740179_1_alg».proof.Proof.KI.Run

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

variable (m : (ℓ : Loc nD τ sig) → Buf (Elt F) ℓ)

/-- Step one: launch 0's output array, whatever the index asked. -/
def outsA : Outs (F := F) := fun _ r c =>
  Function.update (V3 m c) main_v36 ((dat0 (fun c b => V3 m c b) c).arrAt 2 cfg0.N) r
/-- Step two: launch 1's output array, the pipeline entered at contents made with step one. -/
def outsB : Outs (F := F) := fun j r c =>
  if j = 4 then outsA m j r c
  else Function.update (V9 m (outsA m) c) main_v84 ((dat1 (fun c b => V9 m (outsA m) c b) c).arrAt 2 cfg1.N) r
/-- Step three: launch 2's output array. -/
def outsC : Outs (F := F) := fun j r c =>
  if j = 4 ∨ j = 10 then outsB m j r c
  else Function.update (V15 m (outsB m) c) main_v132 ((dat2 (fun c b => V15 m (outsB m) c b) c).arrAt 2 cfg2.N) r
/-- Step four: launch 3's output array. -/
def outsD : Outs (F := F) := fun j r c =>
  if j = 4 ∨ j = 10 ∨ j = 16 then outsC m j r c
  else Function.update (V17 m (outsC m) c) main_v156 ((dat3 (fun c b => V17 m (outsC m) c b) c).arrAt 3 cfg3.N) r

/-! The contents before a launch depend only on the arrays fixed before it. -/

theorem V9_congr (c : Dev nD) (o o' : Outs (F := F)) (h4 : o 4 main_v36 c = o' 4 main_v36 c) : V9 m o c = V9 m o' c := by
  dsimp only [V9, V8, V7, V6, V5, V4]; rw [h4]
theorem V15_congr (c : Dev nD) (o o' : Outs (F := F)) (h4 : o 4 main_v36 c = o' 4 main_v36 c) (h10 : o 10 main_v84 c = o' 10 main_v84 c) :
    V15 m o c = V15 m o' c := by
  dsimp only [V15, V14, V13, V12, V11, V10, V9, V8, V7, V6, V5, V4]; rw [h4, h10]
theorem V17_congr (c : Dev nD) (o o' : Outs (F := F)) (h4 : o 4 main_v36 c = o' 4 main_v36 c) (h10 : o 10 main_v84 c = o' 10 main_v84 c)
    (h16 : o 16 main_v132 c = o' 16 main_v132 c) : V17 m o c = V17 m o' c := by
  dsimp only [V17, V16, V15, V14, V13, V12, V11, V10, V9, V8, V7, V6, V5, V4]; rw [h4, h10, h16]

theorem outsD_4 (r : Ref sig .tc) (c : Dev nD) : outsD m 4 r c = outsA m 4 r c := by
  unfold outsD; rw [if_pos (by decide)]; unfold outsC; rw [if_pos (by decide)]; unfold outsB; rw [if_pos rfl]
theorem outsC_4 (r : Ref sig .tc) (c : Dev nD) : outsC m 4 r c = outsA m 4 r c := by
  unfold outsC; rw [if_pos (by decide)]; unfold outsB; rw [if_pos rfl]
theorem outsB_4 (r : Ref sig .tc) (c : Dev nD) : outsB m 4 r c = outsA m 4 r c := by
  unfold outsB; rw [if_pos rfl]
theorem outsD_10 (r : Ref sig .tc) (c : Dev nD) : outsD m 10 r c = outsB m 10 r c := by
  unfold outsD; rw [if_pos (by decide)]; unfold outsC; rw [if_pos (by decide)]
theorem outsC_10 (r : Ref sig .tc) (c : Dev nD) : outsC m 10 r c = outsB m 10 r c := by
  unfold outsC; rw [if_pos (by decide)]
theorem outsD_16 (r : Ref sig .tc) (c : Dev nD) : outsD m 16 r c = outsC m 16 r c := by
  unfold outsD; rw [if_pos (by decide)]

theorem entry1 : (fun (c : Dev nD) (b : Ref sig .tc) => V9 m (outsA m) c b) = fun (c : Dev nD) (b : Ref sig .tc) => V9 m (outsD m) c b :=
  funext fun c => funext fun b => congrFun (V9_congr m c _ _ (outsD_4 m main_v36 c).symm) b
theorem entry2 : (fun (c : Dev nD) (b : Ref sig .tc) => V15 m (outsB m) c b) = fun (c : Dev nD) (b : Ref sig .tc) => V15 m (outsD m) c b :=
  funext fun c => funext fun b => congrFun (V15_congr m c _ _ ((outsB_4 m main_v36 c).trans (outsD_4 m main_v36 c).symm) (outsD_10 m main_v84 c).symm) b
theorem entry3 : (fun (c : Dev nD) (b : Ref sig .tc) => V17 m (outsC m) c b) = fun (c : Dev nD) (b : Ref sig .tc) => V17 m (outsD m) c b :=
  funext fun c => funext fun b => congrFun (V17_congr m c _ _ ((outsC_4 m main_v36 c).trans (outsD_4 m main_v36 c).symm)
    ((outsC_10 m main_v84 c).trans (outsD_10 m main_v84 c).symm) (outsD_16 m main_v132 c).symm) b

/-- The family built above satisfies the four equations. -/
theorem outsD_ok : OutsOk m (outsD m) where
  o4 c := by
    rw [outsD_4]; unfold outsA; exact Function.update_self _ _ _
  o10 c := by
    rw [outsD_10, ← entry1]; unfold outsB; rw [if_neg (by decide)]; exact Function.update_self _ _ _
  o16 c := by
    rw [outsD_16, ← entry2]; unfold outsC; rw [if_neg (by decide)]; exact Function.update_self _ _ _
  o18 c := by
    rw [← entry3]; unfold outsD; rw [if_neg (by decide)]; exact Function.update_self _ _ _

end Cert.KernelIdeal.Hand

end
-- ==== Proof.RefVal.Parts.lean ====
/-
  The reference's @main, cut where the kernel program's @main is cut.

  The reference program is one straight line of 220 host operations. The kernel program runs the same line except that
  its four dense products are kernel launches, which cuts its line into stretches. Cutting the reference's line at the
  same places — each dense product a stretch of one operation, the output layer's product, bias and sum a stretch of
  four — gives nineteen parts, `p1 … p19`, copied here from the list `ops` in order; `ops` is their concatenation
  (`ops_eq`). For each part the buffers its operations write are listed (`pK_W`) and the list is proved to hold every
  written buffer (`pK_writes`), so that what a part leaves alone is decided by looking its buffer up in the list.
-/
import proofs.«141398_j71476845740179_1_alg».proof.Proof.RefOps

set_option maxRecDepth 8192
set_option maxHeartbeats 1000000

noncomputable section

namespace Cert.RefBridge

open Cert.ReferenceIdeal Cert.ReferenceIdeal.Gen Idealize.ShloMosaic Idealize.ShloMosaic.TcCoe Idealize.SL.Sem Idealize.ShloMosaic.StableHlo
open Cert.ReferenceIdeal.OpsP

variable {F : FTy → Type} [FloatOps F]

/-- Running two lists one after the other is running their concatenation. -/
theorem after_append' {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_append' l₁ l₂]

/-- One operation writes its result buffer only: the buffer is in the list. -/
macro "writes_one" : tactic =>
  `(tactic| (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]
             exact List.mem_map_of_mem (by decide)))

/-! ## The parts -/

/-- Part 1: the edge list's rows, the edge weights, the weighted degree (26 operations). -/
abbrev p1 : List (HloOp τ sig (Elt F)) :=
  [ unary main_arg1 main_v0 ((extractStridedSlice S1x400000 ![0, 0] · slices_S2x400000_S1x400000_0_0) : (⟨S2x400000, .i32⟩ : BufTy).Contents (Elt F) → (⟨S1x400000, .i32⟩ : BufTy).Contents (Elt F)),
    reshape main_v0 main_v1 rfl shapeCasts_S1x400000_S400000,
    unary main_arg1 main_v2 ((extractStridedSlice S1x400000 ![1, 0] · slices_S2x400000_S1x400000_1_0) : (⟨S2x400000, .i32⟩ : BufTy).Contents (Elt F) → (⟨S1x400000, .i32⟩ : BufTy).Contents (Elt F)),
    reshape main_v2 main_v3 rfl shapeCasts_S1x400000_S400000,
    unary main_arg2 main_v4 (Host.negf : (⟨S400000, .f32⟩ : BufTy).Contents (Elt F) → (⟨S400000, .f32⟩ : BufTy).Contents (Elt F)),
    unary main_v4 main_v5 (Host.exp : (⟨S400000, .f32⟩ : BufTy).Contents (Elt F) → (⟨S400000, .f32⟩ : BufTy).Contents (Elt F)),
    nullary main_cst (constant S_ .f32 0x3F800000#32),
    unary main_cst main_v6 (broadcastInDim S400000 ![] bcast_S_S400000 : (⟨S_, .f32⟩ : BufTy).Contents (Elt F) → (⟨S400000, .f32⟩ : BufTy).Contents (Elt F)),
    binary main_v6 main_v5 main_v7 (addf : (⟨S400000, .f32⟩ : BufTy).Contents (Elt F) → (⟨S400000, .f32⟩ : BufTy).Contents (Elt F) → (⟨S400000, .f32⟩ : BufTy).Contents (Elt F)),
    nullary main_cst_0 (constant S_ .f32 0x3F800000#32),
    unary main_cst_0 main_v8 (broadcastInDim S400000 ![] bcast_S_S400000 : (⟨S_, .f32⟩ : BufTy).Contents (Elt F) → (⟨S400000, .f32⟩ : BufTy).Contents (Elt F)),
    binary main_v8 main_v7 main_v9 (Host.divf : (⟨S400000, .f32⟩ : BufTy).Contents (Elt F) → (⟨S400000, .f32⟩ : BufTy).Contents (Elt F) → (⟨S400000, .f32⟩ : BufTy).Contents (Elt F)),
    nullary main_cst_1 (constant S_ .f32 0x3F800000#32),
    unary main_cst_1 main_v10 (broadcastInDim S400000 ![] bcast_S_S400000 : (⟨S_, .f32⟩ : BufTy).Contents (Elt F) → (⟨S400000, .f32⟩ : BufTy).Contents (Elt F)),
    nullary main_cst_2 (constant S_ .f32 0x00000000#32),
    unary main_cst_2 main_v11 (broadcastInDim S50000 ![] bcast_S_S50000 : (⟨S_, .f32⟩ : BufTy).Contents (Elt F) → (⟨S50000, .f32⟩ : BufTy).Contents (Elt F)),
    unary main_v3 main_v12 (broadcastInDim S400000x1 ![0] bcast_S400000_S400000x1_0 : (⟨S400000, .i32⟩ : BufTy).Contents (Elt F) → (⟨S400000x1, .i32⟩ : BufTy).Contents (Elt F)),
    ternary main_v11 main_v12 main_v9 main_v13 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_3 (constant S_ .f32 0x3F800000#32),
    unary main_cst_3 main_v14 (broadcastInDim S50000 ![] bcast_S_S50000 : (⟨S_, .f32⟩ : BufTy).Contents (Elt F) → (⟨S50000, .f32⟩ : BufTy).Contents (Elt F)),
    binary main_v13 main_v14 main_v15 (addf : (⟨S50000, .f32⟩ : BufTy).Contents (Elt F) → (⟨S50000, .f32⟩ : BufTy).Contents (Elt F) → (⟨S50000, .f32⟩ : BufTy).Contents (Elt F)),
    nullary main_cst_4 (constant S_ .f32 0x00000000#32),
    unary main_cst_4 main_v16 (broadcastInDim S50000 ![] bcast_S_S50000 : (⟨S_, .f32⟩ : BufTy).Contents (Elt F) → (⟨S50000, .f32⟩ : BufTy).Contents (Elt F)),
    binary main_v15 main_v16 main_v17 (cmpf .ogt : (⟨S50000, .f32⟩ : BufTy).Contents (Elt F) → (⟨S50000, .f32⟩ : BufTy).Contents (Elt F) → (⟨S50000, .i1⟩ : BufTy).Contents (Elt F)),
    unary main_v15 main_v18 (Host.rsqrt : (⟨S50000, .f32⟩ : BufTy).Contents (Elt F) → (⟨S50000, .f32⟩ : BufTy).Contents (Elt F)),
    nullary main_cst_5 (constant S_ .f32 0x00000000#32) ]
/-- The buffers part 1 writes. -/
abbrev p1_W : List (Ref sig .tc) := [main_v0, main_v1, main_v2, main_v3, main_v4, main_v5, main_cst, main_v6, main_v7, main_cst_0, main_v8, main_v9, main_cst_1, main_v10, main_cst_2, main_v11, main_v12, main_v13, main_cst_3, main_v14, main_v15, main_cst_4, main_v16, main_v17, main_v18, main_cst_5]
theorem p1_writes : (p1 : List (HloOp τ sig (Elt F))).Forall fun op => op.writes ⊆ (p1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;> writes_one

/-- Part 2: `dinv = where (deg > 0, deg^(−1/2), 0)` (3 operations). -/
abbrev p2 : List (HloOp τ sig (Elt F)) :=
  [ TRef.unary (TRef.of (T := ⟨S_, .f32⟩) main_cst_5) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v17) (TRef.of (T := ⟨S50000, .f32⟩) main_v18) (TRef.of (T := ⟨S50000, .f32⟩) main_call0_v1) (TRef.of (T := ⟨S50000, .f32⟩) main_v19) select ]
/-- The buffers part 2 writes. -/
abbrev p2_W : List (Ref sig .tc) := [main_call0_v0, main_call0_v1, main_v19]
theorem p2_writes : (p2 : List (HloOp τ sig (Elt F))).Forall fun op => op.writes ⊆ (p2_W.map (Proc.devRef (τ := τ) .tc)).toFinset := by
  simp only [List.Forall]
  refine ⟨?_, ?_, ?_⟩ <;> writes_one

/-- Part 3: `norm = dinv[src] · w · dinv[dst]` (20 operations). -/
abbrev p3 : List (HloOp τ sig (Elt F)) :=
  [ nullary main_c (constantI S_ 32 0#32),
    unary main_c main_v20 (broadcastInDim S400000 ![] bcast_S_S400000 : (⟨S_, .i32⟩ : BufTy).Contents (Elt F) → (⟨S400000, .i32⟩ : BufTy).Contents (Elt F)),
    binary main_v1 main_v20 main_v21 (cmpi .slt : (⟨S400000, .i32⟩ : BufTy).Contents (Elt F) → (⟨S400000, .i32⟩ : BufTy).Contents (Elt F) → (⟨S400000, .i1⟩ : BufTy).Contents (Elt F)),
    nullary main_c_6 (constantI S_ 32 50000#32),
    unary main_c_6 main_v22 (broadcastInDim S400000 ![] bcast_S_S400000 : (⟨S_, .i32⟩ : BufTy).Contents (Elt F) → (⟨S400000, .i32⟩ : BufTy).Contents (Elt F)),
    binary main_v1 main_v22 main_v23 (addi : (⟨S400000, .i32⟩ : BufTy).Contents (Elt F) → (⟨S400000, .i32⟩ : BufTy).Contents (Elt F) → (⟨S400000, .i32⟩ : BufTy).Contents (Elt F)),
    ternary main_v21 main_v23 main_v1 main_v24 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v24 main_v25 (broadcastInDim S400000x1 ![0] bcast_S400000_S400000x1_0 : (⟨S400000, .i32⟩ : BufTy).Contents (Elt F) → (⟨S400000x1, .i32⟩ : BufTy).Contents (Elt F)),
    binary main_v19 main_v25 main_v26 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    binary main_v26 main_v9 main_v27 (mulf : (⟨S400000, .f32⟩ : BufTy).Contents (Elt F) → (⟨S400000, .f32⟩ : BufTy).Contents (Elt F) → (⟨S400000, .f32⟩ : BufTy).Contents (Elt F)),
    nullary main_c_7 (constantI S_ 32 0#32),
    unary main_c_7 main_v28 (broadcastInDim S400000 ![] bcast_S_S400000 : (⟨S_, .i32⟩ : BufTy).Contents (Elt F) → (⟨S400000, .i32⟩ : BufTy).Contents (Elt F)),
    binary main_v3 main_v28 main_v29 (cmpi .slt : (⟨S400000, .i32⟩ : BufTy).Contents (Elt F) → (⟨S400000, .i32⟩ : BufTy).Contents (Elt F) → (⟨S400000, .i1⟩ : BufTy).Contents (Elt F)),
    nullary main_c_8 (constantI S_ 32 50000#32),
    unary main_c_8 main_v30 (broadcastInDim S400000 ![] bcast_S_S400000 : (⟨S_, .i32⟩ : BufTy).Contents (Elt F) → (⟨S400000, .i32⟩ : BufTy).Contents (Elt F)),
    binary main_v3 main_v30 main_v31 (addi : (⟨S400000, .i32⟩ : BufTy).Contents (Elt F) → (⟨S400000, .i32⟩ : BufTy).Contents (Elt F) → (⟨S400000, .i32⟩ : BufTy).Contents (Elt F)),
    ternary main_v29 main_v31 main_v3 main_v32 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v32 main_v33 (broadcastInDim S400000x1 ![0] bcast_S400000_S400000x1_0 : (⟨S400000, .i32⟩ : BufTy).Contents (Elt F) → (⟨S400000x1, .i32⟩ : BufTy).Contents (Elt F)),
    binary main_v19 main_v33 main_v34 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    binary main_v27 main_v34 main_v35 (mulf : (⟨S400000, .f32⟩ : BufTy).Contents (Elt F) → (⟨S400000, .f32⟩ : BufTy).Contents (Elt F) → (⟨S400000, .f32⟩ : BufTy).Contents (Elt F)) ]
/-- The buffers part 3 writes. -/
abbrev p3_W : List (Ref sig .tc) := [main_c, main_v20, main_v21, main_c_6, main_v22, main_v23, main_v24, main_v25, main_v26, main_v27, main_c_7, main_v28, main_v29, main_c_8, main_v30, main_v31, main_v32, main_v33, main_v34, main_v35]
theorem p3_writes : (p3 : List (HloOp τ sig (Elt F))).Forall fun op => op.writes ⊆ (p3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;> writes_one

/-- Part 4: the first dense product `x · W₁` (1 operation). -/
abbrev p4 : List (HloOp τ sig (Elt F)) :=
  [ binary main_arg0 main_arg3 main_v36 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)) ]
/-- The buffers part 4 writes. -/
abbrev p4_W : List (Ref sig .tc) := [main_v36]
theorem p4_writes : (p4 : List (HloOp τ sig (Elt F))).Forall fun op => op.writes ⊆ (p4_W.map (Proc.devRef (τ := τ) .tc)).toFinset := by
  simp only [List.Forall]
  writes_one

/-- Part 5: the first layer: aggregation, self loop, bias (24 operations). -/
abbrev p5 : List (HloOp τ sig (Elt F)) :=
  [ nullary main_c_9 (constantI S_ 32 0#32),
    unary main_c_9 main_v37 (broadcastInDim S400000 ![] bcast_S_S400000 : (⟨S_, .i32⟩ : BufTy).Contents (Elt F) → (⟨S400000, .i32⟩ : BufTy).Contents (Elt F)),
    binary main_v1 main_v37 main_v38 (cmpi .slt : (⟨S400000, .i32⟩ : BufTy).Contents (Elt F) → (⟨S400000, .i32⟩ : BufTy).Contents (Elt F) → (⟨S400000, .i1⟩ : BufTy).Contents (Elt F)),
    nullary main_c_10 (constantI S_ 32 50000#32),
    unary main_c_10 main_v39 (broadcastInDim S400000 ![] bcast_S_S400000 : (⟨S_, .i32⟩ : BufTy).Contents (Elt F) → (⟨S400000, .i32⟩ : BufTy).Contents (Elt F)),
    binary main_v1 main_v39 main_v40 (addi : (⟨S400000, .i32⟩ : BufTy).Contents (Elt F) → (⟨S400000, .i32⟩ : BufTy).Contents (Elt F) → (⟨S400000, .i32⟩ : BufTy).Contents (Elt F)),
    ternary main_v38 main_v40 main_v1 main_v41 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v41 main_v42 (broadcastInDim S400000x1 ![0] bcast_S400000_S400000x1_0 : (⟨S400000, .i32⟩ : BufTy).Contents (Elt F) → (⟨S400000x1, .i32⟩ : BufTy).Contents (Elt F)),
    binary main_v36 main_v42 main_v43 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_v35 main_v44 (broadcastInDim S400000x1 ![0] bcast_S400000_S400000x1_0 : (⟨S400000, .f32⟩ : BufTy).Contents (Elt F) → (⟨S400000x1, .f32⟩ : BufTy).Contents (Elt F)),
    unary main_v44 main_v45 (broadcastInDim S400000x256 ![0, 1] bcast_S400000x1_S400000x256_0_1 : (⟨S400000x1, .f32⟩ : BufTy).Contents (Elt F) → (⟨S400000x256, .f32⟩ : BufTy).Contents (Elt F)),
    binary main_v43 main_v45 main_v46 (mulf : (⟨S400000x256, .f32⟩ : BufTy).Contents (Elt F) → (⟨S400000x256, .f32⟩ : BufTy).Contents (Elt F) → (⟨S400000x256, .f32⟩ : BufTy).Contents (Elt F)),
    nullary main_cst_11 (constant S_ .f32 0x00000000#32),
    unary main_cst_11 main_v47 (broadcastInDim S50000x256 ![] bcast_S_S50000x256 : (⟨S_, .f32⟩ : BufTy).Contents (Elt F) → (⟨S50000x256, .f32⟩ : BufTy).Contents (Elt F)),
    unary main_v3 main_v48 (broadcastInDim S400000x1 ![0] bcast_S400000_S400000x1_0 : (⟨S400000, .i32⟩ : BufTy).Contents (Elt F) → (⟨S400000x1, .i32⟩ : BufTy).Contents (Elt F)),
    ternary main_v47 main_v48 main_v46 main_v49 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    binary main_v19 main_v19 main_v50 (mulf : (⟨S50000, .f32⟩ : BufTy).Contents (Elt F) → (⟨S50000, .f32⟩ : BufTy).Contents (Elt F) → (⟨S50000, .f32⟩ : BufTy).Contents (Elt F)),
    unary main_v50 main_v51 (broadcastInDim S50000x1 ![0] bcast_S50000_S50000x1_0 : (⟨S50000, .f32⟩ : BufTy).Contents (Elt F) → (⟨S50000x1, .f32⟩ : BufTy).Contents (Elt F)),
    unary main_v51 main_v52 (broadcastInDim S50000x256 ![0, 1] bcast_S50000x1_S50000x256_0_1 : (⟨S50000x1, .f32⟩ : BufTy).Contents (Elt F) → (⟨S50000x256, .f32⟩ : BufTy).Contents (Elt F)),
    binary main_v36 main_v52 main_v53 (mulf : (⟨S50000x256, .f32⟩ : BufTy).Contents (Elt F) → (⟨S50000x256, .f32⟩ : BufTy).Contents (Elt F) → (⟨S50000x256, .f32⟩ : BufTy).Contents (Elt F)),
    binary main_v49 main_v53 main_v54 (addf : (⟨S50000x256, .f32⟩ : BufTy).Contents (Elt F) → (⟨S50000x256, .f32⟩ : BufTy).Contents (Elt F) → (⟨S50000x256, .f32⟩ : BufTy).Contents (Elt F)),
    unary main_arg4 main_v55 (broadcastInDim S1x256 ![1] bcast_S256_S1x256_1 : (⟨S256, .f32⟩ : BufTy).Contents (Elt F) → (⟨S1x256, .f32⟩ : BufTy).Contents (Elt F)),
    unary main_v55 main_v56 (broadcastInDim S50000x256 ![0, 1] bcast_S1x256_S50000x256_0_1 : (⟨S1x256, .f32⟩ : BufTy).Contents (Elt F) → (⟨S50000x256, .f32⟩ : BufTy).Contents (Elt F)),
    binary main_v54 main_v56 main_v57 (addf : (⟨S50000x256, .f32⟩ : BufTy).Contents (Elt F) → (⟨S50000x256, .f32⟩ : BufTy).Contents (Elt F) → (⟨S50000x256, .f32⟩ : BufTy).Contents (Elt F)) ]
/-- The buffers part 5 writes. -/
abbrev p5_W : List (Ref sig .tc) := [main_c_9, main_v37, main_v38, main_c_10, main_v39, main_v40, main_v41, main_v42, main_v43, main_v44, main_v45, main_v46, main_cst_11, main_v47, main_v48, main_v49, main_v50, main_v51, main_v52, main_v53, main_v54, main_v55, main_v56, main_v57]
theorem p5_writes : (p5 : List (HloOp τ sig (Elt F))).Forall fun op => op.writes ⊆ (p5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;> writes_one

/-- Part 6: the first layer's activation (3 operations). -/
abbrev p6 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x256, .f32⟩) main_call1_v0) (broadcastInDim S50000x256 ![] bcast_S_S50000x256),
    TRef.binary (TRef.of (T := ⟨S50000x256, .f32⟩) main_v57) (TRef.of (T := ⟨S50000x256, .f32⟩) main_call1_v0) (TRef.of (T := ⟨S50000x256, .f32⟩) main_v58) maximumf ]
/-- The buffers part 6 writes. -/
abbrev p6_W : List (Ref sig .tc) := [main_call1_cst, main_call1_v0, main_v58]
theorem p6_writes : (p6 : List (HloOp τ sig (Elt F))).Forall fun op => op.writes ⊆ (p6_W.map (Proc.devRef (τ := τ) .tc)).toFinset := by
  simp only [List.Forall]
  refine ⟨?_, ?_, ?_⟩ <;> writes_one

/-- Part 7: the weighted degree again (12 operations). -/
abbrev p7 : List (HloOp τ sig (Elt F)) :=
  [ nullary main_cst_12 (constant S_ .f32 0x00000000#32),
    unary main_cst_12 main_v59 (broadcastInDim S50000 ![] bcast_S_S50000 : (⟨S_, .f32⟩ : BufTy).Contents (Elt F) → (⟨S50000, .f32⟩ : BufTy).Contents (Elt F)),
    unary main_v3 main_v60 (broadcastInDim S400000x1 ![0] bcast_S400000_S400000x1_0 : (⟨S400000, .i32⟩ : BufTy).Contents (Elt F) → (⟨S400000x1, .i32⟩ : BufTy).Contents (Elt F)),
    ternary main_v59 main_v60 main_v9 main_v61 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_13 (constant S_ .f32 0x3F800000#32),
    unary main_cst_13 main_v62 (broadcastInDim S50000 ![] bcast_S_S50000 : (⟨S_, .f32⟩ : BufTy).Contents (Elt F) → (⟨S50000, .f32⟩ : BufTy).Contents (Elt F)),
    binary main_v61 main_v62 main_v63 (addf : (⟨S50000, .f32⟩ : BufTy).Contents (Elt F) → (⟨S50000, .f32⟩ : BufTy).Contents (Elt F) → (⟨S50000, .f32⟩ : BufTy).Contents (Elt F)),
    nullary main_cst_14 (constant S_ .f32 0x00000000#32),
    unary main_cst_14 main_v64 (broadcastInDim S50000 ![] bcast_S_S50000 : (⟨S_, .f32⟩ : BufTy).Contents (Elt F) → (⟨S50000, .f32⟩ : BufTy).Contents (Elt F)),
    binary main_v63 main_v64 main_v65 (cmpf .ogt : (⟨S50000, .f32⟩ : BufTy).Contents (Elt F) → (⟨S50000, .f32⟩ : BufTy).Contents (Elt F) → (⟨S50000, .i1⟩ : BufTy).Contents (Elt F)),
    unary main_v63 main_v66 (Host.rsqrt : (⟨S50000, .f32⟩ : BufTy).Contents (Elt F) → (⟨S50000, .f32⟩ : BufTy).Contents (Elt F)),
    nullary main_cst_15 (constant S_ .f32 0x00000000#32) ]
/-- The buffers part 7 writes. -/
abbrev p7_W : List (Ref sig .tc) := [main_cst_12, main_v59, main_v60, main_v61, main_cst_13, main_v62, main_v63, main_cst_14, main_v64, main_v65, main_v66, main_cst_15]
theorem p7_writes : (p7 : List (HloOp τ sig (Elt F))).Forall fun op => op.writes ⊆ (p7_W.map (Proc.devRef (τ := τ) .tc)).toFinset := by
  simp only [List.Forall]
  refine ⟨?_, ?_, ?_, ?_, ?_, ?_, ?_, ?_, ?_, ?_, ?_, ?_⟩ <;> writes_one

/-- Part 8: `dinv` again (3 operations). -/
abbrev p8 : List (HloOp τ sig (Elt F)) :=
  [ TRef.unary (TRef.of (T := ⟨S_, .f32⟩) main_cst_15) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v65) (TRef.of (T := ⟨S50000, .f32⟩) main_v66) (TRef.of (T := ⟨S50000, .f32⟩) main_call2_v1) (TRef.of (T := ⟨S50000, .f32⟩) main_v67) select ]
/-- The buffers part 8 writes. -/
abbrev p8_W : List (Ref sig .tc) := [main_call2_v0, main_call2_v1, main_v67]
theorem p8_writes : (p8 : List (HloOp τ sig (Elt F))).Forall fun op => op.writes ⊆ (p8_W.map (Proc.devRef (τ := τ) .tc)).toFinset := by
  simp only [List.Forall]
  refine ⟨?_, ?_, ?_⟩ <;> writes_one

/-- Part 9: `norm` again (20 operations). -/
abbrev p9 : List (HloOp τ sig (Elt F)) :=
  [ nullary main_c_16 (constantI S_ 32 0#32),
    unary main_c_16 main_v68 (broadcastInDim S400000 ![] bcast_S_S400000 : (⟨S_, .i32⟩ : BufTy).Contents (Elt F) → (⟨S400000, .i32⟩ : BufTy).Contents (Elt F)),
    binary main_v1 main_v68 main_v69 (cmpi .slt : (⟨S400000, .i32⟩ : BufTy).Contents (Elt F) → (⟨S400000, .i32⟩ : BufTy).Contents (Elt F) → (⟨S400000, .i1⟩ : BufTy).Contents (Elt F)),
    nullary main_c_17 (constantI S_ 32 50000#32),
    unary main_c_17 main_v70 (broadcastInDim S400000 ![] bcast_S_S400000 : (⟨S_, .i32⟩ : BufTy).Contents (Elt F) → (⟨S400000, .i32⟩ : BufTy).Contents (Elt F)),
    binary main_v1 main_v70 main_v71 (addi : (⟨S400000, .i32⟩ : BufTy).Contents (Elt F) → (⟨S400000, .i32⟩ : BufTy).Contents (Elt F) → (⟨S400000, .i32⟩ : BufTy).Contents (Elt F)),
    ternary main_v69 main_v71 main_v1 main_v72 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v72 main_v73 (broadcastInDim S400000x1 ![0] bcast_S400000_S400000x1_0 : (⟨S400000, .i32⟩ : BufTy).Contents (Elt F) → (⟨S400000x1, .i32⟩ : BufTy).Contents (Elt F)),
    binary main_v67 main_v73 main_v74 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    binary main_v74 main_v9 main_v75 (mulf : (⟨S400000, .f32⟩ : BufTy).Contents (Elt F) → (⟨S400000, .f32⟩ : BufTy).Contents (Elt F) → (⟨S400000, .f32⟩ : BufTy).Contents (Elt F)),
    nullary main_c_18 (constantI S_ 32 0#32),
    unary main_c_18 main_v76 (broadcastInDim S400000 ![] bcast_S_S400000 : (⟨S_, .i32⟩ : BufTy).Contents (Elt F) → (⟨S400000, .i32⟩ : BufTy).Contents (Elt F)),
    binary main_v3 main_v76 main_v77 (cmpi .slt : (⟨S400000, .i32⟩ : BufTy).Contents (Elt F) → (⟨S400000, .i32⟩ : BufTy).Contents (Elt F) → (⟨S400000, .i1⟩ : BufTy).Contents (Elt F)),
    nullary main_c_19 (constantI S_ 32 50000#32),
    unary main_c_19 main_v78 (broadcastInDim S400000 ![] bcast_S_S400000 : (⟨S_, .i32⟩ : BufTy).Contents (Elt F) → (⟨S400000, .i32⟩ : BufTy).Contents (Elt F)),
    binary main_v3 main_v78 main_v79 (addi : (⟨S400000, .i32⟩ : BufTy).Contents (Elt F) → (⟨S400000, .i32⟩ : BufTy).Contents (Elt F) → (⟨S400000, .i32⟩ : BufTy).Contents (Elt F)),
    ternary main_v77 main_v79 main_v3 main_v80 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v80 main_v81 (broadcastInDim S400000x1 ![0] bcast_S400000_S400000x1_0 : (⟨S400000, .i32⟩ : BufTy).Contents (Elt F) → (⟨S400000x1, .i32⟩ : BufTy).Contents (Elt F)),
    binary main_v67 main_v81 main_v82 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    binary main_v75 main_v82 main_v83 (mulf : (⟨S400000, .f32⟩ : BufTy).Contents (Elt F) → (⟨S400000, .f32⟩ : BufTy).Contents (Elt F) → (⟨S400000, .f32⟩ : BufTy).Contents (Elt F)) ]
/-- The buffers part 9 writes. -/
abbrev p9_W : List (Ref sig .tc) := [main_c_16, main_v68, main_v69, main_c_17, main_v70, main_v71, main_v72, main_v73, main_v74, main_v75, main_c_18, main_v76, main_v77, main_c_19, main_v78, main_v79, main_v80, main_v81, main_v82, main_v83]
theorem p9_writes : (p9 : List (HloOp τ sig (Elt F))).Forall fun op => op.writes ⊆ (p9_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;> writes_one

/-- Part 10: the second dense product `out₁ · W₂` (1 operation). -/
abbrev p10 : List (HloOp τ sig (Elt F)) :=
  [ binary main_v58 main_arg5 main_v84 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]
/-- The buffers part 10 writes. -/
abbrev p10_W : List (Ref sig .tc) := [main_v84]
theorem p10_writes : (p10 : List (HloOp τ sig (Elt F))).Forall fun op => op.writes ⊆ (p10_W.map (Proc.devRef (τ := τ) .tc)).toFinset := by
  simp only [List.Forall]
  writes_one

/-- Part 11: the second layer: aggregation, self loop, bias (24 operations). -/
abbrev p11 : List (HloOp τ sig (Elt F)) :=
  [ nullary main_c_20 (constantI S_ 32 0#32),
    unary main_c_20 main_v85 (broadcastInDim S400000 ![] bcast_S_S400000 : (⟨S_, .i32⟩ : BufTy).Contents (Elt F) → (⟨S400000, .i32⟩ : BufTy).Contents (Elt F)),
    binary main_v1 main_v85 main_v86 (cmpi .slt : (⟨S400000, .i32⟩ : BufTy).Contents (Elt F) → (⟨S400000, .i32⟩ : BufTy).Contents (Elt F) → (⟨S400000, .i1⟩ : BufTy).Contents (Elt F)),
    nullary main_c_21 (constantI S_ 32 50000#32),
    unary main_c_21 main_v87 (broadcastInDim S400000 ![] bcast_S_S400000 : (⟨S_, .i32⟩ : BufTy).Contents (Elt F) → (⟨S400000, .i32⟩ : BufTy).Contents (Elt F)),
    binary main_v1 main_v87 main_v88 (addi : (⟨S400000, .i32⟩ : BufTy).Contents (Elt F) → (⟨S400000, .i32⟩ : BufTy).Contents (Elt F) → (⟨S400000, .i32⟩ : BufTy).Contents (Elt F)),
    ternary main_v86 main_v88 main_v1 main_v89 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v89 main_v90 (broadcastInDim S400000x1 ![0] bcast_S400000_S400000x1_0 : (⟨S400000, .i32⟩ : BufTy).Contents (Elt F) → (⟨S400000x1, .i32⟩ : BufTy).Contents (Elt F)),
    binary main_v84 main_v90 main_v91 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_v83 main_v92 (broadcastInDim S400000x1 ![0] bcast_S400000_S400000x1_0 : (⟨S400000, .f32⟩ : BufTy).Contents (Elt F) → (⟨S400000x1, .f32⟩ : BufTy).Contents (Elt F)),
    unary main_v92 main_v93 (broadcastInDim S400000x256 ![0, 1] bcast_S400000x1_S400000x256_0_1 : (⟨S400000x1, .f32⟩ : BufTy).Contents (Elt F) → (⟨S400000x256, .f32⟩ : BufTy).Contents (Elt F)),
    binary main_v91 main_v93 main_v94 (mulf : (⟨S400000x256, .f32⟩ : BufTy).Contents (Elt F) → (⟨S400000x256, .f32⟩ : BufTy).Contents (Elt F) → (⟨S400000x256, .f32⟩ : BufTy).Contents (Elt F)),
    nullary main_cst_22 (constant S_ .f32 0x00000000#32),
    unary main_cst_22 main_v95 (broadcastInDim S50000x256 ![] bcast_S_S50000x256 : (⟨S_, .f32⟩ : BufTy).Contents (Elt F) → (⟨S50000x256, .f32⟩ : BufTy).Contents (Elt F)),
    unary main_v3 main_v96 (broadcastInDim S400000x1 ![0] bcast_S400000_S400000x1_0 : (⟨S400000, .i32⟩ : BufTy).Contents (Elt F) → (⟨S400000x1, .i32⟩ : BufTy).Contents (Elt F)),
    ternary main_v95 main_v96 main_v94 main_v97 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    binary main_v67 main_v67 main_v98 (mulf : (⟨S50000, .f32⟩ : BufTy).Contents (Elt F) → (⟨S50000, .f32⟩ : BufTy).Contents (Elt F) → (⟨S50000, .f32⟩ : BufTy).Contents (Elt F)),
    unary main_v98 main_v99 (broadcastInDim S50000x1 ![0] bcast_S50000_S50000x1_0 : (⟨S50000, .f32⟩ : BufTy).Contents (Elt F) → (⟨S50000x1, .f32⟩ : BufTy).Contents (Elt F)),
    unary main_v99 main_v100 (broadcastInDim S50000x256 ![0, 1] bcast_S50000x1_S50000x256_0_1 : (⟨S50000x1, .f32⟩ : BufTy).Contents (Elt F) → (⟨S50000x256, .f32⟩ : BufTy).Contents (Elt F)),
    binary main_v84 main_v100 main_v101 (mulf : (⟨S50000x256, .f32⟩ : BufTy).Contents (Elt F) → (⟨S50000x256, .f32⟩ : BufTy).Contents (Elt F) → (⟨S50000x256, .f32⟩ : BufTy).Contents (Elt F)),
    binary main_v97 main_v101 main_v102 (addf : (⟨S50000x256, .f32⟩ : BufTy).Contents (Elt F) → (⟨S50000x256, .f32⟩ : BufTy).Contents (Elt F) → (⟨S50000x256, .f32⟩ : BufTy).Contents (Elt F)),
    unary main_arg6 main_v103 (broadcastInDim S1x256 ![1] bcast_S256_S1x256_1 : (⟨S256, .f32⟩ : BufTy).Contents (Elt F) → (⟨S1x256, .f32⟩ : BufTy).Contents (Elt F)),
    unary main_v103 main_v104 (broadcastInDim S50000x256 ![0, 1] bcast_S1x256_S50000x256_0_1 : (⟨S1x256, .f32⟩ : BufTy).Contents (Elt F) → (⟨S50000x256, .f32⟩ : BufTy).Contents (Elt F)),
    binary main_v102 main_v104 main_v105 (addf : (⟨S50000x256, .f32⟩ : BufTy).Contents (Elt F) → (⟨S50000x256, .f32⟩ : BufTy).Contents (Elt F) → (⟨S50000x256, .f32⟩ : BufTy).Contents (Elt F)) ]
/-- The buffers part 11 writes. -/
abbrev p11_W : List (Ref sig .tc) := [main_c_20, main_v85, main_v86, main_c_21, main_v87, main_v88, main_v89, main_v90, main_v91, main_v92, main_v93, main_v94, main_cst_22, main_v95, main_v96, main_v97, main_v98, main_v99, main_v100, main_v101, main_v102, main_v103, main_v104, main_v105]
theorem p11_writes : (p11 : List (HloOp τ sig (Elt F))).Forall fun op => op.writes ⊆ (p11_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_⟩ <;> writes_one

/-- Part 12: the second layer's activation (3 operations). -/
abbrev p12 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S50000x256, .f32⟩) main_call3_v0) (broadcastInDim S50000x256 ![] bcast_S_S50000x256),
    TRef.binary (TRef.of (T := ⟨S50000x256, .f32⟩) main_v105) (TRef.of (T := ⟨S50000x256, .f32⟩) main_call3_v0) (TRef.of (T := ⟨S50000x256, .f32⟩) main_v106) maximumf ]
/-- The buffers part 12 writes. -/
abbrev p12_W : List (Ref sig .tc) := [main_call3_cst, main_call3_v0, main_v106]
theorem p12_writes : (p12 : List (HloOp τ sig (Elt F))).Forall fun op => op.writes ⊆ (p12_W.map (Proc.devRef (τ := τ) .tc)).toFinset := by
  simp only [List.Forall]
  refine ⟨?_, ?_, ?_⟩ <;> writes_one

/-- Part 13: the unweighted degree (12 operations). -/
abbrev p13 : List (HloOp τ sig (Elt F)) :=
  [ nullary main_cst_23 (constant S_ .f32 0x00000000#32),
    unary main_cst_23 main_v107 (broadcastInDim S50000 ![] bcast_S_S50000 : (⟨S_, .f32⟩ : BufTy).Contents (Elt F) → (⟨S50000, .f32⟩ : BufTy).Contents (Elt F)),
    unary main_v3 main_v108 (broadcastInDim S400000x1 ![0] bcast_S400000_S400000x1_0 : (⟨S400000, .i32⟩ : BufTy).Contents (Elt F) → (⟨S400000x1, .i32⟩ : BufTy).Contents (Elt F)),
    ternary main_v107 main_v108 main_v10 main_v109 ((fun x i u => Host.scatterAdd scatter_S50000_S400000x1_S400000_n_0_0_1 x i u) : (⟨S50000, .f32⟩ : BufTy).Contents (Elt F) → (⟨S400000x1, .i32⟩ : BufTy).Contents (Elt F) → (⟨S400000, .f32⟩ : BufTy).Contents (Elt F) → (⟨S50000, .f32⟩ : BufTy).Contents (Elt F)),
    nullary main_cst_24 (constant S_ .f32 0x3F800000#32),
    unary main_cst_24 main_v110 (broadcastInDim S50000 ![] bcast_S_S50000 : (⟨S_, .f32⟩ : BufTy).Contents (Elt F) → (⟨S50000, .f32⟩ : BufTy).Contents (Elt F)),
    binary main_v109 main_v110 main_v111 (addf : (⟨S50000, .f32⟩ : BufTy).Contents (Elt F) → (⟨S50000, .f32⟩ : BufTy).Contents (Elt F) → (⟨S50000, .f32⟩ : BufTy).Contents (Elt F)),
    nullary main_cst_25 (constant S_ .f32 0x00000000#32),
    unary main_cst_25 main_v112 (broadcastInDim S50000 ![] bcast_S_S50000 : (⟨S_, .f32⟩ : BufTy).Contents (Elt F) → (⟨S50000, .f32⟩ : BufTy).Contents (Elt F)),
    binary main_v111 main_v112 main_v113 (cmpf .ogt : (⟨S50000, .f32⟩ : BufTy).Contents (Elt F) → (⟨S50000, .f32⟩ : BufTy).Contents (Elt F) → (⟨S50000, .i1⟩ : BufTy).Contents (Elt F)),
    unary main_v111 main_v114 (Host.rsqrt : (⟨S50000, .f32⟩ : BufTy).Contents (Elt F) → (⟨S50000, .f32⟩ : BufTy).Contents (Elt F)),
    nullary main_cst_26 (constant S_ .f32 0x00000000#32) ]
/-- The buffers part 13 writes. -/
abbrev p13_W : List (Ref sig .tc) := [main_cst_23, main_v107, main_v108, main_v109, main_cst_24, main_v110, main_v111, main_cst_25, main_v112, main_v113, main_v114, main_cst_26]
theorem p13_writes : (p13 : List (HloOp τ sig (Elt F))).Forall fun op => op.writes ⊆ (p13_W.map (Proc.devRef (τ := τ) .tc)).toFinset := by
  simp only [List.Forall]
  refine ⟨?_, ?_, ?_, ?_, ?_, ?_, ?_, ?_, ?_, ?_, ?_, ?_⟩ <;> writes_one

/-- Part 14: `dinv` of the unweighted degree (3 operations). -/
abbrev p14 : List (HloOp τ sig (Elt F)) :=
  [ TRef.unary (TRef.of (T := ⟨S_, .f32⟩) main_cst_26) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v113) (TRef.of (T := ⟨S50000, .f32⟩) main_v114) (TRef.of (T := ⟨S50000, .f32⟩) main_call4_v1) (TRef.of (T := ⟨S50000, .f32⟩) main_v115) select ]
/-- The buffers part 14 writes. -/
abbrev p14_W : List (Ref sig .tc) := [main_call4_v0, main_call4_v1, main_v115]
theorem p14_writes : (p14 : List (HloOp τ sig (Elt F))).Forall fun op => op.writes ⊆ (p14_W.map (Proc.devRef (τ := τ) .tc)).toFinset := by
  simp only [List.Forall]
  refine ⟨?_, ?_, ?_⟩ <;> writes_one

/-- Part 15: `norm` with unit edge weights (20 operations). -/
abbrev p15 : List (HloOp τ sig (Elt F)) :=
  [ nullary main_c_27 (constantI S_ 32 0#32),
    unary main_c_27 main_v116 (broadcastInDim S400000 ![] bcast_S_S400000 : (⟨S_, .i32⟩ : BufTy).Contents (Elt F) → (⟨S400000, .i32⟩ : BufTy).Contents (Elt F)),
    binary main_v1 main_v116 main_v117 (cmpi .slt : (⟨S400000, .i32⟩ : BufTy).Contents (Elt F) → (⟨S400000, .i32⟩ : BufTy).Contents (Elt F) → (⟨S400000, .i1⟩ : BufTy).Contents (Elt F)),
    nullary main_c_28 (constantI S_ 32 50000#32),
    unary main_c_28 main_v118 (broadcastInDim S400000 ![] bcast_S_S400000 : (⟨S_, .i32⟩ : BufTy).Contents (Elt F) → (⟨S400000, .i32⟩ : BufTy).Contents (Elt F)),
    binary main_v1 main_v118 main_v119 (addi : (⟨S400000, .i32⟩ : BufTy).Contents (Elt F) → (⟨S400000, .i32⟩ : BufTy).Contents (Elt F) → (⟨S400000, .i32⟩ : BufTy).Contents (Elt F)),
    ternary main_v117 main_v119 main_v1 main_v120 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v120 main_v121 (broadcastInDim S400000x1 ![0] bcast_S400000_S400000x1_0 : (⟨S400000, .i32⟩ : BufTy).Contents (Elt F) → (⟨S400000x1, .i32⟩ : BufTy).Contents (Elt F)),
    binary main_v115 main_v121 main_v122 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    binary main_v122 main_v10 main_v123 (mulf : (⟨S400000, .f32⟩ : BufTy).Contents (Elt F) → (⟨S400000, .f32⟩ : BufTy).Contents (Elt F) → (⟨S400000, .f32⟩ : BufTy).Contents (Elt F)),
    nullary main_c_29 (constantI S_ 32 0#32),
    unary main_c_29 main_v124 (broadcastInDim S400000 ![] bcast_S_S400000 : (⟨S_, .i32⟩ : BufTy).Contents (Elt F) → (⟨S400000, .i32⟩ : BufTy).Contents (Elt F)),
    binary main_v3 main_v124 main_v125 (cmpi .slt : (⟨S400000, .i32⟩ : BufTy).Contents (Elt F) → (⟨S400000, .i32⟩ : BufTy).Contents (Elt F) → (⟨S400000, .i1⟩ : BufTy).Contents (Elt F)),
    nullary main_c_30 (constantI S_ 32 50000#32),
    unary main_c_30 main_v126 (broadcastInDim S400000 ![] bcast_S_S400000 : (⟨S_, .i32⟩ : BufTy).Contents (Elt F) → (⟨S400000, .i32⟩ : BufTy).Contents (Elt F)),
    binary main_v3 main_v126 main_v127 (addi : (⟨S400000, .i32⟩ : BufTy).Contents (Elt F) → (⟨S400000, .i32⟩ : BufTy).Contents (Elt F) → (⟨S400000, .i32⟩ : BufTy).Contents (Elt F)),
    ternary main_v125 main_v127 main_v3 main_v128 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v128 main_v129 (broadcastInDim S400000x1 ![0] bcast_S400000_S400000x1_0 : (⟨S400000, .i32⟩ : BufTy).Contents (Elt F) → (⟨S400000x1, .i32⟩ : BufTy).Contents (Elt F)),
    binary main_v115 main_v129 main_v130 ((fun x i => Host.gather gather_S50000_S400000x1_S400000_n_0_n_n_0_1_1 x i) : (⟨S50000, .f32⟩ : BufTy).Contents (Elt F) → (⟨S400000x1, .i32⟩ : BufTy).Contents (Elt F) → (⟨S400000, .f32⟩ : BufTy).Contents (Elt F)),
    binary main_v123 main_v130 main_v131 (mulf : (⟨S400000, .f32⟩ : BufTy).Contents (Elt F) → (⟨S400000, .f32⟩ : BufTy).Contents (Elt F) → (⟨S400000, .f32⟩ : BufTy).Contents (Elt F)) ]
/-- The buffers part 15 writes. -/
abbrev p15_W : List (Ref sig .tc) := [main_c_27, main_v116, main_v117, main_c_28, main_v118, main_v119, main_v120, main_v121, main_v122, main_v123, main_c_29, main_v124, main_v125, main_c_30, main_v126, main_v127, main_v128, main_v129, main_v130, main_v131]
theorem p15_writes : (p15 : List (HloOp τ sig (Elt F))).Forall fun op => op.writes ⊆ (p15_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;> writes_one

/-- Part 16: the third dense product `out₂ · W₃` (1 operation). -/
abbrev p16 : List (HloOp τ sig (Elt F)) :=
  [ binary main_v106 main_arg7 main_v132 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]
/-- The buffers part 16 writes. -/
abbrev p16_W : List (Ref sig .tc) := [main_v132]
theorem p16_writes : (p16 : List (HloOp τ sig (Elt F))).Forall fun op => op.writes ⊆ (p16_W.map (Proc.devRef (τ := τ) .tc)).toFinset := by
  simp only [List.Forall]
  writes_one

/-- Part 17: the third layer and the concatenation `[out₁ | out₂ | out₃]` (25 operations). -/
abbrev p17 : List (HloOp τ sig (Elt F)) :=
  [ nullary main_c_31 (constantI S_ 32 0#32),
    unary main_c_31 main_v133 (broadcastInDim S400000 ![] bcast_S_S400000 : (⟨S_, .i32⟩ : BufTy).Contents (Elt F) → (⟨S400000, .i32⟩ : BufTy).Contents (Elt F)),
    binary main_v1 main_v133 main_v134 (cmpi .slt : (⟨S400000, .i32⟩ : BufTy).Contents (Elt F) → (⟨S400000, .i32⟩ : BufTy).Contents (Elt F) → (⟨S400000, .i1⟩ : BufTy).Contents (Elt F)),
    nullary main_c_32 (constantI S_ 32 50000#32),
    unary main_c_32 main_v135 (broadcastInDim S400000 ![] bcast_S_S400000 : (⟨S_, .i32⟩ : BufTy).Contents (Elt F) → (⟨S400000, .i32⟩ : BufTy).Contents (Elt F)),
    binary main_v1 main_v135 main_v136 (addi : (⟨S400000, .i32⟩ : BufTy).Contents (Elt F) → (⟨S400000, .i32⟩ : BufTy).Contents (Elt F) → (⟨S400000, .i32⟩ : BufTy).Contents (Elt F)),
    ternary main_v134 main_v136 main_v1 main_v137 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v137 main_v138 (broadcastInDim S400000x1 ![0] bcast_S400000_S400000x1_0 : (⟨S400000, .i32⟩ : BufTy).Contents (Elt F) → (⟨S400000x1, .i32⟩ : BufTy).Contents (Elt F)),
    binary main_v132 main_v138 main_v139 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    unary main_v131 main_v140 (broadcastInDim S400000x1 ![0] bcast_S400000_S400000x1_0 : (⟨S400000, .f32⟩ : BufTy).Contents (Elt F) → (⟨S400000x1, .f32⟩ : BufTy).Contents (Elt F)),
    unary main_v140 main_v141 (broadcastInDim S400000x256 ![0, 1] bcast_S400000x1_S400000x256_0_1 : (⟨S400000x1, .f32⟩ : BufTy).Contents (Elt F) → (⟨S400000x256, .f32⟩ : BufTy).Contents (Elt F)),
    binary main_v139 main_v141 main_v142 (mulf : (⟨S400000x256, .f32⟩ : BufTy).Contents (Elt F) → (⟨S400000x256, .f32⟩ : BufTy).Contents (Elt F) → (⟨S400000x256, .f32⟩ : BufTy).Contents (Elt F)),
    nullary main_cst_33 (constant S_ .f32 0x00000000#32),
    unary main_cst_33 main_v143 (broadcastInDim S50000x256 ![] bcast_S_S50000x256 : (⟨S_, .f32⟩ : BufTy).Contents (Elt F) → (⟨S50000x256, .f32⟩ : BufTy).Contents (Elt F)),
    unary main_v3 main_v144 (broadcastInDim S400000x1 ![0] bcast_S400000_S400000x1_0 : (⟨S400000, .i32⟩ : BufTy).Contents (Elt F) → (⟨S400000x1, .i32⟩ : BufTy).Contents (Elt F)),
    ternary main_v143 main_v144 main_v142 main_v145 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    binary main_v115 main_v115 main_v146 (mulf : (⟨S50000, .f32⟩ : BufTy).Contents (Elt F) → (⟨S50000, .f32⟩ : BufTy).Contents (Elt F) → (⟨S50000, .f32⟩ : BufTy).Contents (Elt F)),
    unary main_v146 main_v147 (broadcastInDim S50000x1 ![0] bcast_S50000_S50000x1_0 : (⟨S50000, .f32⟩ : BufTy).Contents (Elt F) → (⟨S50000x1, .f32⟩ : BufTy).Contents (Elt F)),
    unary main_v147 main_v148 (broadcastInDim S50000x256 ![0, 1] bcast_S50000x1_S50000x256_0_1 : (⟨S50000x1, .f32⟩ : BufTy).Contents (Elt F) → (⟨S50000x256, .f32⟩ : BufTy).Contents (Elt F)),
    binary main_v132 main_v148 main_v149 (mulf : (⟨S50000x256, .f32⟩ : BufTy).Contents (Elt F) → (⟨S50000x256, .f32⟩ : BufTy).Contents (Elt F) → (⟨S50000x256, .f32⟩ : BufTy).Contents (Elt F)),
    binary main_v145 main_v149 main_v150 (addf : (⟨S50000x256, .f32⟩ : BufTy).Contents (Elt F) → (⟨S50000x256, .f32⟩ : BufTy).Contents (Elt F) → (⟨S50000x256, .f32⟩ : BufTy).Contents (Elt F)),
    unary main_arg8 main_v151 (broadcastInDim S1x256 ![1] bcast_S256_S1x256_1 : (⟨S256, .f32⟩ : BufTy).Contents (Elt F) → (⟨S1x256, .f32⟩ : BufTy).Contents (Elt F)),
    unary main_v151 main_v152 (broadcastInDim S50000x256 ![0, 1] bcast_S1x256_S50000x256_0_1 : (⟨S1x256, .f32⟩ : BufTy).Contents (Elt F) → (⟨S50000x256, .f32⟩ : BufTy).Contents (Elt F)),
    binary main_v150 main_v152 main_v153 (addf : (⟨S50000x256, .f32⟩ : BufTy).Contents (Elt F) → (⟨S50000x256, .f32⟩ : BufTy).Contents (Elt F) → (⟨S50000x256, .f32⟩ : BufTy).Contents (Elt F)),
    nary ![main_v58, main_v106, main_v153] main_v154 (fun u => concatenate S50000x768 1 [⟨S50000x256, u 0⟩, ⟨S50000x256, u 1⟩, ⟨S50000x256, u 2⟩] concatenates_S50000x256_S50000x256_S50000x256_S50000x768_d1) ]
/-- The buffers part 17 writes. -/
abbrev p17_W : List (Ref sig .tc) := [main_c_31, main_v133, main_v134, main_c_32, main_v135, main_v136, main_v137, main_v138, main_v139, main_v140, main_v141, main_v142, main_cst_33, main_v143, main_v144, main_v145, main_v146, main_v147, main_v148, main_v149, main_v150, main_v151, main_v152, main_v153, main_v154]
theorem p17_writes : (p17 : List (HloOp τ sig (Elt F))).Forall fun op => op.writes ⊆ (p17_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;> writes_one

/-- Part 18: the output layer: product, bias row, broadcast, sum (4 operations). -/
abbrev p18 : List (HloOp τ sig (Elt F)) :=
  [ binary main_v154 main_arg9 main_v155 ((fun l r => Host.dotGeneral dot_S50000x768_S768x8_S50000x8_1_0_0_1_n_n none l r) : (⟨S50000x768, .f32⟩ : BufTy).Contents (Elt F) → (⟨S768x8, .f32⟩ : BufTy).Contents (Elt F) → (⟨S50000x8, .f32⟩ : BufTy).Contents (Elt F)),
    unary main_arg10 main_v156 (broadcastInDim S1x8 ![1] bcast_S8_S1x8_1 : (⟨S8, .f32⟩ : BufTy).Contents (Elt F) → (⟨S1x8, .f32⟩ : BufTy).Contents (Elt F)),
    unary main_v156 main_v157 (broadcastInDim S50000x8 ![0, 1] bcast_S1x8_S50000x8_0_1 : (⟨S1x8, .f32⟩ : BufTy).Contents (Elt F) → (⟨S50000x8, .f32⟩ : BufTy).Contents (Elt F)),
    binary main_v155 main_v157 main_v158 (addf : (⟨S50000x8, .f32⟩ : BufTy).Contents (Elt F) → (⟨S50000x8, .f32⟩ : BufTy).Contents (Elt F) → (⟨S50000x8, .f32⟩ : BufTy).Contents (Elt F)) ]
/-- The buffers part 18 writes. -/
abbrev p18_W : List (Ref sig .tc) := [main_v155, main_v156, main_v157, main_v158]
theorem p18_writes : (p18 : List (HloOp τ sig (Elt F))).Forall fun op => op.writes ⊆ (p18_W.map (Proc.devRef (τ := τ) .tc)).toFinset := by
  simp only [List.Forall]
  refine ⟨?_, ?_, ?_, ?_⟩ <;> writes_one

/-- Part 19: the row-wise log_softmax (15 operations). -/
abbrev p19 : List (HloOp τ sig (Elt F)) :=
  [ TRef.nullary (TRef.of (T := ⟨S_, .f32⟩) main_call5_cst) (constant S_ .f32 0xFF800000#32),
    TRef.binary (TRef.of (T := ⟨S50000x8, .f32⟩) main_v158) (TRef.of (T := ⟨S_, .f32⟩) main_call5_cst) (TRef.of (T := ⟨S50000, .f32⟩) main_call5_v0) (fun x v => Host.reduce FloatOps.maximumf x v reducesTo_S50000x8_S50000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S50000, .f32⟩) main_call5_v1) (broadcastInDim S50000 ![] bcast_S_S50000),
    TRef.binary (TRef.of (T := ⟨S50000, .f32⟩) main_call5_v1) (TRef.of (T := ⟨S50000, .f32⟩) main_call5_v0) (TRef.of (T := ⟨S50000, .f32⟩) main_call5_v2) maximumf,
    TRef.unary (TRef.of (T := ⟨S50000, .f32⟩) main_call5_v2) (TRef.of (T := ⟨S50000x1, .f32⟩) main_call5_v3) (broadcastInDim S50000x1 ![0] bcast_S50000_S50000x1_0),
    TRef.unary (TRef.of (T := ⟨S50000x1, .f32⟩) main_call5_v3) (TRef.of (T := ⟨S50000x8, .f32⟩) main_call5_v4) (broadcastInDim S50000x8 ![0, 1] bcast_S50000x1_S50000x8_0_1),
    TRef.binary (TRef.of (T := ⟨S50000x8, .f32⟩) main_v158) (TRef.of (T := ⟨S50000x8, .f32⟩) main_call5_v4) (TRef.of (T := ⟨S50000x8, .f32⟩) main_call5_v5) subf,
    TRef.unary (TRef.of (T := ⟨S50000x8, .f32⟩) main_call5_v5) (TRef.of (T := ⟨S50000x8, .f32⟩) main_call5_v6) Host.exp,
    TRef.nullary (TRef.of (T := ⟨S_, .f32⟩) main_call5_cst_1) (constant S_ .f32 0x00000000#32),
    TRef.binary (TRef.of (T := ⟨S50000x8, .f32⟩) main_call5_v6) (TRef.of (T := ⟨S_, .f32⟩) main_call5_cst_1) (TRef.of (T := ⟨S50000, .f32⟩) main_call5_v7) (fun x v => Host.reduceAdd x v reducesTo_S50000x8_S50000_d1 h_S_),
    TRef.unary (TRef.of (T := ⟨S50000, .f32⟩) main_call5_v7) (TRef.of (T := ⟨S50000x1, .f32⟩) main_call5_v8) (broadcastInDim S50000x1 ![0] bcast_S50000_S50000x1_0),
    TRef.unary (TRef.of (T := ⟨S50000x1, .f32⟩) main_call5_v8) (TRef.of (T := ⟨S50000x1, .f32⟩) main_call5_v9) Host.log,
    TRef.unary (TRef.of (T := ⟨S50000x1, .f32⟩) main_call5_v9) (TRef.of (T := ⟨S50000x8, .f32⟩) main_call5_v10) (broadcastInDim S50000x8 ![0, 1] bcast_S50000x1_S50000x8_0_1),
    TRef.binary (TRef.of (T := ⟨S50000x8, .f32⟩) main_call5_v5) (TRef.of (T := ⟨S50000x8, .f32⟩) main_call5_v10) (TRef.of (T := ⟨S50000x8, .f32⟩) main_v159) subf ]
/-- The buffers part 19 writes. -/
abbrev p19_W : List (Ref sig .tc) := [main_call5_cst, main_call5_v0, main_call5_cst_0, main_call5_v1, main_call5_v2, main_call5_v3, main_call5_v4, main_call5_v5, main_call5_v6, main_call5_cst_1, main_call5_v7, main_call5_v8, main_call5_v9, main_call5_v10, main_v159]
theorem p19_writes : (p19 : List (HloOp τ sig (Elt F))).Forall fun op => op.writes ⊆ (p19_W.map (Proc.devRef (τ := τ) .tc)).toFinset := by
  simp only [List.Forall]
  refine ⟨?_, ?_, ?_, ?_, ?_, ?_, ?_, ?_, ?_, ?_, ?_, ?_, ?_, ?_, ?_⟩ <;> writes_one

/-! ## The line is the parts in order -/

theorem ops_eq : (ops : List (HloOp τ sig (Elt F)))
    = p1 ++ (p2 ++ (p3 ++ (p4 ++ (p5 ++ (p6 ++ (p7 ++ (p8 ++ (p9 ++ (p10 ++ (p11 ++ (p12 ++ (p13 ++ (p14 ++ (p15 ++ (p16 ++ (p17 ++ (p18 ++ p19))))))))))))))))) :=
  rfl

end Cert.RefBridge

end
-- ==== Proof.RefVal.Carry.lean ====
/-
  The reference's run as a chain of states.

  `R k W` names the buffers' contents after the first `k` parts of the reference's line, run from an arbitrary state
  `W`. The whole line run from `W` ends at `R19 W` (`ops_run`). A buffer that none of the parts a+1, …, a+n writes
  holds after part a+n what it held after part a (`stage_carry`): every later statement about a value computed early and
  read late is an instance, its side condition decided by looking the buffer up in the parts' lists of written buffers.
-/
import proofs.«141398_j71476845740179_1_alg».proof.Proof.RefVal.Parts
import Idealize.ShloMosaic.PureOps.Ideal

set_option maxRecDepth 8192
set_option maxHeartbeats 1000000

noncomputable section

namespace Cert.RefBridge

open Cert.ReferenceIdeal Cert.ReferenceIdeal.Gen Idealize.ShloMosaic Idealize.ShloMosaic.TcCoe Idealize.SL.Sem Idealize.ShloMosaic.StableHlo
open Cert.ReferenceIdeal.OpsP

variable (W : Valuation τ sig (Elt Ideal))

/-! ## The states between the parts -/

/-- The contents after part 1, run from `W`. -/
def R1 : Valuation τ sig (Elt Ideal) := after (p1 (F := Ideal)) W
/-- The contents after part 2. -/
def R2 : Valuation τ sig (Elt Ideal) := after (p2 (F := Ideal)) (R1 W)
/-- The contents after part 3. -/
def R3 : Valuation τ sig (Elt Ideal) := after (p3 (F := Ideal)) (R2 W)
/-- The contents after part 4. -/
def R4 : Valuation τ sig (Elt Ideal) := after (p4 (F := Ideal)) (R3 W)
/-- The contents after part 5. -/
def R5 : Valuation τ sig (Elt Ideal) := after (p5 (F := Ideal)) (R4 W)
/-- The contents after part 6. -/
def R6 : Valuation τ sig (Elt Ideal) := after (p6 (F := Ideal)) (R5 W)
/-- The contents after part 7. -/
def R7 : Valuation τ sig (Elt Ideal) := after (p7 (F := Ideal)) (R6 W)
/-- The contents after part 8. -/
def R8 : Valuation τ sig (Elt Ideal) := after (p8 (F := Ideal)) (R7 W)
/-- The contents after part 9. -/
def R9 : Valuation τ sig (Elt Ideal) := after (p9 (F := Ideal)) (R8 W)
/-- The contents after part 10. -/
def R10 : Valuation τ sig (Elt Ideal) := after (p10 (F := Ideal)) (R9 W)
/-- The contents after part 11. -/
def R11 : Valuation τ sig (Elt Ideal) := after (p11 (F := Ideal)) (R10 W)
/-- The contents after part 12. -/
def R12 : Valuation τ sig (Elt Ideal) := after (p12 (F := Ideal)) (R11 W)
/-- The contents after part 13. -/
def R13 : Valuation τ sig (Elt Ideal) := after (p13 (F := Ideal)) (R12 W)
/-- The contents after part 14. -/
def R14 : Valuation τ sig (Elt Ideal) := after (p14 (F := Ideal)) (R13 W)
/-- The contents after part 15. -/
def R15 : Valuation τ sig (Elt Ideal) := after (p15 (F := Ideal)) (R14 W)
/-- The contents after part 16. -/
def R16 : Valuation τ sig (Elt Ideal) := after (p16 (F := Ideal)) (R15 W)
/-- The contents after part 17. -/
def R17 : Valuation τ sig (Elt Ideal) := after (p17 (F := Ideal)) (R16 W)
/-- The contents after part 18. -/
def R18 : Valuation τ sig (Elt Ideal) := after (p18 (F := Ideal)) (R17 W)
/-- The contents after part 19. -/
def R19 : Valuation τ sig (Elt Ideal) := after (p19 (F := Ideal)) (R18 W)

/-- The contents after the first `k` parts (`k = 0`: the starting state; past the last part: the final contents). -/
def stage (k : ℕ) : Valuation τ sig (Elt Ideal) :=
  match k with
  | 0 => W
  | 1 => R1 W
  | 2 => R2 W
  | 3 => R3 W
  | 4 => R4 W
  | 5 => R5 W
  | 6 => R6 W
  | 7 => R7 W
  | 8 => R8 W
  | 9 => R9 W
  | 10 => R10 W
  | 11 => R11 W
  | 12 => R12 W
  | 13 => R13 W
  | 14 => R14 W
  | 15 => R15 W
  | 16 => R16 W
  | 17 => R17 W
  | 18 => R18 W
  | _ => R19 W

/-- The buffers part `k` writes. -/
def written (k : ℕ) : List (Ref sig .tc) :=
  match k with
  | 1 => p1_W
  | 2 => p2_W
  | 3 => p3_W
  | 4 => p4_W
  | 5 => p5_W
  | 6 => p6_W
  | 7 => p7_W
  | 8 => p8_W
  | 9 => p9_W
  | 10 => p10_W
  | 11 => p11_W
  | 12 => p12_W
  | 13 => p13_W
  | 14 => p14_W
  | 15 => p15_W
  | 16 => p16_W
  | 17 => p17_W
  | 18 => p18_W
  | 19 => p19_W
  | _ => []

/-- One part leaves alone every buffer it does not write. -/
theorem stage_succ (k : ℕ) (r : Ref sig .tc) (h : r ∉ written (k + 1)) :
    stage W (k + 1) (Proc.devRef .tc r) = stage W k (Proc.devRef .tc r) :=
  match k, h with
  | 0, h => after_of_writes_sub (p1 (F := Ideal)) W p1_writes h
  | 1, h => after_of_writes_sub (p2 (F := Ideal)) (R1 W) p2_writes h
  | 2, h => after_of_writes_sub (p3 (F := Ideal)) (R2 W) p3_writes h
  | 3, h => after_of_writes_sub (p4 (F := Ideal)) (R3 W) p4_writes h
  | 4, h => after_of_writes_sub (p5 (F := Ideal)) (R4 W) p5_writes h
  | 5, h => after_of_writes_sub (p6 (F := Ideal)) (R5 W) p6_writes h
  | 6, h => after_of_writes_sub (p7 (F := Ideal)) (R6 W) p7_writes h
  | 7, h => after_of_writes_sub (p8 (F := Ideal)) (R7 W) p8_writes h
  | 8, h => after_of_writes_sub (p9 (F := Ideal)) (R8 W) p9_writes h
  | 9, h => after_of_writes_sub (p10 (F := Ideal)) (R9 W) p10_writes h
  | 10, h => after_of_writes_sub (p11 (F := Ideal)) (R10 W) p11_writes h
  | 11, h => after_of_writes_sub (p12 (F := Ideal)) (R11 W) p12_writes h
  | 12, h => after_of_writes_sub (p13 (F := Ideal)) (R12 W) p13_writes h
  | 13, h => after_of_writes_sub (p14 (F := Ideal)) (R13 W) p14_writes h
  | 14, h => after_of_writes_sub (p15 (F := Ideal)) (R14 W) p15_writes h
  | 15, h => after_of_writes_sub (p16 (F := Ideal)) (R15 W) p16_writes h
  | 16, h => after_of_writes_sub (p17 (F := Ideal)) (R16 W) p17_writes h
  | 17, h => after_of_writes_sub (p18 (F := Ideal)) (R17 W) p18_writes h
  | 18, h => after_of_writes_sub (p19 (F := Ideal)) (R18 W) p19_writes h
  | _ + 19, _ => rfl

/-- A buffer none of the parts `a+1, …, a+n` writes holds after part `a+n` what it held after part `a`. -/
theorem stage_carry (a n : ℕ) (r : Ref sig .tc) (h : ∀ k ∈ List.range n, r ∉ written (a + k + 1)) :
    stage W (a + n) (Proc.devRef .tc r) = stage W a (Proc.devRef .tc r) := by
  induction n with
  | zero => rfl
  | succ n ih =>
    have hn : r ∉ written (a + n + 1) := h n (List.mem_range.mpr (Nat.lt_succ_self n))
    have hlt : ∀ k ∈ List.range n, r ∉ written (a + k + 1) := fun k hk =>
      h k (List.mem_range.mpr (Nat.lt_succ_of_lt (List.mem_range.mp hk)))
    exact (stage_succ W (a + n) r hn).trans (ih hlt)

/-- The whole line run from `W` ends at the last state. -/
theorem ops_run : after (ops (F := Ideal)) W = R19 W := by
  rw [ops_eq]
  simp only [after_append']
  rfl

end Cert.RefBridge

end
-- ==== Proof.RefVal.Prefix.lean ====
/-
  The graph preprocessing, read off the reference's own line.

  The first three parts of the reference's line compute, from the edge list (two rows of node numbers) and the edge logits,
    src, dst      the two rows of the edge list, as vectors of 400000 node numbers;
    w             the edge weights, sigmoid of the logits: 1 / (1 + exp (−logit));
    deg           the weighted in-degree plus the self loop: the weights scatter-added at dst, plus 1;
    dinv          deg^(−1/2) where deg > 0, else 0;
    norm          the symmetric normalisation of each edge: dinv[src] · w · dinv[dst].
  The stages `val_main_v0 … val_main_v35` are these operations one definition each, as functions of the argument arrays.
  This module proves that, run from any state `W`, the buffers the later layers read hold the stages of `W`'s argument
  arrays. Each proof runs one part on the state before it — first recording what that state holds at the buffers the
  part reads, then forgetting everything else about it —, which leaves the part's operations applied to those contents;
  the stage is, by definition, the same composition.
-/
import proofs.«141398_j71476845740179_1_alg».proof.Proof.RefVal.Carry
import proofs.«141398_j71476845740179_1_alg».proof.Proof.RefRead

set_option maxRecDepth 8192
set_option maxHeartbeats 1000000

noncomputable section

namespace Cert.RefBridge

open Cert.ReferenceIdeal Cert.ReferenceIdeal.Gen Idealize.ShloMosaic Idealize.ShloMosaic.TcCoe Idealize.SL.Sem Idealize.ShloMosaic.StableHlo
open Cert.ReferenceIdeal.OpsP Cert.ReferenceIdeal.ReadP

variable (W : Valuation τ sig (Elt Ideal))

/-! ## The starting state's argument arrays -/

/-- The node features `x`. -/
abbrev X0 : (⟨ReferenceIdeal.S50000x512, .f32⟩ : BufTy).Contents (Elt Ideal) := W (Proc.devRef .tc main_arg0)
/-- The edge list. -/
abbrev X1 : (⟨ReferenceIdeal.S2x400000, .i32⟩ : BufTy).Contents (Elt Ideal) := W (Proc.devRef .tc main_arg1)
/-- The edge logits. -/
abbrev X2 : (⟨ReferenceIdeal.S400000, .f32⟩ : BufTy).Contents (Elt Ideal) := W (Proc.devRef .tc main_arg2)
/-- The first layer's weights and bias. -/
abbrev X3 : (⟨ReferenceIdeal.S512x256, .f32⟩ : BufTy).Contents (Elt Ideal) := W (Proc.devRef .tc main_arg3)
abbrev X4 : (⟨ReferenceIdeal.S256, .f32⟩ : BufTy).Contents (Elt Ideal) := W (Proc.devRef .tc main_arg4)
/-- The second layer's weights and bias. -/
abbrev X5 : (⟨ReferenceIdeal.S256x256, .f32⟩ : BufTy).Contents (Elt Ideal) := W (Proc.devRef .tc main_arg5)
abbrev X6 : (⟨ReferenceIdeal.S256, .f32⟩ : BufTy).Contents (Elt Ideal) := W (Proc.devRef .tc main_arg6)
/-- The third layer's weights and bias. -/
abbrev X7 : (⟨ReferenceIdeal.S256x256, .f32⟩ : BufTy).Contents (Elt Ideal) := W (Proc.devRef .tc main_arg7)
abbrev X8 : (⟨ReferenceIdeal.S256, .f32⟩ : BufTy).Contents (Elt Ideal) := W (Proc.devRef .tc main_arg8)
/-- The output layer's weights and bias. -/
abbrev X9 : (⟨ReferenceIdeal.S768x8, .f32⟩ : BufTy).Contents (Elt Ideal) := W (Proc.devRef .tc main_arg9)
abbrev X10 : (⟨ReferenceIdeal.S8, .f32⟩ : BufTy).Contents (Elt Ideal) := W (Proc.devRef .tc main_arg10)

/-! ## The first stretch: the edge list's rows, the edge weights, the degree -/

/-- `src`: row 0 of the edge list. -/
theorem R1_v1 : R1 W (Proc.devRef .tc main_v1) = val_main_v1 (F := Ideal) (X1 W) := by
  dsimp only [R1, p1]
  after_results_simp
  rfl

/-- `dst`: row 1 of the edge list. -/
theorem R1_v3 : R1 W (Proc.devRef .tc main_v3) = val_main_v3 (F := Ideal) (X1 W) := by
  dsimp only [R1, p1]
  after_results_simp
  rfl

/-- The edge weights `w = 1 / (1 + exp (−logit))`. -/
theorem R1_v9 : R1 W (Proc.devRef .tc main_v9) = val_main_v9 (F := Ideal) (X2 W) := by
  dsimp only [R1, p1]
  after_results_simp
  rfl

/-- The all-ones edge weights (the last layer aggregates unweighted). -/
theorem R1_v10 : R1 W (Proc.devRef .tc main_v10) = val_main_v10 (F := Ideal) := by
  dsimp only [R1, p1]
  after_results_simp
  rfl

/-- `deg > 0`, where `deg` is the weights scatter-added at `dst`, plus 1. -/
theorem R1_v17 : R1 W (Proc.devRef .tc main_v17) = val_main_v17 (F := Ideal) (X1 W) (X2 W) := by
  dsimp only [R1, p1]
  after_results_simp
  rfl

/-- `deg^(−1/2)`. -/
theorem R1_v18 : R1 W (Proc.devRef .tc main_v18) = val_main_v18 (F := Ideal) (X1 W) (X2 W) := by
  dsimp only [R1, p1]
  after_results_simp
  rfl

/-- The scalar 0 that stands where the degree vanishes. -/
theorem R1_cst5 : R1 W (Proc.devRef .tc main_cst_5) = val_main_cst_5 (F := Ideal) := by
  dsimp only [R1, p1]
  after_results_simp
  rfl

/-! ## The second stretch: `dinv = where (deg > 0, deg^(−1/2), 0)` -/

/-- The stretch as a function of what it reads: from a condition `p`, a value `r` and a scalar `z` it leaves
    `where (p, r, z broadcast)`. -/
theorem where_stage0 (S : Valuation τ sig (Elt Ideal))
    (p : (⟨ReferenceIdeal.S50000, .i1⟩ : BufTy).Contents (Elt Ideal))
    (r : (⟨ReferenceIdeal.S50000, .f32⟩ : BufTy).Contents (Elt Ideal))
    (z : (⟨ReferenceIdeal.S_, .f32⟩ : BufTy).Contents (Elt Ideal))
    (e17 : S (Proc.devRef .tc main_v17) = p) (e18 : S (Proc.devRef .tc main_v18) = r)
    (e5 : S (Proc.devRef .tc main_cst_5) = z) :
    StableHlo.after p2 S (Proc.devRef .tc main_v19)
      = select p r (broadcastInDim ReferenceIdeal.S50000 ![] ReferenceIdeal.Facts₀.bcast_S_S50000 (id z)) := by
  dsimp only [p2]
  after_results_simp
  rw [e17, e18, e5]
  rfl

theorem R2_v19 : R2 W (Proc.devRef .tc main_v19) = val_main_v19 (F := Ideal) (X1 W) (X2 W) :=
  (where_stage0 (R1 W) _ _ _ (R1_v17 W) (R1_v18 W) (R1_cst5 W)).trans rfl

/-- The second stretch writes none of `src`, `dst`, `w`. -/
theorem R2_v1 : R2 W (Proc.devRef .tc main_v1) = val_main_v1 (F := Ideal) (X1 W) :=
  (stage_carry W 1 1 main_v1 (by decide)).trans (R1_v1 W)
theorem R2_v3 : R2 W (Proc.devRef .tc main_v3) = val_main_v3 (F := Ideal) (X1 W) :=
  (stage_carry W 1 1 main_v3 (by decide)).trans (R1_v3 W)
theorem R2_v9 : R2 W (Proc.devRef .tc main_v9) = val_main_v9 (F := Ideal) (X2 W) :=
  (stage_carry W 1 1 main_v9 (by decide)).trans (R1_v9 W)

/-! ## The third stretch: `norm = dinv[src] · w · dinv[dst]` -/

theorem R3_v35 : R3 W (Proc.devRef .tc main_v35) = val_main_v35 (F := Ideal) (X1 W) (X2 W) := by
  have e1 := R2_v1 W
  have e3 := R2_v3 W
  have e9 := R2_v9 W
  have e19 := R2_v19 W
  show StableHlo.after p3 (R2 W) (Proc.devRef .tc main_v35) = _
  generalize R2 W = S at e1 e3 e9 e19 ⊢
  dsimp only [p3]
  after_results_simp
  rw [e1, e3, e9, e19]
  rfl

end Cert.RefBridge

end
-- ==== Proof.RefVal.Layer1.lean ====
/-
  The first graph-convolution layer, read off the reference's own line.

  With `h = x · W₁` the layer computes
    agg   = scatter-add at dst of  h[src] · norm      (each edge carries its source's row, scaled),
    out₁  = relu (agg + h · dinv² + b₁)                (the self loop enters with weight dinv²),
  and then, for the next layer, the normalisation again from the same edge weights (the jnp code recomputes degree,
  dinv and norm in every layer). Parts 4 – 9 of the line; each buffer read later holds the stage of the argument arrays.
-/
import proofs.«141398_j71476845740179_1_alg».proof.Proof.RefVal.Prefix

set_option maxRecDepth 8192
set_option maxHeartbeats 1000000

noncomputable section

namespace Cert.RefBridge

open Cert.ReferenceIdeal Cert.ReferenceIdeal.Gen Idealize.ShloMosaic Idealize.ShloMosaic.TcCoe Idealize.SL.Sem Idealize.ShloMosaic.StableHlo
open Cert.ReferenceIdeal.OpsP Cert.ReferenceIdeal.ReadP

variable (W : Valuation τ sig (Elt Ideal))

/-! ## The product `h = x · W₁` -/

/-- Nothing before the product writes an argument array. -/
theorem R3_arg0 : R3 W (Proc.devRef .tc main_arg0) = X0 W := stage_carry W 0 3 main_arg0 (by decide)
theorem R3_arg3 : R3 W (Proc.devRef .tc main_arg3) = X3 W := stage_carry W 0 3 main_arg3 (by decide)

/-- The product, one operation of the line. -/
theorem R4_v36 : R4 W (Proc.devRef .tc main_v36) = val_main_v36 (F := Ideal) (X0 W) (X3 W) := by
  have e0 := R3_arg0 W
  have e3 := R3_arg3 W
  show StableHlo.after p4 (R3 W) (Proc.devRef .tc main_v36) = _
  generalize R3 W = S at e0 e3 ⊢
  dsimp only [p4]
  after_results_simp
  rw [e0, e3]
  rfl

/-- The product writes its own buffer only. -/
theorem R4_v1 : R4 W (Proc.devRef .tc main_v1) = val_main_v1 (F := Ideal) (X1 W) :=
  (stage_carry W 1 3 main_v1 (by decide)).trans (R1_v1 W)
theorem R4_v3 : R4 W (Proc.devRef .tc main_v3) = val_main_v3 (F := Ideal) (X1 W) :=
  (stage_carry W 1 3 main_v3 (by decide)).trans (R1_v3 W)
theorem R4_v19 : R4 W (Proc.devRef .tc main_v19) = val_main_v19 (F := Ideal) (X1 W) (X2 W) :=
  (stage_carry W 2 2 main_v19 (by decide)).trans (R2_v19 W)
theorem R4_v35 : R4 W (Proc.devRef .tc main_v35) = val_main_v35 (F := Ideal) (X1 W) (X2 W) :=
  (stage_carry W 3 1 main_v35 (by decide)).trans (R3_v35 W)
theorem R4_arg4 : R4 W (Proc.devRef .tc main_arg4) = X4 W := stage_carry W 0 4 main_arg4 (by decide)

/-! ## Aggregation, self loop and bias: `agg + h · dinv² + b₁` -/

theorem R5_v57 :
    R5 W (Proc.devRef .tc main_v57) = val_main_v57 (F := Ideal) (X0 W) (X1 W) (X2 W) (X3 W) (X4 W) := by
  have e1 := R4_v1 W
  have e3 := R4_v3 W
  have e19 := R4_v19 W
  have e35 := R4_v35 W
  have e36 := R4_v36 W
  have e4 := R4_arg4 W
  show StableHlo.after p5 (R4 W) (Proc.devRef .tc main_v57) = _
  generalize R4 W = S at e1 e3 e19 e35 e36 e4 ⊢
  dsimp only [p5]
  after_results_simp
  rw [e1, e3, e19, e35, e36, e4]
  rfl

/-! ## The activation: `out₁ = max (·, 0)` -/

/-- The stretch as a function of what it reads: from an array `y` it leaves `max (y, 0)`. -/
theorem relu_stage1 (S : Valuation τ sig (Elt Ideal))
    (y : (⟨ReferenceIdeal.S50000x256, .f32⟩ : BufTy).Contents (Elt Ideal))
    (e57 : S (Proc.devRef .tc main_v57) = y) :
    StableHlo.after p6 S (Proc.devRef .tc main_v58)
      = maximumf y (broadcastInDim ReferenceIdeal.S50000x256 ![] ReferenceIdeal.Facts₀.bcast_S_S50000x256
          (constant (F := Ideal) ReferenceIdeal.S_ .f32 0x00000000#32)) := by
  dsimp only [p6]
  after_results_simp
  rw [e57]
  rfl

theorem R6_v58 :
    R6 W (Proc.devRef .tc main_v58) = val_main_v58 (F := Ideal) (X0 W) (X1 W) (X2 W) (X3 W) (X4 W) :=
  (relu_stage1 (R5 W) _ (R5_v57 W)).trans rfl

/-! ## The second layer's normalisation: degree, `dinv`, `norm` again -/

theorem R6_v3 : R6 W (Proc.devRef .tc main_v3) = val_main_v3 (F := Ideal) (X1 W) :=
  (stage_carry W 1 5 main_v3 (by decide)).trans (R1_v3 W)
theorem R6_v9 : R6 W (Proc.devRef .tc main_v9) = val_main_v9 (F := Ideal) (X2 W) :=
  (stage_carry W 1 5 main_v9 (by decide)).trans (R1_v9 W)

/-- `deg > 0`. -/
theorem R7_v65 : R7 W (Proc.devRef .tc main_v65) = val_main_v65 (F := Ideal) (X1 W) (X2 W) := by
  have e3 := R6_v3 W
  have e9 := R6_v9 W
  show StableHlo.after p7 (R6 W) (Proc.devRef .tc main_v65) = _
  generalize R6 W = S at e3 e9 ⊢
  dsimp only [p7]
  after_results_simp
  rw [e3, e9]
  rfl

/-- `deg^(−1/2)`. -/
theorem R7_v66 : R7 W (Proc.devRef .tc main_v66) = val_main_v66 (F := Ideal) (X1 W) (X2 W) := by
  have e3 := R6_v3 W
  have e9 := R6_v9 W
  show StableHlo.after p7 (R6 W) (Proc.devRef .tc main_v66) = _
  generalize R6 W = S at e3 e9 ⊢
  dsimp only [p7]
  after_results_simp
  rw [e3, e9]
  rfl

theorem R7_cst15 : R7 W (Proc.devRef .tc main_cst_15) = val_main_cst_15 (F := Ideal) := by
  show StableHlo.after p7 (R6 W) (Proc.devRef .tc main_cst_15) = _
  generalize R6 W = S
  dsimp only [p7]
  after_results_simp
  rfl

/-- The stretch as a function of what it reads: `where (p, r, z broadcast)`. -/
theorem where_stage1 (S : Valuation τ sig (Elt Ideal))
    (p : (⟨ReferenceIdeal.S50000, .i1⟩ : BufTy).Contents (Elt Ideal))
    (r : (⟨ReferenceIdeal.S50000, .f32⟩ : BufTy).Contents (Elt Ideal))
    (z : (⟨ReferenceIdeal.S_, .f32⟩ : BufTy).Contents (Elt Ideal))
    (e65 : S (Proc.devRef .tc main_v65) = p) (e66 : S (Proc.devRef .tc main_v66) = r)
    (e15 : S (Proc.devRef .tc main_cst_15) = z) :
    StableHlo.after p8 S (Proc.devRef .tc main_v67)
      = select p r (broadcastInDim ReferenceIdeal.S50000 ![] ReferenceIdeal.Facts₀.bcast_S_S50000 (id z)) := by
  dsimp only [p8]
  after_results_simp
  rw [e65, e66, e15]
  rfl

/-- `dinv`. -/
theorem R8_v67 : R8 W (Proc.devRef .tc main_v67) = val_main_v67 (F := Ideal) (X1 W) (X2 W) :=
  (where_stage1 (R7 W) _ _ _ (R7_v65 W) (R7_v66 W) (R7_cst15 W)).trans rfl

theorem R8_v1 : R8 W (Proc.devRef .tc main_v1) = val_main_v1 (F := Ideal) (X1 W) :=
  (stage_carry W 1 7 main_v1 (by decide)).trans (R1_v1 W)
theorem R8_v3 : R8 W (Proc.devRef .tc main_v3) = val_main_v3 (F := Ideal) (X1 W) :=
  (stage_carry W 1 7 main_v3 (by decide)).trans (R1_v3 W)
theorem R8_v9 : R8 W (Proc.devRef .tc main_v9) = val_main_v9 (F := Ideal) (X2 W) :=
  (stage_carry W 1 7 main_v9 (by decide)).trans (R1_v9 W)

/-- `norm`. -/
theorem R9_v83 : R9 W (Proc.devRef .tc main_v83) = val_main_v83 (F := Ideal) (X1 W) (X2 W) := by
  have e1 := R8_v1 W
  have e3 := R8_v3 W
  have e9 := R8_v9 W
  have e67 := R8_v67 W
  show StableHlo.after p9 (R8 W) (Proc.devRef .tc main_v83) = _
  generalize R8 W = S at e1 e3 e9 e67 ⊢
  dsimp only [p9]
  after_results_simp
  rw [e1, e3, e9, e67]
  rfl

end Cert.RefBridge

end
-- ==== Proof.RefVal.Layer2.lean ====
/-
  The second graph-convolution layer, read off the reference's own line.

  The same computation as the first layer, one level up: with `h = out₁ · W₂`,
    out₂ = relu (scatter-add at dst of h[src] · norm  +  h · dinv²  +  b₂),
  then the normalisation for the LAST layer, which aggregates with unit edge weights: degree = (number of incoming
  edges) + 1, `dinv` and `norm` from it. Parts 10 – 15 of the line.
-/
import proofs.«141398_j71476845740179_1_alg».proof.Proof.RefVal.Layer1

set_option maxRecDepth 8192
set_option maxHeartbeats 1000000

noncomputable section

namespace Cert.RefBridge

open Cert.ReferenceIdeal Cert.ReferenceIdeal.Gen Idealize.ShloMosaic Idealize.ShloMosaic.TcCoe Idealize.SL.Sem Idealize.ShloMosaic.StableHlo
open Cert.ReferenceIdeal.OpsP Cert.ReferenceIdeal.ReadP

variable (W : Valuation τ sig (Elt Ideal))

/-! ## The product `h = out₁ · W₂` -/

theorem R9_v58 :
    R9 W (Proc.devRef .tc main_v58) = val_main_v58 (F := Ideal) (X0 W) (X1 W) (X2 W) (X3 W) (X4 W) :=
  (stage_carry W 6 3 main_v58 (by decide)).trans (R6_v58 W)
theorem R9_arg5 : R9 W (Proc.devRef .tc main_arg5) = X5 W := stage_carry W 0 9 main_arg5 (by decide)

/-- The product, one operation of the line. -/
theorem R10_v84 : R10 W (Proc.devRef .tc main_v84) = val_main_v84 (F := Ideal) (X0 W) (X1 W) (X2 W) (X3 W) (X4 W) (X5 W) := by
  have e58 := R9_v58 W
  have e5 := R9_arg5 W
  show StableHlo.after p10 (R9 W) (Proc.devRef .tc main_v84) = _
  generalize R9 W = S at e58 e5 ⊢
  dsimp only [p10]
  after_results_simp
  rw [e58, e5]
  rfl

theorem R10_v1 : R10 W (Proc.devRef .tc main_v1) = val_main_v1 (F := Ideal) (X1 W) :=
  (stage_carry W 1 9 main_v1 (by decide)).trans (R1_v1 W)
theorem R10_v3 : R10 W (Proc.devRef .tc main_v3) = val_main_v3 (F := Ideal) (X1 W) :=
  (stage_carry W 1 9 main_v3 (by decide)).trans (R1_v3 W)
theorem R10_v67 : R10 W (Proc.devRef .tc main_v67) = val_main_v67 (F := Ideal) (X1 W) (X2 W) :=
  (stage_carry W 8 2 main_v67 (by decide)).trans (R8_v67 W)
theorem R10_v83 : R10 W (Proc.devRef .tc main_v83) = val_main_v83 (F := Ideal) (X1 W) (X2 W) :=
  (stage_carry W 9 1 main_v83 (by decide)).trans (R9_v83 W)
theorem R10_arg6 : R10 W (Proc.devRef .tc main_arg6) = X6 W := stage_carry W 0 10 main_arg6 (by decide)

/-! ## Aggregation, self loop and bias: `agg + h · dinv² + b₂` -/

theorem R11_v105 :
    R11 W (Proc.devRef .tc main_v105) = val_main_v105 (F := Ideal) (X0 W) (X1 W) (X2 W) (X3 W) (X4 W) (X5 W) (X6 W) := by
  have e1 := R10_v1 W
  have e3 := R10_v3 W
  have e67 := R10_v67 W
  have e83 := R10_v83 W
  have e84 := R10_v84 W
  have e6 := R10_arg6 W
  show StableHlo.after p11 (R10 W) (Proc.devRef .tc main_v105) = _
  generalize R10 W = S at e1 e3 e67 e83 e84 e6 ⊢
  dsimp only [p11]
  after_results_simp
  rw [e1, e3, e67, e83, e84, e6]
  rfl

/-! ## The activation: `out₂ = max (·, 0)` -/

/-- The stretch as a function of what it reads: from an array `y` it leaves `max (y, 0)`. -/
theorem relu_stage2 (S : Valuation τ sig (Elt Ideal))
    (y : (⟨ReferenceIdeal.S50000x256, .f32⟩ : BufTy).Contents (Elt Ideal))
    (e105 : S (Proc.devRef .tc main_v105) = y) :
    StableHlo.after p12 S (Proc.devRef .tc main_v106)
      = maximumf y (broadcastInDim ReferenceIdeal.S50000x256 ![] ReferenceIdeal.Facts₀.bcast_S_S50000x256
          (constant (F := Ideal) ReferenceIdeal.S_ .f32 0x00000000#32)) := by
  dsimp only [p12]
  after_results_simp
  rw [e105]
  rfl

theorem R12_v106 :
    R12 W (Proc.devRef .tc main_v106) = val_main_v106 (F := Ideal) (X0 W) (X1 W) (X2 W) (X3 W) (X4 W) (X5 W) (X6 W) :=
  (relu_stage2 (R11 W) _ (R11_v105 W)).trans rfl

/-! ## The last layer's normalisation, with unit edge weights -/

theorem R12_v3 : R12 W (Proc.devRef .tc main_v3) = val_main_v3 (F := Ideal) (X1 W) :=
  (stage_carry W 1 11 main_v3 (by decide)).trans (R1_v3 W)
theorem R12_v10 : R12 W (Proc.devRef .tc main_v10) = val_main_v10 (F := Ideal) :=
  (stage_carry W 1 11 main_v10 (by decide)).trans (R1_v10 W)

/-- `deg > 0`, the degree now the number of incoming edges plus 1. -/
theorem R13_v113 : R13 W (Proc.devRef .tc main_v113) = val_main_v113 (F := Ideal) (X1 W) := by
  have e3 := R12_v3 W
  have e10 := R12_v10 W
  show StableHlo.after p13 (R12 W) (Proc.devRef .tc main_v113) = _
  generalize R12 W = S at e3 e10 ⊢
  dsimp only [p13]
  after_results_simp
  rw [e3, e10]
  rfl

/-- `deg^(−1/2)`. -/
theorem R13_v114 : R13 W (Proc.devRef .tc main_v114) = val_main_v114 (F := Ideal) (X1 W) := by
  have e3 := R12_v3 W
  have e10 := R12_v10 W
  show StableHlo.after p13 (R12 W) (Proc.devRef .tc main_v114) = _
  generalize R12 W = S at e3 e10 ⊢
  dsimp only [p13]
  after_results_simp
  rw [e3, e10]
  rfl

theorem R13_cst26 : R13 W (Proc.devRef .tc main_cst_26) = val_main_cst_26 (F := Ideal) := by
  show StableHlo.after p13 (R12 W) (Proc.devRef .tc main_cst_26) = _
  generalize R12 W = S
  dsimp only [p13]
  after_results_simp
  rfl

/-- The stretch as a function of what it reads: `where (p, r, z broadcast)`. -/
theorem where_stage2 (S : Valuation τ sig (Elt Ideal))
    (p : (⟨ReferenceIdeal.S50000, .i1⟩ : BufTy).Contents (Elt Ideal))
    (r : (⟨ReferenceIdeal.S50000, .f32⟩ : BufTy).Contents (Elt Ideal))
    (z : (⟨ReferenceIdeal.S_, .f32⟩ : BufTy).Contents (Elt Ideal))
    (e113 : S (Proc.devRef .tc main_v113) = p) (e114 : S (Proc.devRef .tc main_v114) = r)
    (e26 : S (Proc.devRef .tc main_cst_26) = z) :
    StableHlo.after p14 S (Proc.devRef .tc main_v115)
      = select p r (broadcastInDim ReferenceIdeal.S50000 ![] ReferenceIdeal.Facts₀.bcast_S_S50000 (id z)) := by
  dsimp only [p14]
  after_results_simp
  rw [e113, e114, e26]
  rfl

/-- `dinv`. -/
theorem R14_v115 : R14 W (Proc.devRef .tc main_v115) = val_main_v115 (F := Ideal) (X1 W) :=
  (where_stage2 (R13 W) _ _ _ (R13_v113 W) (R13_v114 W) (R13_cst26 W)).trans rfl

theorem R14_v1 : R14 W (Proc.devRef .tc main_v1) = val_main_v1 (F := Ideal) (X1 W) :=
  (stage_carry W 1 13 main_v1 (by decide)).trans (R1_v1 W)
theorem R14_v3 : R14 W (Proc.devRef .tc main_v3) = val_main_v3 (F := Ideal) (X1 W) :=
  (stage_carry W 1 13 main_v3 (by decide)).trans (R1_v3 W)
theorem R14_v10 : R14 W (Proc.devRef .tc main_v10) = val_main_v10 (F := Ideal) :=
  (stage_carry W 1 13 main_v10 (by decide)).trans (R1_v10 W)

/-- `norm = dinv[src] · 1 · dinv[dst]`. -/
theorem R15_v131 : R15 W (Proc.devRef .tc main_v131) = val_main_v131 (F := Ideal) (X1 W) := by
  have e1 := R14_v1 W
  have e3 := R14_v3 W
  have e10 := R14_v10 W
  have e115 := R14_v115 W
  show StableHlo.after p15 (R14 W) (Proc.devRef .tc main_v131) = _
  generalize R14 W = S at e1 e3 e10 e115 ⊢
  dsimp only [p15]
  after_results_simp
  rw [e1, e3, e10, e115]
  rfl

end Cert.RefBridge

end
-- ==== Proof.RefVal.Layer3.lean ====
/-
  The third graph-convolution layer and the concatenation, read off the reference's own line.

  With `h = out₂ · W₃` the last layer computes, WITHOUT activation and with unit edge weights,
    out₃ = scatter-add at dst of h[src] · norm  +  h · dinv²  +  b₃,
  and the classifier's input is the three outputs side by side: `[out₁ | out₂ | out₃]`, 768 columns. Parts 16 and 17.
-/
import proofs.«141398_j71476845740179_1_alg».proof.Proof.RefVal.Layer2

set_option maxRecDepth 8192
set_option maxHeartbeats 1000000

noncomputable section

namespace Cert.RefBridge

open Cert.ReferenceIdeal Cert.ReferenceIdeal.Gen Idealize.ShloMosaic Idealize.ShloMosaic.TcCoe Idealize.SL.Sem Idealize.ShloMosaic.StableHlo
open Cert.ReferenceIdeal.OpsP Cert.ReferenceIdeal.ReadP

variable (W : Valuation τ sig (Elt Ideal))

/-- The result of an operation with three operands, each operand's contents read at its own buffer. -/
theorem nary3_result_at {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-! ## The product `h = out₂ · W₃` -/

theorem R15_v106 : R15 W (Proc.devRef .tc main_v106) = val_main_v106 (F := Ideal) (X0 W) (X1 W) (X2 W) (X3 W) (X4 W) (X5 W) (X6 W) :=
  (stage_carry W 12 3 main_v106 (by decide)).trans (R12_v106 W)
theorem R15_arg7 : R15 W (Proc.devRef .tc main_arg7) = X7 W := stage_carry W 0 15 main_arg7 (by decide)

/-- The product, one operation of the line. -/
theorem R16_v132 : R16 W (Proc.devRef .tc main_v132) = val_main_v132 (F := Ideal) (X0 W) (X1 W) (X2 W) (X3 W) (X4 W) (X5 W) (X6 W) (X7 W) := by
  have e106 := R15_v106 W
  have e7 := R15_arg7 W
  show StableHlo.after p16 (R15 W) (Proc.devRef .tc main_v132) = _
  generalize R15 W = S at e106 e7 ⊢
  dsimp only [p16]
  after_results_simp
  rw [e106, e7]
  rfl

theorem R16_v1 : R16 W (Proc.devRef .tc main_v1) = val_main_v1 (F := Ideal) (X1 W) :=
  (stage_carry W 1 15 main_v1 (by decide)).trans (R1_v1 W)
theorem R16_v3 : R16 W (Proc.devRef .tc main_v3) = val_main_v3 (F := Ideal) (X1 W) :=
  (stage_carry W 1 15 main_v3 (by decide)).trans (R1_v3 W)
theorem R16_v115 : R16 W (Proc.devRef .tc main_v115) = val_main_v115 (F := Ideal) (X1 W) :=
  (stage_carry W 14 2 main_v115 (by decide)).trans (R14_v115 W)
theorem R16_v131 : R16 W (Proc.devRef .tc main_v131) = val_main_v131 (F := Ideal) (X1 W) :=
  (stage_carry W 15 1 main_v131 (by decide)).trans (R15_v131 W)
theorem R16_v58 : R16 W (Proc.devRef .tc main_v58) = val_main_v58 (F := Ideal) (X0 W) (X1 W) (X2 W) (X3 W) (X4 W) :=
  (stage_carry W 6 10 main_v58 (by decide)).trans (R6_v58 W)
theorem R16_v106 : R16 W (Proc.devRef .tc main_v106) = val_main_v106 (F := Ideal) (X0 W) (X1 W) (X2 W) (X3 W) (X4 W) (X5 W) (X6 W) :=
  (stage_carry W 12 4 main_v106 (by decide)).trans (R12_v106 W)
theorem R16_arg8 : R16 W (Proc.devRef .tc main_arg8) = X8 W := stage_carry W 0 16 main_arg8 (by decide)

/-! ## The last layer and the concatenation `[out₁ | out₂ | out₃]` -/

theorem R17_v154 : R17 W (Proc.devRef .tc main_v154) = val_main_v154 (F := Ideal) (X0 W) (X1 W) (X2 W) (X3 W) (X4 W) (X5 W) (X6 W) (X7 W) (X8 W) := by
  have e1 := R16_v1 W
  have e3 := R16_v3 W
  have e115 := R16_v115 W
  have e131 := R16_v131 W
  have e132 := R16_v132 W
  have e58 := R16_v58 W
  have e106 := R16_v106 W
  have e8 := R16_arg8 W
  show StableHlo.after p17 (R16 W) (Proc.devRef .tc main_v154) = _
  generalize R16 W = S at e1 e3 e115 e131 e132 e58 e106 e8 ⊢
  dsimp only [p17]
  simp only [after_cons, after_nil]
  -- the last operation is the concatenation, which reads its three operands off the state `St` the first twenty-four
  -- operations leave
  rw [nary3_result_at]
  generalize hSt : HloOp.result _ _ = St
  -- the first two layers' outputs are not written by this part; the third is computed by it
  have h58 : St (Proc.devRef .tc main_v58) = val_main_v58 (F := Ideal) (X0 W) (X1 W) (X2 W) (X3 W) (X4 W) := by
    rw [← hSt]; after_results_simp; exact e58
  have h106 : St (Proc.devRef .tc main_v106) = val_main_v106 (F := Ideal) (X0 W) (X1 W) (X2 W) (X3 W) (X4 W) (X5 W) (X6 W) := by
    rw [← hSt]; after_results_simp; exact e106
  have h153 : St (Proc.devRef .tc main_v153) = val_main_v153 (F := Ideal) (X0 W) (X1 W) (X2 W) (X3 W) (X4 W) (X5 W) (X6 W) (X7 W) (X8 W) := by
    rw [← hSt]; after_results_simp; rw [e1, e3, e115, e131, e132, e8]; rfl
  rw [h58, h106, h153]
  rfl

end Cert.RefBridge

end
-- ==== Proof.RefVal.Result.lean ====
/-
  The output layer, log_softmax, and the value the reference's whole line leaves.

  The classifier is one more dense layer on the concatenated features, `logits = [out₁ | out₂ | out₃] · W + b`: in the
  reference's line a product, the bias as a 1 × 8 row, the row broadcast down the 50000 rows, and their sum (part 18).
  Then the row-wise log_softmax, `z − max z − log Σ exp (z − max z)` (part 19), whose last operation writes the result.
  Altogether: run from ANY state, the line leaves in its result buffer the last stage of that state's argument arrays.
-/
import proofs.«141398_j71476845740179_1_alg».proof.Proof.RefVal.Layer3

set_option maxRecDepth 8192
set_option maxHeartbeats 1000000

noncomputable section

namespace Cert.RefBridge

open Cert.ReferenceIdeal Cert.ReferenceIdeal.Gen Idealize.ShloMosaic Idealize.ShloMosaic.TcCoe Idealize.SL.Sem Idealize.ShloMosaic.StableHlo
open Cert.ReferenceIdeal.OpsP Cert.ReferenceIdeal.ReadP

variable (W : Valuation τ sig (Elt Ideal))

/-! ## The logits -/

theorem R17_arg9 : R17 W (Proc.devRef .tc main_arg9) = X9 W := stage_carry W 0 17 main_arg9 (by decide)
theorem R17_arg10 : R17 W (Proc.devRef .tc main_arg10) = X10 W := stage_carry W 0 17 main_arg10 (by decide)

theorem R18_v158 : R18 W (Proc.devRef .tc main_v158) = val_main_v158 (F := Ideal) (X0 W) (X1 W) (X2 W) (X3 W) (X4 W) (X5 W) (X6 W) (X7 W) (X8 W) (X9 W) (X10 W) := by
  have e154 := R17_v154 W
  have e9 := R17_arg9 W
  have e10 := R17_arg10 W
  show StableHlo.after p18 (R17 W) (Proc.devRef .tc main_v158) = _
  generalize R17 W = S at e154 e9 e10 ⊢
  dsimp only [p18]
  after_results_simp
  rw [e154, e9, e10]
  rfl

/-! ## log_softmax -/

/-- `log_softmax` along the rows of a 50000 × 8 matrix, operation by operation as jnp lowers it. -/
def logSoftmaxRows (y : FVec Ideal ReferenceIdeal.S50000x8 .f32) : FVec Ideal ReferenceIdeal.S50000x8 .f32 :=
  -- the row maximum, guarded: max (−∞ everywhere) (max over the row starting from −∞)
  let rowMax : FVec Ideal ReferenceIdeal.S50000 .f32 :=
    maximumf
      (broadcastInDim ReferenceIdeal.S50000 ![] ReferenceIdeal.Facts₀.bcast_S_S50000
        (constant (F := Ideal) ReferenceIdeal.S_ .f32 0xFF800000#32))
      (Host.reduce FloatOps.maximumf y (constant (F := Ideal) ReferenceIdeal.S_ .f32 0xFF800000#32)
        ReferenceIdeal.Facts₀.reducesTo_S50000x8_S50000_d1 ReferenceIdeal.Facts₀.h_S_)
  -- the logits shifted by their row's maximum
  let shifted : FVec Ideal ReferenceIdeal.S50000x8 .f32 :=
    subf y
      (broadcastInDim ReferenceIdeal.S50000x8 ![0, 1] ReferenceIdeal.Facts₀.bcast_S50000x1_S50000x8_0_1
        (broadcastInDim ReferenceIdeal.S50000x1 ![0] ReferenceIdeal.Facts₀.bcast_S50000_S50000x1_0 rowMax))
  -- the log of each row's sum of exponentials, as a column
  let logSumExp : FVec Ideal ReferenceIdeal.S50000x1 .f32 :=
    Host.log
      (broadcastInDim ReferenceIdeal.S50000x1 ![0] ReferenceIdeal.Facts₀.bcast_S50000_S50000x1_0
        (Host.reduceAdd (Host.exp shifted) (constant (F := Ideal) ReferenceIdeal.S_ .f32 0x00000000#32)
          ReferenceIdeal.Facts₀.reducesTo_S50000x8_S50000_d1 ReferenceIdeal.Facts₀.h_S_))
  subf shifted
    (broadcastInDim ReferenceIdeal.S50000x8 ![0, 1] ReferenceIdeal.Facts₀.bcast_S50000x1_S50000x8_0_1 logSumExp)

/-- The part run on a state holding `y` in the logits' buffer leaves `logSoftmaxRows y` in the result's buffer. -/
theorem softmax_ops (S : Valuation τ sig (Elt Ideal)) (y : (⟨ReferenceIdeal.S50000x8, .f32⟩ : BufTy).Contents (Elt Ideal))
    (e : S (Proc.devRef .tc main_v158) = y) :
    StableHlo.after p19 S (Proc.devRef .tc main_v159) = logSoftmaxRows y := by
  dsimp only [p19]
  after_results_simp
  rw [e]
  unfold logSoftmaxRows
  -- each intermediate result is stored at its buffer's own type and read back at the operation's: the identity twice
  simp only [TRef.toBuf, TRef.ofBuf, cast_cast, cast_eq]

/-- The result buffer after the whole line. -/
theorem R19_v159 : R19 W (Proc.devRef .tc main_v159) = val_main_v159 (F := Ideal) (X0 W) (X1 W) (X2 W) (X3 W) (X4 W) (X5 W) (X6 W) (X7 W) (X8 W) (X9 W) (X10 W) :=
  (softmax_ops (R18 W) _ (R18_v158 W)).trans rfl

/-! ## The value of the run -/

/-- THE REFERENCE'S LINE IS ITS LAST STAGE. Run from any state `W`, the 220 operations leave in the result buffer the
    stage `val_main_v159` of the argument arrays `W` holds. -/
theorem ref_value (W : Valuation Cert.ReferenceIdeal.τ Cert.ReferenceIdeal.sig (Elt Ideal)) :
    StableHlo.after (Cert.ReferenceIdeal.OpsP.ops (F := Ideal)) W (Proc.devRef .tc Cert.ReferenceIdeal.main_v159)
      = Cert.ReferenceIdeal.ReadP.val_main_v159 (F := Ideal)
          (W (Proc.devRef .tc Cert.ReferenceIdeal.main_arg0)) (W (Proc.devRef .tc Cert.ReferenceIdeal.main_arg1))
          (W (Proc.devRef .tc Cert.ReferenceIdeal.main_arg2)) (W (Proc.devRef .tc Cert.ReferenceIdeal.main_arg3))
          (W (Proc.devRef .tc Cert.ReferenceIdeal.main_arg4)) (W (Proc.devRef .tc Cert.ReferenceIdeal.main_arg5))
          (W (Proc.devRef .tc Cert.ReferenceIdeal.main_arg6)) (W (Proc.devRef .tc Cert.ReferenceIdeal.main_arg7))
          (W (Proc.devRef .tc Cert.ReferenceIdeal.main_arg8)) (W (Proc.devRef .tc Cert.ReferenceIdeal.main_arg9))
          (W (Proc.devRef .tc Cert.ReferenceIdeal.main_arg10)) := by
  rw [ops_run W]
  exact R19_v159 W

end Cert.RefBridge

end
-- ==== Proof.RefRunHand.lean ====
/-
  The reference's run. The reference is a straight line of 220 host operations, so every weakly fair execution
  terminates with each buffer at the fold of the operations over its launch contents. No operation writes an argument,
  so the arguments end as launched; and the fold at the result buffer is the last stage of the reference read one
  operation at a time — the log-softmax of the logits as a function of the eleven arguments.
-/
import proofs.«141398_j71476845740179_1_alg».proof.Proof.RefOps
import proofs.«141398_j71476845740179_1_alg».proof.Proof.RefRead
import proofs.«141398_j71476845740179_1_alg».proof.Proof.RefVal.Result

noncomputable section

namespace Cert.ReferenceIdeal.RunHand

open Cert.ReferenceIdeal Cert.ReferenceIdeal.Gen Cert.ReferenceIdeal.OpsP Cert.ReferenceIdeal.ReadP
open Idealize.ShloMosaic Idealize.ShloMosaic.TcCoe Idealize.SL.Sem Idealize.ShloMosaic.StableHlo

set_option maxRecDepth 8192 in
set_option maxHeartbeats 88000000 in
/-- On every device, from any memory with zero counters: every weakly fair execution of the reference terminates with
    the result at the last stage's value of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v159) = val_main_v159 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v159).trans (Cert.RefBridge.ref_value (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => ops) main_eq (fun _ => ops_sub) m ρ)

end Cert.ReferenceIdeal.RunHand

end
-- ==== Proof.Val.Spec.lean ====
import Idealize.ShloMosaic.Lib.ValueIdx
import Idealize.ShloMosaic.PureOps.Ideal

/-!
# The specification: a matrix product, entry by entry

Every dense layer of the network computes, on the extended reals, the product of a tall matrix of node features
(50000 rows) and a small weight matrix. This module states that product once, for any extents, as a function of the
two matrices read at an index; nothing here mentions a program.
-/

noncomputable section

namespace Cert.KernelIdeal.MatVal

open Idealize.ShloMosaic Idealize.ShloMosaic.ValueIdx

/-- The product of an `M × K` matrix `X` and a `K × N` matrix `W` of extended reals: entry `(r, c)` is row `r` of `X`
    against column `c` of `W`, summed over the `K` contraction positions. -/
def matProd {M K N : Nat} (X : (⟨2, ![M, K]⟩ : Shape).Idx → EReal) (W : (⟨2, ![K, N]⟩ : Shape).Idx → EReal) :
    (⟨2, ![M, N]⟩ : Shape).Idx → EReal :=
  fun i => ∑ k : Fin K, X (ix2 (i 0) k) * W (ix2 k (i 1))

theorem matProd_apply {M K N : Nat} (X : (⟨2, ![M, K]⟩ : Shape).Idx → EReal) (W : (⟨2, ![K, N]⟩ : Shape).Idx → EReal)
    (i : (⟨2, ![M, N]⟩ : Shape).Idx) : matProd X W i = ∑ k : Fin K, X (ix2 (i 0) k) * W (ix2 k (i 1)) := rfl

/-- The product with a row vector `b` (a `1 × N` matrix) added to every row: a dense layer with a bias. -/
def matProdBias {M K N : Nat} (X : (⟨2, ![M, K]⟩ : Shape).Idx → EReal) (W : (⟨2, ![K, N]⟩ : Shape).Idx → EReal)
    (b : (⟨2, ![1, N]⟩ : Shape).Idx → EReal) : (⟨2, ![M, N]⟩ : Shape).Idx → EReal :=
  fun i => matProd X W i + b (ix2 (0 : Fin 1) (i 1))

theorem matProdBias_apply {M K N : Nat} (X : (⟨2, ![M, K]⟩ : Shape).Idx → EReal) (W : (⟨2, ![K, N]⟩ : Shape).Idx → EReal)
    (b : (⟨2, ![1, N]⟩ : Shape).Idx → EReal) (i : (⟨2, ![M, N]⟩ : Shape).Idx) :
    matProdBias X W b i = (∑ k : Fin K, X (ix2 (i 0) k) * W (ix2 k (i 1))) + b (ix2 (0 : Fin 1) (i 1)) := rfl

end Cert.KernelIdeal.MatVal

end
-- ==== Proof.Val.Contract.lean ====
import proofs.«141398_j71476845740179_1_alg».proof.Proof.Val.Spec
import Idealize.ShloMosaic.PureOps.Ideal.Laws

/-!
# A one-axis contraction is a sum over the contraction extent

A `tpu.matmul` and a `dot_general` sum, on the extended reals, the products of their operands over the contraction
index of their dimension record, a one-coordinate multi-index. For a plain matrix product `[M, K] · [K, N]` — the left
operand's axis 1 contracted with the right operand's axis 0, no batch axis — that sum, re-indexed over `Fin K`, is the
entry of the product `matProd`. This is proved once here from the four coordinate facts of the record (which operand
coordinate is the output's row, the output's column, the contraction position); each concrete record then only has to
supply those four facts.
-/

noncomputable section

namespace Cert.KernelIdeal.MatVal

open Idealize.ShloMosaic Idealize.ShloMosaic.ValueIdx

/-- The four coordinate facts of a plain matrix product's dimension record: the left operand is read at (the output's
    row, the contraction position), the right operand at (the contraction position, the output's column). -/
structure PlainDot {M K N : Nat} (D : DotDims ⟨2, ![M, K]⟩ ⟨2, ![K, N]⟩ ⟨2, ![M, N]⟩) : Prop where
  rank : D.contr.rank = 1
  size : D.contr.size ⟨0, by omega⟩ = K
  lhs_row : ∀ (i : (⟨2, ![M, N]⟩ : Shape).Idx) (r : D.contr.Idx), (D.lhsIdx i r 0).val = (i 0).val
  lhs_col : ∀ (i : (⟨2, ![M, N]⟩ : Shape).Idx) (r : D.contr.Idx), (D.lhsIdx i r 1).val = (r ⟨0, by omega⟩).val
  rhs_row : ∀ (i : (⟨2, ![M, N]⟩ : Shape).Idx) (r : D.contr.Idx), (D.rhsIdx i r 0).val = (r ⟨0, by omega⟩).val
  rhs_col : ∀ (i : (⟨2, ![M, N]⟩ : Shape).Idx) (r : D.contr.Idx), (D.rhsIdx i r 1).val = (i 1).val

/-- THE CONTRACTION SUM IS THE PRODUCT'S ENTRY: the bijection between the record's one-coordinate contraction indices
    and `Fin K` carries the record's sum to `∑ k, L (row, k) * R (k, column)`. -/
theorem PlainDot.sum_eq {M K N : Nat} {D : DotDims ⟨2, ![M, K]⟩ ⟨2, ![K, N]⟩ ⟨2, ![M, N]⟩} (h : PlainDot D)
    (L : (⟨2, ![M, K]⟩ : Shape).Idx → EReal) (R : (⟨2, ![K, N]⟩ : Shape).Idx → EReal) (i : (⟨2, ![M, N]⟩ : Shape).Idx) :
    ∑ r : D.contr.Idx, L (D.lhsIdx i r) * R (D.rhsIdx i r) = matProd L R i := by
  rw [matProd_apply, ← Equiv.sum_comp (contrEquiv1 D K h.rank h.size).symm]
  refine Finset.sum_congr rfl fun k _ => ?_
  have hk := contrEquiv1_symm_val D K h.rank h.size k
  have el : D.lhsIdx i ((contrEquiv1 D K h.rank h.size).symm k) = ix2 (i 0) k := funext fun a => Fin.ext (by
    match a with
    | ⟨0, _⟩ => exact h.lhs_row _ _
    | ⟨1, _⟩ => exact (h.lhs_col _ _).trans hk)
  have er : D.rhsIdx i ((contrEquiv1 D K h.rank h.size).symm k) = ix2 k (i 1) := funext fun a => Fin.ext (by
    match a with
    | ⟨0, _⟩ => exact (h.rhs_row _ _).trans hk
    | ⟨1, _⟩ => exact h.rhs_col _ _)
  rw [el, er]
  rfl

/-- A kernel's matmul into a zero accumulator, read at an index, is the product's entry. -/
theorem PlainDot.matmul_zero_apply {M K N : Nat} {D : DotDims ⟨2, ![M, K]⟩ ⟨2, ![K, N]⟩ ⟨2, ![M, N]⟩} (h : PlainDot D)
    {φ₁ φ₂ : FTy} (prec : Option ContractPrecision) (L : FVec Ideal ⟨2, ![M, K]⟩ φ₁) (R : FVec Ideal ⟨2, ![K, N]⟩ φ₂)
    (i : (⟨2, ![M, N]⟩ : Shape).Idx) :
    FloatOps.matmul D prec L R (constant (F := Ideal) ⟨2, ![M, N]⟩ .f32 0x00000000#32) i = matProd L R i :=
  (Ideal.matmul_constant_zero_apply D prec L R i).trans (h.sum_eq L R i)

/-- The host's `dot_general`, read at an index, is the product's entry. -/
theorem PlainDot.dotGeneral_apply {M K N : Nat} {D : DotDims ⟨2, ![M, K]⟩ ⟨2, ![K, N]⟩ ⟨2, ![M, N]⟩} (h : PlainDot D)
    {φ₁ φ₂ : FTy} (prec : Option ContractPrecision) (sched : HostSchedule) (L : FVec Ideal ⟨2, ![M, K]⟩ φ₁)
    (R : FVec Ideal ⟨2, ![K, N]⟩ φ₂) (i : (⟨2, ![M, N]⟩ : Shape).Idx) :
    FloatOps.dotGeneral D prec sched L R i = matProd L R i :=
  (Ideal.dotGeneral_apply D prec sched L R i).trans (h.sum_eq L R i)

end Cert.KernelIdeal.MatVal

end
-- ==== Proof.Val.KDots.lean ====
import proofs.«141398_j71476845740179_1_alg».proof.Proof.Gen.KernelIdeal
import proofs.«141398_j71476845740179_1_alg».proof.Proof.Val.Contract

/-!
# The kernels' three dimension records are plain matrix products

Each of the four dense-layer bodies multiplies a block of 2000 rows by a resident weight matrix; the second and
third layers share one record. For each record: it contracts the left operand's axis 1 with the right operand's
axis 0 and has no batch axis, so the left operand is read at (row, position) and the right one at (position, column).
-/

noncomputable section

namespace Cert.KernelIdeal.MatVal

open Cert.KernelIdeal Idealize.ShloMosaic

/-- The first layer's record, `[2000, 512] · [512, 256]`. -/
theorem plain_k0 : PlainDot dot_S2000x512_S512x256_S2000x256_1_0_0_1_n_n where
  rank := rfl
  size := rfl
  lhs_row i r := by
    unfold DotDims.lhsIdx
    rw [dif_neg (show ¬(0 : Fin S2000x512.rank) ∈ dot_S2000x512_S512x256_S2000x256_1_0_0_1_n_n.lhsBatch by decide),
      dif_pos (show (0 : Fin S2000x512.rank) ∈ dot_S2000x512_S512x256_S2000x256_1_0_0_1_n_n.lhsNonContracting by decide)]
    rfl
  lhs_col i r := dot_S2000x512_S512x256_S2000x256_1_0_0_1_n_n.lhsIdx_val_of_single rfl i r
  rhs_row i r := dot_S2000x512_S512x256_S2000x256_1_0_0_1_n_n.rhsIdx_val_of_single rfl i r
  rhs_col i r := by
    unfold DotDims.rhsIdx
    rw [dif_neg (show ¬(1 : Fin S512x256.rank) ∈ dot_S2000x512_S512x256_S2000x256_1_0_0_1_n_n.rhsBatch by decide),
      dif_pos (show (1 : Fin S512x256.rank) ∈ dot_S2000x512_S512x256_S2000x256_1_0_0_1_n_n.rhsNonContracting by decide)]
    rfl

/-- The second and third layers' record, `[2000, 256] · [256, 256]`. -/
theorem plain_k1 : PlainDot dot_S2000x256_S256x256_S2000x256_1_0_0_1_n_n where
  rank := rfl
  size := rfl
  lhs_row i r := by
    unfold DotDims.lhsIdx
    rw [dif_neg (show ¬(0 : Fin S2000x256.rank) ∈ dot_S2000x256_S256x256_S2000x256_1_0_0_1_n_n.lhsBatch by decide),
      dif_pos (show (0 : Fin S2000x256.rank) ∈ dot_S2000x256_S256x256_S2000x256_1_0_0_1_n_n.lhsNonContracting by decide)]
    rfl
  lhs_col i r := dot_S2000x256_S256x256_S2000x256_1_0_0_1_n_n.lhsIdx_val_of_single rfl i r
  rhs_row i r := dot_S2000x256_S256x256_S2000x256_1_0_0_1_n_n.rhsIdx_val_of_single rfl i r
  rhs_col i r := by
    unfold DotDims.rhsIdx
    rw [dif_neg (show ¬(1 : Fin S256x256.rank) ∈ dot_S2000x256_S256x256_S2000x256_1_0_0_1_n_n.rhsBatch by decide),
      dif_pos (show (1 : Fin S256x256.rank) ∈ dot_S2000x256_S256x256_S2000x256_1_0_0_1_n_n.rhsNonContracting by decide)]
    rfl

/-- The output layer's record, `[2000, 768] · [768, 8]`. -/
theorem plain_k3 : PlainDot dot_S2000x768_S768x8_S2000x8_1_0_0_1_n_n where
  rank := rfl
  size := rfl
  lhs_row i r := by
    unfold DotDims.lhsIdx
    rw [dif_neg (show ¬(0 : Fin S2000x768.rank) ∈ dot_S2000x768_S768x8_S2000x8_1_0_0_1_n_n.lhsBatch by decide),
      dif_pos (show (0 : Fin S2000x768.rank) ∈ dot_S2000x768_S768x8_S2000x8_1_0_0_1_n_n.lhsNonContracting by decide)]
    rfl
  lhs_col i r := dot_S2000x768_S768x8_S2000x8_1_0_0_1_n_n.lhsIdx_val_of_single rfl i r
  rhs_row i r := dot_S2000x768_S768x8_S2000x8_1_0_0_1_n_n.rhsIdx_val_of_single rfl i r
  rhs_col i r := by
    unfold DotDims.rhsIdx
    rw [dif_neg (show ¬(1 : Fin S768x8.rank) ∈ dot_S2000x768_S768x8_S2000x8_1_0_0_1_n_n.rhsBatch by decide),
      dif_pos (show (1 : Fin S768x8.rank) ∈ dot_S2000x768_S768x8_S2000x8_1_0_0_1_n_n.rhsNonContracting by decide)]
    rfl

end Cert.KernelIdeal.MatVal

end
-- ==== Proof.Val.Pay.lean ====
import proofs.«141398_j71476845740179_1_alg».proof.Proof.Gen.KernelIdeal.Skeleton
import proofs.«141398_j71476845740179_1_alg».proof.Proof.Val.KDots
import Idealize.ShloMosaic.Lib.Pipeline.Value
import Idealize.ShloMosaic.Lib.ValueIdx

/-!
# What each dense-layer body computes from its staged blocks

Each body narrows a staged block `x` of 2000 rows and the resident weights `w` to bf16 and multiplies them into a zero
accumulator; the output layer then adds the bias row to every row. On the extended reals the narrowing is the identity,
a shape cast to the same shape is the identity, and the multiplication is the exact sum, so each body's result is the
matrix product of its two blocks (plus the bias row for the output layer).
-/

noncomputable section

namespace Cert.KernelIdeal.MatVal

open Cert.KernelIdeal Cert.KernelIdeal.Gen Idealize.ShloMosaic Idealize.ShloMosaic.ValueIdx

/-- The first layer's body: the product of the feature block and the weights. -/
theorem pay0_eq (x : Vec Ideal S2000x512 .f32) (w : Vec Ideal S512x256 .f32) :
    k0_pay1 (F := Ideal) x w = matProd x w := by
  funext i
  unfold k0_pay1
  exact plain_k0.matmul_zero_apply none _ _ i

/-- The second layer's body: the same after a shape cast of the block to its own shape. -/
theorem pay1_eq (x : Vec Ideal S2000x256 .f32) (w : Vec Ideal S256x256 .f32) :
    k1_pay1 (F := Ideal) x w = matProd x w := by
  funext i
  unfold k1_pay1
  refine (plain_k1.matmul_zero_apply none _ _ i).trans ?_
  rw [shapeCast_self]
  rfl

/-- The third layer's body: the same text as the second's. -/
theorem pay2_eq (x : Vec Ideal S2000x256 .f32) (w : Vec Ideal S256x256 .f32) :
    k2_pay1 (F := Ideal) x w = matProd x w := by
  funext i
  unfold k2_pay1
  refine (plain_k1.matmul_zero_apply none _ _ i).trans ?_
  rw [shapeCast_self]
  rfl

/-- The output layer's body: the product of the block and the weights, plus the bias row `b` (a 1 × 8 matrix)
    broadcast along the 2000 rows: entry `(p, q)` gets `b (0, q)`. -/
theorem pay3_eq (x : Vec Ideal S2000x768 .f32) (w : Vec Ideal S768x8 .f32) (b : Vec Ideal S1x8 .f32) :
    k3_pay1 (F := Ideal) x w b = matProdBias x w b := by
  funext i
  unfold k3_pay1
  rw [matProdBias]
  refine congrArg₂ (· + ·) ((plain_k3.matmul_zero_apply none _ _ i).trans ?_) ?_
  · rw [shapeCast_self]
    rfl
  · rw [shapeCast_self]
    refine broadcastTo_apply b broadcasts_S1x8_S2000x8 i _ fun a => ?_
    match a with
    | ⟨0, _⟩ => rfl
    | ⟨1, _⟩ => rfl

end Cert.KernelIdeal.MatVal

end
-- ==== Proof.Val.RDots.lean ====
import proofs.«141398_j71476845740179_1_alg».proof.Proof.Gen.ReferenceIdeal
import proofs.«141398_j71476845740179_1_alg».proof.Proof.Val.Contract
import Idealize.ShloMosaic.Lib.Pipeline.Value

/-!
# The reference's dense layers are whole matrix products

The reference multiplies the whole 50000-row feature matrix by each weight matrix with one `dot_general`. Its three
dimension records are plain matrix products (axis 1 against axis 0, no batch axis), so on the extended reals each
`dot_general` is `matProd` of its operands.
-/

noncomputable section

namespace Cert.KernelIdeal.MatVal

open Cert.ReferenceIdeal Cert.ReferenceIdeal.Facts₀ Idealize.ShloMosaic

/-- The first layer's record, `[50000, 512] · [512, 256]`. -/
theorem plain_r0 : PlainDot dot_S50000x512_S512x256_S50000x256_1_0_0_1_n_n where
  rank := rfl
  size := rfl
  lhs_row i r := by
    unfold DotDims.lhsIdx
    rw [dif_neg (show ¬(0 : Fin S50000x512.rank) ∈ dot_S50000x512_S512x256_S50000x256_1_0_0_1_n_n.lhsBatch by decide),
      dif_pos (show (0 : Fin S50000x512.rank) ∈ dot_S50000x512_S512x256_S50000x256_1_0_0_1_n_n.lhsNonContracting by decide)]
    rfl
  lhs_col i r := dot_S50000x512_S512x256_S50000x256_1_0_0_1_n_n.lhsIdx_val_of_single rfl i r
  rhs_row i r := dot_S50000x512_S512x256_S50000x256_1_0_0_1_n_n.rhsIdx_val_of_single rfl i r
  rhs_col i r := by
    unfold DotDims.rhsIdx
    rw [dif_neg (show ¬(1 : Fin S512x256.rank) ∈ dot_S50000x512_S512x256_S50000x256_1_0_0_1_n_n.rhsBatch by decide),
      dif_pos (show (1 : Fin S512x256.rank) ∈ dot_S50000x512_S512x256_S50000x256_1_0_0_1_n_n.rhsNonContracting by decide)]
    rfl

/-- The second and third layers' record, `[50000, 256] · [256, 256]`. -/
theorem plain_r1 : PlainDot dot_S50000x256_S256x256_S50000x256_1_0_0_1_n_n where
  rank := rfl
  size := rfl
  lhs_row i r := by
    unfold DotDims.lhsIdx
    rw [dif_neg (show ¬(0 : Fin S50000x256.rank) ∈ dot_S50000x256_S256x256_S50000x256_1_0_0_1_n_n.lhsBatch by decide),
      dif_pos (show (0 : Fin S50000x256.rank) ∈ dot_S50000x256_S256x256_S50000x256_1_0_0_1_n_n.lhsNonContracting by decide)]
    rfl
  lhs_col i r := dot_S50000x256_S256x256_S50000x256_1_0_0_1_n_n.lhsIdx_val_of_single rfl i r
  rhs_row i r := dot_S50000x256_S256x256_S50000x256_1_0_0_1_n_n.rhsIdx_val_of_single rfl i r
  rhs_col i r := by
    unfold DotDims.rhsIdx
    rw [dif_neg (show ¬(1 : Fin S256x256.rank) ∈ dot_S50000x256_S256x256_S50000x256_1_0_0_1_n_n.rhsBatch by decide),
      dif_pos (show (1 : Fin S256x256.rank) ∈ dot_S50000x256_S256x256_S50000x256_1_0_0_1_n_n.rhsNonContracting by decide)]
    rfl

/-- The output layer's record, `[50000, 768] · [768, 8]`. -/
theorem plain_r3 : PlainDot dot_S50000x768_S768x8_S50000x8_1_0_0_1_n_n where
  rank := rfl
  size := rfl
  lhs_row i r := by
    unfold DotDims.lhsIdx
    rw [dif_neg (show ¬(0 : Fin S50000x768.rank) ∈ dot_S50000x768_S768x8_S50000x8_1_0_0_1_n_n.lhsBatch by decide),
      dif_pos (show (0 : Fin S50000x768.rank) ∈ dot_S50000x768_S768x8_S50000x8_1_0_0_1_n_n.lhsNonContracting by decide)]
    rfl
  lhs_col i r := dot_S50000x768_S768x8_S50000x8_1_0_0_1_n_n.lhsIdx_val_of_single rfl i r
  rhs_row i r := dot_S50000x768_S768x8_S50000x8_1_0_0_1_n_n.rhsIdx_val_of_single rfl i r
  rhs_col i r := by
    unfold DotDims.rhsIdx
    rw [dif_neg (show ¬(1 : Fin S768x8.rank) ∈ dot_S50000x768_S768x8_S50000x8_1_0_0_1_n_n.rhsBatch by decide),
      dif_pos (show (1 : Fin S768x8.rank) ∈ dot_S50000x768_S768x8_S50000x8_1_0_0_1_n_n.rhsNonContracting by decide)]
    rfl

/-- The first layer's `dot_general` is the whole product. -/
theorem ref0_eq (X : S50000x512.Idx → EReal) (W : S512x256.Idx → EReal) :
    Host.dotGeneral (F := Ideal) (φ₁ := .f32) (φ₂ := .f32) dot_S50000x512_S512x256_S50000x256_1_0_0_1_n_n none X W = matProd X W :=
  funext fun i => plain_r0.dotGeneral_apply none .single X W i

/-- The second and third layers' `dot_general` is the whole product. -/
theorem ref1_eq (X : S50000x256.Idx → EReal) (W : S256x256.Idx → EReal) :
    Host.dotGeneral (F := Ideal) (φ₁ := .f32) (φ₂ := .f32) dot_S50000x256_S256x256_S50000x256_1_0_0_1_n_n none X W = matProd X W :=
  funext fun i => plain_r1.dotGeneral_apply none .single X W i

/-- The output layer's `dot_general` is the whole product. -/
theorem ref3_eq (X : S50000x768.Idx → EReal) (W : S768x8.Idx → EReal) :
    Host.dotGeneral (F := Ideal) (φ₁ := .f32) (φ₂ := .f32) dot_S50000x768_S768x8_S50000x8_1_0_0_1_n_n none X W = matProd X W :=
  funext fun i => plain_r3.dotGeneral_apply none .single X W i

/-- The output layer with its bias: the reference adds the bias row, broadcast along the 50000 rows, to the product.
    A 1 × 8 operand broadcast in dimensions (0, 1) is read at row 0 on its unit axis and at the result's column. -/
theorem ref3_bias_eq (X : S50000x768.Idx → EReal) (W : S768x8.Idx → EReal) (b : S1x8.Idx → EReal) :
    addf (F := Ideal) (φ := .f32)
        (Host.dotGeneral (F := Ideal) (φ₁ := .f32) (φ₂ := .f32) dot_S50000x768_S768x8_S50000x8_1_0_0_1_n_n none X W)
        (broadcastInDim S50000x8 ![0, 1] bcast_S1x8_S50000x8_0_1 b)
      = matProdBias X W b := by
  funext i
  refine congrArg₂ (· + ·) (congrFun (ref3_eq X W) i) ?_
  exact broadcastInDim_apply _ _ b i _ fun a => by
    match a with
    | ⟨0, _⟩ => rfl
    | ⟨1, _⟩ => rfl

end Cert.KernelIdeal.MatVal

end
-- ==== Proof.Val.Arr0.lean ====
import proofs.«141398_j71476845740179_1_alg».proof.Proof.KI.Reg0
import proofs.«141398_j71476845740179_1_alg».proof.Proof.Gen.KernelIdeal.Points
import proofs.«141398_j71476845740179_1_alg».proof.Proof.Val.Pay
import proofs.«141398_j71476845740179_1_alg».proof.Proof.Val.RDots
import Idealize.ShloMosaic.Lib.Pipeline.Value

/-!
# The first dense layer: from row blocks to the whole product

The first dense layer runs over a grid of 25 points. At point `t` the pipeline stages rows `2000 t … 2000 t + 1999`
of the 50000 × 512 matrix `X` of node features, the whole 512 × 256 weight matrix `W`, and writes the body's result back
to rows `2000 t … 2000 t + 1999` of the 50000 × 256 output.

The body's result is the product of its two staged blocks. Row `p` of the staged feature block is row `2000 t + p` of
`X` and the staged weights are `W`, so what point `t` writes back is rows `2000 t …` of `X · W`: an entry of a matrix
product depends on one row of the left factor only, which is why the rows can be handled 2000 at a time. Row `r` of the
output lies in the block of point `r / 2000`, so the 25 blocks cover the output, and it ends holding `X · W` — which
is what the reference's one `dot_general` over all 50000 rows computes.
-/

noncomputable section

namespace Cert.KernelIdeal.MatVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the buffers' contents when the region is entered: arbitrary
variable (V : (c : Dev nD) → (b : Ref sig .tc) → Buf (Elt Ideal) ((c : Thread nD τ).loc b))

/-- A body loads and stores its whole staging buffers: through the rectangle at offsets zero. -/
theorem offsets_zero0 : (![0, 0] : Fin 2 → Nat) = fun _ => 0 := funext fun a => by fin_cases a <;> rfl

/-- The three windows' block indices at grid point `t`, decided over the 25 points: the feature block and the output
    block are block `t` along the rows, the weights are their one block. -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The staged feature block at point `t`: its row `p` is row `2000 t + p` of the feature matrix. -/
theorem features_block0 (c : Dev nD) (t : Fin cfg0.N) (x : S2000x512.Idx) (k : S50000x512.Idx)
    (hk0 : (k 0).val = t.val * 2000 + (x 0).val) (hk1 : (k 1).val = (x 1).val) :
    (iblk0 V c 0 t : Vec Ideal S2000x512 .f32) x = (V c main_arg0 : S50000x512.Idx → EReal) k := by
  obtain ⟨e0, e1, -⟩ := index_maps0 t
  unfold iblk0
  rw [View.read_apply]
  show V c main_arg0 _ = V c main_arg0 _
  refine congrArg _ ?_
  funext a
  apply Fin.ext
  match a with
  | ⟨0, _⟩ => show win0_0.index t 0 * 2000 + 1 * (x 0).val = (k 0).val; rw [e0, hk0]; omega
  | ⟨1, _⟩ => show win0_0.index t 1 * 512 + 1 * (x 1).val = (k 1).val; rw [e1, hk1]; omega

/-- The staged weights at any point are the whole weight matrix. -/
theorem weights_block0 (c : Dev nD) (t : Fin cfg0.N) (x : S512x256.Idx) :
    (iblk0 V c 1 t : Vec Ideal S512x256 .f32) x = (V c main_arg3 : S512x256.Idx → EReal) x := by
  obtain ⟨-, -, e0, e1, -⟩ := index_maps0 t
  unfold iblk0
  rw [View.read_apply]
  show V c main_arg3 _ = V c main_arg3 _
  refine congrArg _ ?_
  funext a
  apply Fin.ext
  match a with
  | ⟨0, _⟩ => show win0_1.index t 0 * 512 + 1 * (x 0).val = (x 0).val; rw [e0]; omega
  | ⟨1, _⟩ => show win0_1.index t 1 * 256 + 1 * (x 1).val = (x 1).val; rw [e1]; omega

/-- ONE ENTRY OF ONE BLOCK. If row `j 0` of the block `x` is row `i 0` of `X`, the block `w` is `W` on column `j 1 = i 1`,
    then entry `j` of the body's result is entry `i` of `X · W`. -/
theorem block_entry0 (x : Vec Ideal S2000x512 .f32) (w : Vec Ideal S512x256 .f32)
    (X : S50000x512.Idx → EReal) (W : S512x256.Idx → EReal) (j : S2000x256.Idx) (i : S50000x256.Idx)
    (hx : ∀ k : Fin 512, x (ix2 (j 0) k) = X (ix2 (i 0) k))
    (hw : ∀ k : Fin 512, w (ix2 k (j 1)) = W (ix2 k (i 1))) :
    k0_pay1 (F := Ideal) x w j = matProd X W i := by
  rw [pay0_eq, matProd_apply, matProd_apply]
  exact Finset.sum_congr rfl fun k _ => by rw [hx k, hw k]

/-- WHAT POINT `t` WRITES BACK is block `t` (rows `2000 t …`) of the product of the feature matrix and the weights as
    the region finds them. -/
theorem flushed0_eq (c : Dev nD) (t : Fin cfg0.N) :
    (dat0 V c).flushed 2 t = ((cfg0.win 2).blk t).view.read (Elt Ideal)
      (matProd (M := 50000) (K := 512) (N := 256) (V c main_arg0) (V c main_arg3)) := by
  show (cfg0.win 2).cut (grid0.coords t) ((dat0 V c).after 2 t) = _
  rw [after0_2]
  unfold out0_2
  rw [View.canon_unit_zero offsets_zero0]
  simp only [View.ld_unit_zero (S := S2000x512) offsets_zero0, View.ld_unit_zero (S := S512x256) offsets_zero0]
  obtain ⟨-, -, -, -, e0, e1⟩ := index_maps0 t
  funext j
  show k0_pay1 (F := Ideal) (iblk0 V c 0 t : Vec Ideal S2000x512 .f32) (iblk0 V c 1 t : Vec Ideal S512x256 .f32) j
    = matProd (M := 50000) (K := 512) (N := 256) (V c main_arg0) (V c main_arg3) (((cfg0.win 2).blk t).view.emb j)
  refine block_entry0 _ _ _ _ j _ (fun k => ?_) (fun k => ?_)
  · refine features_block0 V c t _ _ ?_ rfl
    show win0_2.index t 0 * 2000 + 1 * (j 0).val = t.val * 2000 + (j 0).val
    rw [e0]; omega
  · refine (weights_block0 V c t _).trans (congrArg _ ?_)
    funext a
    apply Fin.ext
    match a with
    | ⟨0, _⟩ => rfl
    | ⟨1, _⟩ => show (j 1).val = win0_2.index t 1 * 256 + 1 * (j 1).val; rw [e1]; omega

/-- An index of the output is in point `t`'s block iff each coordinate is in the block's range on its axis. -/
theorem mem_block0 (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v36).slice (win0_2.rect t)).set ↔ _
  rw [View.set_slice_whole, Rect.mem_set_unit]
  exact Iff.rfl

/-- THE BLOCKS COVER THE OUTPUT: row `r` is in the block of point `r / 2000`. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, e0, e1⟩ := index_maps0 t
  have ht : t.val = (i 0).val / 2000 := rfl
  refine ⟨t, flush0_2 t, ?_⟩
  rw [mem_block0]
  intro a
  match a with
  | ⟨0, _⟩ =>
    show win0_2.index t 0 * 2000 ≤ (i 0).val ∧ (i 0).val < win0_2.index t 0 * 2000 + 2000
    rw [e0, ht]; omega
  | ⟨1, _⟩ =>
    show win0_2.index t 1 * 256 ≤ (i 1).val ∧ (i 1).val < win0_2.index t 1 * 256 + 256
    rw [e1]; omega

/-- THE OUTPUT ARRAY after the 25 points is the whole product. -/
theorem arr0_matProd (c : Dev nD) :
    (dat0 V c).arrAt 2 cfg0.N = matProd (M := 50000) (K := 512) (N := 256) (V c main_arg0) (V c main_arg3) :=
  (dat0 V c).arrAt_eq_of_cover 2 _ (fun t _ => flushed0_eq V c t) cover0

/-- … which is the reference's `dot_general` of the same two arrays. -/
theorem arr0 (c : Dev nD) :
    (dat0 V c).arrAt 2 cfg0.N = Host.dotGeneral (F := Ideal) (φ₁ := .f32) (φ₂ := .f32)
      Cert.ReferenceIdeal.dot_S50000x512_S512x256_S50000x256_1_0_0_1_n_n none (V c main_arg0) (V c main_arg3) :=
  (arr0_matProd V c).trans (ref0_eq (V c main_arg0) (V c main_arg3)).symm

end Cert.KernelIdeal.MatVal

end
-- ==== Proof.Val.Arr1.lean ====
import proofs.«141398_j71476845740179_1_alg».proof.Proof.KI.Reg1
import proofs.«141398_j71476845740179_1_alg».proof.Proof.Gen.KernelIdeal.Points
import proofs.«141398_j71476845740179_1_alg».proof.Proof.Val.Pay
import proofs.«141398_j71476845740179_1_alg».proof.Proof.Val.RDots
import Idealize.ShloMosaic.Lib.Pipeline.Value

/-!
# The second dense layer: from row blocks to the whole product

The second dense layer runs over a grid of 25 points. At point `t` the pipeline stages rows `2000 t … 2000 t + 1999`
of the 50000 × 256 matrix `X` of node features, the whole 256 × 256 weight matrix `W`, and writes the body's result back
to rows `2000 t … 2000 t + 1999` of the 50000 × 256 output.

The body's result is the product of its two staged blocks. Row `p` of the staged feature block is row `2000 t + p` of
`X` and the staged weights are `W`, so what point `t` writes back is rows `2000 t …` of `X · W`: an entry of a matrix
product depends on one row of the left factor only, which is why the rows can be handled 2000 at a time. Row `r` of the
output lies in the block of point `r / 2000`, so the 25 blocks cover the output, and it ends holding `X · W` — which
is what the reference's one `dot_general` over all 50000 rows computes.
-/

noncomputable section

namespace Cert.KernelIdeal.MatVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the buffers' contents when the region is entered: arbitrary
variable (V : (c : Dev nD) → (b : Ref sig .tc) → Buf (Elt Ideal) ((c : Thread nD τ).loc b))

/-- A body loads and stores its whole staging buffers: through the rectangle at offsets zero. -/
theorem offsets_zero1 : (![0, 0] : Fin 2 → Nat) = fun _ => 0 := funext fun a => by fin_cases a <;> rfl

/-- The three windows' block indices at grid point `t`, decided over the 25 points: the feature block and the output
    block are block `t` along the rows, the weights are their one block. -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The staged feature block at point `t`: its row `p` is row `2000 t + p` of the feature matrix. -/
theorem features_block1 (c : Dev nD) (t : Fin cfg1.N) (x : S2000x256.Idx) (k : S50000x256.Idx)
    (hk0 : (k 0).val = t.val * 2000 + (x 0).val) (hk1 : (k 1).val = (x 1).val) :
    (iblk1 V c 0 t : Vec Ideal S2000x256 .f32) x = (V c main_v58 : S50000x256.Idx → EReal) k := by
  obtain ⟨e0, e1, -⟩ := index_maps1 t
  unfold iblk1
  rw [View.read_apply]
  show V c main_v58 _ = V c main_v58 _
  refine congrArg _ ?_
  funext a
  apply Fin.ext
  match a with
  | ⟨0, _⟩ => show win1_0.index t 0 * 2000 + 1 * (x 0).val = (k 0).val; rw [e0, hk0]; omega
  | ⟨1, _⟩ => show win1_0.index t 1 * 256 + 1 * (x 1).val = (k 1).val; rw [e1, hk1]; omega

/-- The staged weights at any point are the whole weight matrix. -/
theorem weights_block1 (c : Dev nD) (t : Fin cfg1.N) (x : S256x256.Idx) :
    (iblk1 V c 1 t : Vec Ideal S256x256 .f32) x = (V c main_arg5 : S256x256.Idx → EReal) x := by
  obtain ⟨-, -, e0, e1, -⟩ := index_maps1 t
  unfold iblk1
  rw [View.read_apply]
  show V c main_arg5 _ = V c main_arg5 _
  refine congrArg _ ?_
  funext a
  apply Fin.ext
  match a with
  | ⟨0, _⟩ => show win1_1.index t 0 * 256 + 1 * (x 0).val = (x 0).val; rw [e0]; omega
  | ⟨1, _⟩ => show win1_1.index t 1 * 256 + 1 * (x 1).val = (x 1).val; rw [e1]; omega

/-- ONE ENTRY OF ONE BLOCK. If row `j 0` of the block `x` is row `i 0` of `X`, the block `w` is `W` on column `j 1 = i 1`,
    then entry `j` of the body's result is entry `i` of `X · W`. -/
theorem block_entry1 (x : Vec Ideal S2000x256 .f32) (w : Vec Ideal S256x256 .f32)
    (X : S50000x256.Idx → EReal) (W : S256x256.Idx → EReal) (j : S2000x256.Idx) (i : S50000x256.Idx)
    (hx : ∀ k : Fin 256, x (ix2 (j 0) k) = X (ix2 (i 0) k))
    (hw : ∀ k : Fin 256, w (ix2 k (j 1)) = W (ix2 k (i 1))) :
    k1_pay1 (F := Ideal) x w j = matProd X W i := by
  rw [pay1_eq, matProd_apply, matProd_apply]
  exact Finset.sum_congr rfl fun k _ => by rw [hx k, hw k]

/-- WHAT POINT `t` WRITES BACK is block `t` (rows `2000 t …`) of the product of the feature matrix and the weights as
    the region finds them. -/
theorem flushed1_eq (c : Dev nD) (t : Fin cfg1.N) :
    (dat1 V c).flushed 2 t = ((cfg1.win 2).blk t).view.read (Elt Ideal)
      (matProd (M := 50000) (K := 256) (N := 256) (V c main_v58) (V c main_arg5)) := by
  show (cfg1.win 2).cut (grid1.coords t) ((dat1 V c).after 2 t) = _
  rw [after1_2]
  unfold out1_2
  rw [View.canon_unit_zero offsets_zero1]
  simp only [View.ld_unit_zero (S := S2000x256) offsets_zero1, View.ld_unit_zero (S := S256x256) offsets_zero1]
  obtain ⟨-, -, -, -, e0, e1⟩ := index_maps1 t
  funext j
  show k1_pay1 (F := Ideal) (iblk1 V c 0 t : Vec Ideal S2000x256 .f32) (iblk1 V c 1 t : Vec Ideal S256x256 .f32) j
    = matProd (M := 50000) (K := 256) (N := 256) (V c main_v58) (V c main_arg5) (((cfg1.win 2).blk t).view.emb j)
  refine block_entry1 _ _ _ _ j _ (fun k => ?_) (fun k => ?_)
  · refine features_block1 V c t _ _ ?_ rfl
    show win1_2.index t 0 * 2000 + 1 * (j 0).val = t.val * 2000 + (j 0).val
    rw [e0]; omega
  · refine (weights_block1 V c t _).trans (congrArg _ ?_)
    funext a
    apply Fin.ext
    match a with
    | ⟨0, _⟩ => rfl
    | ⟨1, _⟩ => show (j 1).val = win1_2.index t 1 * 256 + 1 * (j 1).val; rw [e1]; omega

/-- An index of the output is in point `t`'s block iff each coordinate is in the block's range on its axis. -/
theorem mem_block1 (t : Fin cfg1.N) (i : S50000x256.Idx) :
    i ∈ ((cfg1.win 2).blk t).view.set ↔ ∀ a : Fin 2, win1_2.index t a * S2000x256.size a ≤ (i a).val
      ∧ (i a).val < win1_2.index t a * S2000x256.size a + S2000x256.size a := by
  show i ∈ ((View.whole main_v84).slice (win1_2.rect t)).set ↔ _
  rw [View.set_slice_whole, Rect.mem_set_unit]
  exact Iff.rfl

/-- THE BLOCKS COVER THE OUTPUT: row `r` is in the block of point `r / 2000`. -/
theorem cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨-, -, -, -, e0, e1⟩ := index_maps1 t
  have ht : t.val = (i 0).val / 2000 := rfl
  refine ⟨t, flush1_2 t, ?_⟩
  rw [mem_block1]
  intro a
  match a with
  | ⟨0, _⟩ =>
    show win1_2.index t 0 * 2000 ≤ (i 0).val ∧ (i 0).val < win1_2.index t 0 * 2000 + 2000
    rw [e0, ht]; omega
  | ⟨1, _⟩ =>
    show win1_2.index t 1 * 256 ≤ (i 1).val ∧ (i 1).val < win1_2.index t 1 * 256 + 256
    rw [e1]; omega

/-- THE OUTPUT ARRAY after the 25 points is the whole product. -/
theorem arr1_matProd (c : Dev nD) :
    (dat1 V c).arrAt 2 cfg1.N = matProd (M := 50000) (K := 256) (N := 256) (V c main_v58) (V c main_arg5) :=
  (dat1 V c).arrAt_eq_of_cover 2 _ (fun t _ => flushed1_eq V c t) cover1

/-- … which is the reference's `dot_general` of the same two arrays. -/
theorem arr1 (c : Dev nD) :
    (dat1 V c).arrAt 2 cfg1.N = Host.dotGeneral (F := Ideal) (φ₁ := .f32) (φ₂ := .f32)
      Cert.ReferenceIdeal.dot_S50000x256_S256x256_S50000x256_1_0_0_1_n_n none (V c main_v58) (V c main_arg5) :=
  (arr1_matProd V c).trans (ref1_eq (V c main_v58) (V c main_arg5)).symm

end Cert.KernelIdeal.MatVal

end
-- ==== Proof.Val.Arr2.lean ====
import proofs.«141398_j71476845740179_1_alg».proof.Proof.KI.Reg2
import proofs.«141398_j71476845740179_1_alg».proof.Proof.Gen.KernelIdeal.Points
import proofs.«141398_j71476845740179_1_alg».proof.Proof.Val.Pay
import proofs.«141398_j71476845740179_1_alg».proof.Proof.Val.RDots
import Idealize.ShloMosaic.Lib.Pipeline.Value

/-!
# The third dense layer: from row blocks to the whole product

The third dense layer runs over a grid of 25 points. At point `t` the pipeline stages rows `2000 t … 2000 t + 1999`
of the 50000 × 256 matrix `X` of node features, the whole 256 × 256 weight matrix `W`, and writes the body's result back
to rows `2000 t … 2000 t + 1999` of the 50000 × 256 output.

The body's result is the product of its two staged blocks. Row `p` of the staged feature block is row `2000 t + p` of
`X` and the staged weights are `W`, so what point `t` writes back is rows `2000 t …` of `X · W`: an entry of a matrix
product depends on one row of the left factor only, which is why the rows can be handled 2000 at a time. Row `r` of the
output lies in the block of point `r / 2000`, so the 25 blocks cover the output, and it ends holding `X · W` — which
is what the reference's one `dot_general` over all 50000 rows computes.
-/

noncomputable section

namespace Cert.KernelIdeal.MatVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the buffers' contents when the region is entered: arbitrary
variable (V : (c : Dev nD) → (b : Ref sig .tc) → Buf (Elt Ideal) ((c : Thread nD τ).loc b))

/-- A body loads and stores its whole staging buffers: through the rectangle at offsets zero. -/
theorem offsets_zero2 : (![0, 0] : Fin 2 → Nat) = fun _ => 0 := funext fun a => by fin_cases a <;> rfl

/-- The three windows' block indices at grid point `t`, decided over the 25 points: the feature block and the output
    block are block `t` along the rows, the weights are their one block. -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The staged feature block at point `t`: its row `p` is row `2000 t + p` of the feature matrix. -/
theorem features_block2 (c : Dev nD) (t : Fin cfg2.N) (x : S2000x256.Idx) (k : S50000x256.Idx)
    (hk0 : (k 0).val = t.val * 2000 + (x 0).val) (hk1 : (k 1).val = (x 1).val) :
    (iblk2 V c 0 t : Vec Ideal S2000x256 .f32) x = (V c main_v106 : S50000x256.Idx → EReal) k := by
  obtain ⟨e0, e1, -⟩ := index_maps2 t
  unfold iblk2
  rw [View.read_apply]
  show V c main_v106 _ = V c main_v106 _
  refine congrArg _ ?_
  funext a
  apply Fin.ext
  match a with
  | ⟨0, _⟩ => show win2_0.index t 0 * 2000 + 1 * (x 0).val = (k 0).val; rw [e0, hk0]; omega
  | ⟨1, _⟩ => show win2_0.index t 1 * 256 + 1 * (x 1).val = (k 1).val; rw [e1, hk1]; omega

/-- The staged weights at any point are the whole weight matrix. -/
theorem weights_block2 (c : Dev nD) (t : Fin cfg2.N) (x : S256x256.Idx) :
    (iblk2 V c 1 t : Vec Ideal S256x256 .f32) x = (V c main_arg7 : S256x256.Idx → EReal) x := by
  obtain ⟨-, -, e0, e1, -⟩ := index_maps2 t
  unfold iblk2
  rw [View.read_apply]
  show V c main_arg7 _ = V c main_arg7 _
  refine congrArg _ ?_
  funext a
  apply Fin.ext
  match a with
  | ⟨0, _⟩ => show win2_1.index t 0 * 256 + 1 * (x 0).val = (x 0).val; rw [e0]; omega
  | ⟨1, _⟩ => show win2_1.index t 1 * 256 + 1 * (x 1).val = (x 1).val; rw [e1]; omega

/-- ONE ENTRY OF ONE BLOCK. If row `j 0` of the block `x` is row `i 0` of `X`, the block `w` is `W` on column `j 1 = i 1`,
    then entry `j` of the body's result is entry `i` of `X · W`. -/
theorem block_entry2 (x : Vec Ideal S2000x256 .f32) (w : Vec Ideal S256x256 .f32)
    (X : S50000x256.Idx → EReal) (W : S256x256.Idx → EReal) (j : S2000x256.Idx) (i : S50000x256.Idx)
    (hx : ∀ k : Fin 256, x (ix2 (j 0) k) = X (ix2 (i 0) k))
    (hw : ∀ k : Fin 256, w (ix2 k (j 1)) = W (ix2 k (i 1))) :
    k2_pay1 (F := Ideal) x w j = matProd X W i := by
  rw [pay2_eq, matProd_apply, matProd_apply]
  exact Finset.sum_congr rfl fun k _ => by rw [hx k, hw k]

/-- WHAT POINT `t` WRITES BACK is block `t` (rows `2000 t …`) of the product of the feature matrix and the weights as
    the region finds them. -/
theorem flushed2_eq (c : Dev nD) (t : Fin cfg2.N) :
    (dat2 V c).flushed 2 t = ((cfg2.win 2).blk t).view.read (Elt Ideal)
      (matProd (M := 50000) (K := 256) (N := 256) (V c main_v106) (V c main_arg7)) := by
  show (cfg2.win 2).cut (grid2.coords t) ((dat2 V c).after 2 t) = _
  rw [after2_2]
  unfold out2_2
  rw [View.canon_unit_zero offsets_zero2]
  simp only [View.ld_unit_zero (S := S2000x256) offsets_zero2, View.ld_unit_zero (S := S256x256) offsets_zero2]
  obtain ⟨-, -, -, -, e0, e1⟩ := index_maps2 t
  funext j
  show k2_pay1 (F := Ideal) (iblk2 V c 0 t : Vec Ideal S2000x256 .f32) (iblk2 V c 1 t : Vec Ideal S256x256 .f32) j
    = matProd (M := 50000) (K := 256) (N := 256) (V c main_v106) (V c main_arg7) (((cfg2.win 2).blk t).view.emb j)
  refine block_entry2 _ _ _ _ j _ (fun k => ?_) (fun k => ?_)
  · refine features_block2 V c t _ _ ?_ rfl
    show win2_2.index t 0 * 2000 + 1 * (j 0).val = t.val * 2000 + (j 0).val
    rw [e0]; omega
  · refine (weights_block2 V c t _).trans (congrArg _ ?_)
    funext a
    apply Fin.ext
    match a with
    | ⟨0, _⟩ => rfl
    | ⟨1, _⟩ => show (j 1).val = win2_2.index t 1 * 256 + 1 * (j 1).val; rw [e1]; omega

/-- An index of the output is in point `t`'s block iff each coordinate is in the block's range on its axis. -/
theorem mem_block2 (t : Fin cfg2.N) (i : S50000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v132).slice (win2_2.rect t)).set ↔ _
  rw [View.set_slice_whole, Rect.mem_set_unit]
  exact Iff.rfl

/-- THE BLOCKS COVER THE OUTPUT: row `r` is in the block of point `r / 2000`. -/
theorem cover2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 25 := N_2
  let t : Fin cfg2.N := ⟨(i 0).val / 2000, by rw [hN]; omega⟩
  obtain ⟨-, -, -, -, e0, e1⟩ := index_maps2 t
  have ht : t.val = (i 0).val / 2000 := rfl
  refine ⟨t, flush2_2 t, ?_⟩
  rw [mem_block2]
  intro a
  match a with
  | ⟨0, _⟩ =>
    show win2_2.index t 0 * 2000 ≤ (i 0).val ∧ (i 0).val < win2_2.index t 0 * 2000 + 2000
    rw [e0, ht]; omega
  | ⟨1, _⟩ =>
    show win2_2.index t 1 * 256 ≤ (i 1).val ∧ (i 1).val < win2_2.index t 1 * 256 + 256
    rw [e1]; omega

/-- THE OUTPUT ARRAY after the 25 points is the whole product. -/
theorem arr2_matProd (c : Dev nD) :
    (dat2 V c).arrAt 2 cfg2.N = matProd (M := 50000) (K := 256) (N := 256) (V c main_v106) (V c main_arg7) :=
  (dat2 V c).arrAt_eq_of_cover 2 _ (fun t _ => flushed2_eq V c t) cover2

/-- … which is the reference's `dot_general` of the same two arrays. -/
theorem arr2 (c : Dev nD) :
    (dat2 V c).arrAt 2 cfg2.N = Host.dotGeneral (F := Ideal) (φ₁ := .f32) (φ₂ := .f32)
      Cert.ReferenceIdeal.dot_S50000x256_S256x256_S50000x256_1_0_0_1_n_n none (V c main_v106) (V c main_arg7) :=
  (arr2_matProd V c).trans (ref1_eq (V c main_v106) (V c main_arg7)).symm

end Cert.KernelIdeal.MatVal

end
-- ==== Proof.Val.Arr3.lean ====
import proofs.«141398_j71476845740179_1_alg».proof.Proof.KI.Reg3
import proofs.«141398_j71476845740179_1_alg».proof.Proof.Gen.KernelIdeal.Points
import proofs.«141398_j71476845740179_1_alg».proof.Proof.Val.Pay
import proofs.«141398_j71476845740179_1_alg».proof.Proof.Val.RDots
import Idealize.ShloMosaic.Lib.Pipeline.Value

/-!
# The output layer: from row blocks to the whole product plus the bias

The output layer runs over a grid of 25 points. At point `t` the pipeline stages rows `2000 t … 2000 t + 1999` of the
50000 × 768 matrix `X` (the three hidden layers side by side), the whole 768 × 8 weight matrix `W`, the 1 × 8 bias row
`b`, and writes the body's result back to rows `2000 t … 2000 t + 1999` of the 50000 × 8 output.

The body's result is the product of its two staged blocks with the bias row added to every row. Row `p` of the staged
block is row `2000 t + p` of `X`, the staged weights are `W` and the staged bias is `b`, so what point `t` writes back is
rows `2000 t …` of `X · W + b`: an entry depends on one row of `X` and one entry of `b` only. Row `r` of the output lies
in the block of point `r / 2000`, so the 25 blocks cover the output and it ends holding `X · W + b` — the reference's
`dot_general` over all 50000 rows plus its broadcast bias.
-/

noncomputable section

namespace Cert.KernelIdeal.MatVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the buffers' contents when the region is entered: arbitrary
variable (V : (c : Dev nD) → (b : Ref sig .tc) → Buf (Elt Ideal) ((c : Thread nD τ).loc b))

/-- A body loads and stores its whole staging buffers: through the rectangle at offsets zero. -/
theorem offsets_zero3 : (![0, 0] : Fin 2 → Nat) = fun _ => 0 := funext fun a => by fin_cases a <;> rfl

/-- The four windows' block indices at grid point `t`, decided over the 25 points: the feature block and the output
    block are block `t` along the rows; the weights and the bias are their one block. -/
theorem index_maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The staged feature block at point `t`: its row `p` is row `2000 t + p` of the feature matrix. -/
theorem features_block3 (c : Dev nD) (t : Fin cfg3.N) (x : S2000x768.Idx) (k : S50000x768.Idx)
    (hk0 : (k 0).val = t.val * 2000 + (x 0).val) (hk1 : (k 1).val = (x 1).val) :
    (iblk3 V c 0 t : Vec Ideal S2000x768 .f32) x = (V c main_v154 : S50000x768.Idx → EReal) k := by
  obtain ⟨e0, e1, -⟩ := index_maps3 t
  unfold iblk3
  rw [View.read_apply]
  show V c main_v154 _ = V c main_v154 _
  refine congrArg _ ?_
  funext a
  apply Fin.ext
  match a with
  | ⟨0, _⟩ => show win3_0.index t 0 * 2000 + 1 * (x 0).val = (k 0).val; rw [e0, hk0]; omega
  | ⟨1, _⟩ => show win3_0.index t 1 * 768 + 1 * (x 1).val = (k 1).val; rw [e1, hk1]; omega

/-- The staged weights at any point are the whole weight matrix. -/
theorem weights_block3 (c : Dev nD) (t : Fin cfg3.N) (x : S768x8.Idx) :
    (iblk3 V c 1 t : Vec Ideal S768x8 .f32) x = (V c main_arg9 : S768x8.Idx → EReal) x := by
  obtain ⟨-, -, e0, e1, -⟩ := index_maps3 t
  unfold iblk3
  rw [View.read_apply]
  show V c main_arg9 _ = V c main_arg9 _
  refine congrArg _ ?_
  funext a
  apply Fin.ext
  match a with
  | ⟨0, _⟩ => show win3_1.index t 0 * 768 + 1 * (x 0).val = (x 0).val; rw [e0]; omega
  | ⟨1, _⟩ => show win3_1.index t 1 * 8 + 1 * (x 1).val = (x 1).val; rw [e1]; omega

/-- The staged bias at any point is the whole bias row. -/
theorem bias_block3 (c : Dev nD) (t : Fin cfg3.N) (x : S1x8.Idx) :
    (iblk3 V c 2 t : Vec Ideal S1x8 .f32) x = (V c main_v155 : S1x8.Idx → EReal) x := by
  obtain ⟨-, -, -, -, e0, e1, -⟩ := index_maps3 t
  unfold iblk3
  rw [View.read_apply]
  show V c main_v155 _ = V c main_v155 _
  refine congrArg _ ?_
  funext a
  apply Fin.ext
  match a with
  | ⟨0, _⟩ => show win3_2.index t 0 * 1 + 1 * (x 0).val = (x 0).val; rw [e0]; omega
  | ⟨1, _⟩ => show win3_2.index t 1 * 8 + 1 * (x 1).val = (x 1).val; rw [e1]; omega

/-- ONE ENTRY OF ONE BLOCK. If row `j 0` of the block `x` is row `i 0` of `X`, the block `w` is `W` on column `j 1 = i 1`
    and the staged bias is `B` there, then entry `j` of the body's result is entry `i` of `X · W + B`. -/
theorem block_entry3 (x : Vec Ideal S2000x768 .f32) (w : Vec Ideal S768x8 .f32) (b : Vec Ideal S1x8 .f32)
    (X : S50000x768.Idx → EReal) (W : S768x8.Idx → EReal) (B : S1x8.Idx → EReal) (j : S2000x8.Idx) (i : S50000x8.Idx)
    (hx : ∀ k : Fin 768, x (ix2 (j 0) k) = X (ix2 (i 0) k))
    (hw : ∀ k : Fin 768, w (ix2 k (j 1)) = W (ix2 k (i 1)))
    (hb : b (ix2 (0 : Fin 1) (j 1)) = B (ix2 (0 : Fin 1) (i 1))) :
    k3_pay1 (F := Ideal) x w b j = matProdBias X W B i := by
  rw [pay3_eq, matProdBias_apply, matProdBias_apply, hb]
  exact congrArg (· + B (ix2 (0 : Fin 1) (i 1))) (Finset.sum_congr rfl fun k _ => by rw [hx k, hw k])

/-- WHAT POINT `t` WRITES BACK is block `t` (rows `2000 t …`) of the product of the feature matrix and the weights plus
    the bias row, as the region finds them. -/
theorem flushed3_eq (c : Dev nD) (t : Fin cfg3.N) :
    (dat3 V c).flushed 3 t = ((cfg3.win 3).blk t).view.read (Elt Ideal)
      (matProdBias (M := 50000) (K := 768) (N := 8) (V c main_v154) (V c main_arg9) (V c main_v155)) := by
  show (cfg3.win 3).cut (grid3.coords t) ((dat3 V c).after 3 t) = _
  rw [after3_3]
  unfold out3_3
  rw [View.canon_unit_zero offsets_zero3]
  simp only [View.ld_unit_zero (S := S2000x768) offsets_zero3, View.ld_unit_zero (S := S768x8) offsets_zero3,
    View.ld_unit_zero (S := S1x8) offsets_zero3]
  obtain ⟨-, -, -, -, -, -, e0, e1⟩ := index_maps3 t
  funext j
  show k3_pay1 (F := Ideal) (iblk3 V c 0 t : Vec Ideal S2000x768 .f32) (iblk3 V c 1 t : Vec Ideal S768x8 .f32)
      (iblk3 V c 2 t : Vec Ideal S1x8 .f32) j
    = matProdBias (M := 50000) (K := 768) (N := 8) (V c main_v154) (V c main_arg9) (V c main_v155)
      (((cfg3.win 3).blk t).view.emb j)
  have hcol : ((((cfg3.win 3).blk t).view.emb j) 1).val = (j 1).val := by
    show win3_3.index t 1 * 8 + 1 * (j 1).val = (j 1).val
    rw [e1]; omega
  refine block_entry3 _ _ _ _ _ _ j _ (fun k => ?_) (fun k => ?_) ?_
  · refine features_block3 V c t _ _ ?_ rfl
    show win3_3.index t 0 * 2000 + 1 * (j 0).val = t.val * 2000 + (j 0).val
    rw [e0]; omega
  · refine (weights_block3 V c t _).trans (congrArg _ ?_)
    funext a
    apply Fin.ext
    match a with
    | ⟨0, _⟩ => rfl
    | ⟨1, _⟩ => exact hcol.symm
  · refine (bias_block3 V c t _).trans (congrArg _ ?_)
    funext a
    apply Fin.ext
    match a with
    | ⟨0, _⟩ => rfl
    | ⟨1, _⟩ => exact hcol.symm

/-- An index of the output is in point `t`'s block iff each coordinate is in the block's range on its axis. -/
theorem mem_block3 (t : Fin cfg3.N) (i : S50000x8.Idx) :
    i ∈ ((cfg3.win 3).blk t).view.set ↔ ∀ a : Fin 2, win3_3.index t a * S2000x8.size a ≤ (i a).val
      ∧ (i a).val < win3_3.index t a * S2000x8.size a + S2000x8.size a := by
  show i ∈ ((View.whole main_v156).slice (win3_3.rect t)).set ↔ _
  rw [View.set_slice_whole, Rect.mem_set_unit]
  exact Iff.rfl

/-- THE BLOCKS COVER THE OUTPUT: row `r` is in the block of point `r / 2000`. -/
theorem cover3 (i : S50000x8.Idx) :
    ∃ t : Fin cfg3.N, (cfg3.win 3).flush t = true ∧ i ∈ ((cfg3.win 3).blk t).view.set := by
  have hi0 : (i 0).val < 50000 := (i 0).isLt
  have hi1 : (i 1).val < 8 := (i 1).isLt
  have hN : cfg3.N = 25 := N_3
  let t : Fin cfg3.N := ⟨(i 0).val / 2000, by rw [hN]; omega⟩
  obtain ⟨-, -, -, -, -, -, e0, e1⟩ := index_maps3 t
  have ht : t.val = (i 0).val / 2000 := rfl
  refine ⟨t, flush3_3 t, ?_⟩
  rw [mem_block3]
  intro a
  match a with
  | ⟨0, _⟩ =>
    show win3_3.index t 0 * 2000 ≤ (i 0).val ∧ (i 0).val < win3_3.index t 0 * 2000 + 2000
    rw [e0, ht]; omega
  | ⟨1, _⟩ =>
    show win3_3.index t 1 * 8 ≤ (i 1).val ∧ (i 1).val < win3_3.index t 1 * 8 + 8
    rw [e1]; omega

/-- THE OUTPUT ARRAY after the 25 points is the whole product plus the bias row. -/
theorem arr3_matProdBias (c : Dev nD) :
    (dat3 V c).arrAt 3 cfg3.N
      = matProdBias (M := 50000) (K := 768) (N := 8) (V c main_v154) (V c main_arg9) (V c main_v155) :=
  (dat3 V c).arrAt_eq_of_cover 3 _ (fun t _ => flushed3_eq V c t) cover3

/-- … which is the reference's `dot_general` of the same two arrays plus its broadcast of the same bias row. -/
theorem arr3 (c : Dev nD) :
    (dat3 V c).arrAt 3 cfg3.N = addf (F := Ideal) (φ := .f32)
      (Host.dotGeneral (F := Ideal) (φ₁ := .f32) (φ₂ := .f32)
        Cert.ReferenceIdeal.dot_S50000x768_S768x8_S50000x8_1_0_0_1_n_n none (V c main_v154) (V c main_arg9))
      (broadcastInDim Cert.ReferenceIdeal.S50000x8 ![0, 1] Cert.ReferenceIdeal.Facts₀.bcast_S1x8_S50000x8_0_1 (V c main_v155)) :=
  (arr3_matProdBias V c).trans (ref3_bias_eq (V c main_v154) (V c main_arg9) (V c main_v155)).symm

end Cert.KernelIdeal.MatVal

end
-- ==== Proof.Host.Carry.lean ====
/-
  The host side of @main as a chain of states.

  @main alternates stretches of host operations with the four kernel launches. Between two consecutive items every
  unscoped buffer of a core has definite contents; the generated frame module names these states one by one. Here they
  are indexed by the number of items already run, together with the list of buffers each item may write, and the one
  fact used over and over is proved once: a buffer that none of the items a+1, …, a+n writes holds after item a+n what
  it held after item a. Every later statement about "the value an earlier stretch computed, read by a later stretch"
  is an instance of it, its side condition decided by inspecting the lists.
-/
import proofs.«141398_j71476845740179_1_alg».proof.Proof.Gen.KernelIdeal.Regions
import Idealize.ShloMosaic.PureOps.Ideal

set_option maxRecDepth 4096

noncomputable section

namespace Cert.HostBridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (outs : Outs (F := Ideal)) (c : Dev nD)

/-- The contents of core `c`'s unscoped buffers after the first `k` items of @main (`k = 0`: at launch;
    past the last item: the final contents). -/
def stage (k : ℕ) : Valuation τ sig (Elt Ideal) :=
  match k with
  | 0 => V0 m c | 1 => V1 m c | 2 => V2 m c | 3 => V3 m c | 4 => V4 m outs c
  | 5 => V5 m outs c | 6 => V6 m outs c | 7 => V7 m outs c | 8 => V8 m outs c | 9 => V9 m outs c
  | 10 => V10 m outs c | 11 => V11 m outs c | 12 => V12 m outs c | 13 => V13 m outs c | 14 => V14 m outs c
  | 15 => V15 m outs c | 16 => V16 m outs c | 17 => V17 m outs c | 18 => V18 m outs c
  | _ => V19 m outs c

/-- The buffers item `k` (counted from 1) may write: a host stretch writes its operations' results, a kernel
    launch its one output array. -/
def written (k : ℕ) : List (Ref sig .tc) :=
  match k with
  | 1 => hostOps0_W | 2 => hostOps0_1_W | 3 => hostOps0_2_W | 4 => [main_v36]
  | 5 => hostOps1_W | 6 => hostOps1_1_W | 7 => hostOps1_2_W | 8 => hostOps1_3_W | 9 => hostOps1_4_W
  | 10 => [main_v84]
  | 11 => hostOps2_W | 12 => hostOps2_1_W | 13 => hostOps2_2_W | 14 => hostOps2_3_W | 15 => hostOps2_4_W
  | 16 => [main_v132] | 17 => hostOps3_W | 18 => [main_v156] | 19 => hostOps4_W
  | _ => []

/-- One item leaves alone every buffer it does not write. -/
theorem stage_succ (k : ℕ) (r : Ref sig .tc) (h : r ∉ written (k + 1)) :
    stage m outs c (k + 1) (Proc.devRef .tc r) = stage m outs c k (Proc.devRef .tc r) :=
  match k, h with
  | 0, h => V1_of m c r h
  | 1, h => V2_of m c r h
  | 2, h => V3_of m c r h
  | 3, h => V4_of m outs c r h
  | 4, h => V5_of m outs c r h
  | 5, h => V6_of m outs c r h
  | 6, h => V7_of m outs c r h
  | 7, h => V8_of m outs c r h
  | 8, h => V9_of m outs c r h
  | 9, h => V10_of m outs c r h
  | 10, h => V11_of m outs c r h
  | 11, h => V12_of m outs c r h
  | 12, h => V13_of m outs c r h
  | 13, h => V14_of m outs c r h
  | 14, h => V15_of m outs c r h
  | 15, h => V16_of m outs c r h
  | 16, h => V17_of m outs c r h
  | 17, h => V18_of m outs c r h
  | 18, h => V19_of m outs c r h
  | _ + 19, _ => rfl

/-- A buffer none of the items `a+1, …, a+n` writes holds after item `a+n` what it held after item `a`. -/
theorem stage_carry (a n : ℕ) (r : Ref sig .tc) (h : ∀ k ∈ List.range n, r ∉ written (a + k + 1)) :
    stage m outs c (a + n) (Proc.devRef .tc r) = stage m outs c a (Proc.devRef .tc r) := by
  induction n with
  | zero => rfl
  | succ n ih =>
    have hn : r ∉ written (a + n + 1) := h n (List.mem_range.mpr (Nat.lt_succ_self n))
    have hlt : ∀ k ∈ List.range n, r ∉ written (a + k + 1) := fun k hk =>
      h k (List.mem_range.mpr (Nat.lt_succ_of_lt (List.mem_range.mp hk)))
    exact (stage_succ m outs c (a + n) r hn).trans (ih hlt)

/-- At launch a buffer holds the initial memory. -/
theorem stage_zero (r : Ref sig .tc) :
    stage m outs c 0 (Proc.devRef .tc r) = m ((c.tc : Thread nD τ).loc r) := rfl

end Cert.HostBridge

end
-- ==== Proof.Host.Prefix.lean ====
/-
  The graph preprocessing both programs share, before the first dense layer.

  Both programs start from the edge list (two rows of node numbers), the edge logits and the node features, and compute
  with the same jnp operations:
    src, dst      the two rows of the edge list, as vectors of 400000 node numbers;
    w             the edge weights, sigmoid of the logits: 1 / (1 + exp (−logit));
    deg           the weighted in-degree plus the self loop: the weights scatter-added at dst, plus 1;
    dinv          deg^(−1/2) where deg > 0, else 0;
    norm          the symmetric normalisation of each edge: dinv[src] · w · dinv[dst].
  The kernel program's @main runs these operations as its first three host stretches; the reference's stages
  `val_main_v0 … val_main_v35` are the same operations, one definition each. This module proves that the buffers the
  later layers read (src, dst, w, the all-ones weights of the last layer, dinv, norm) hold the reference's stages of the
  launch arguments. Each proof runs the stretch on the state before it — first recording what that state holds at the
  buffers the stretch reads, then forgetting everything else about it —, which leaves the stretch's operations applied to
  those contents; the reference's stage is, by definition, the same composition.
-/
import proofs.«141398_j71476845740179_1_alg».proof.Proof.Host.Carry
import proofs.«141398_j71476845740179_1_alg».proof.Proof.RefRead

set_option maxRecDepth 4096
set_option maxHeartbeats 400000

noncomputable section

namespace Cert.HostBridge

open Idealize.ShloMosaic Idealize.ShloMosaic.TcCoe Idealize.SL.Sem Idealize.ShloMosaic.StableHlo
open Cert.KernelIdeal Cert.KernelIdeal.Gen Cert.ReferenceIdeal.ReadP

variable (m : (ℓ : Loc nD τ sig) → Buf (Elt Ideal) ℓ) (c : Dev nD)

/-! ## The launch arguments, at the reference's types -/

/-- The node features `x`. -/
abbrev X0 : (⟨ReferenceIdeal.S50000x512, .f32⟩ : BufTy).Contents (Elt Ideal) := m ((c.tc : Thread nD τ).loc main_arg0)
/-- The edge list. -/
abbrev X1 : (⟨ReferenceIdeal.S2x400000, .i32⟩ : BufTy).Contents (Elt Ideal) := m ((c.tc : Thread nD τ).loc main_arg1)
/-- The edge logits. -/
abbrev X2 : (⟨ReferenceIdeal.S400000, .f32⟩ : BufTy).Contents (Elt Ideal) := m ((c.tc : Thread nD τ).loc main_arg2)
/-- The first layer's weights and bias. -/
abbrev X3 : (⟨ReferenceIdeal.S512x256, .f32⟩ : BufTy).Contents (Elt Ideal) := m ((c.tc : Thread nD τ).loc main_arg3)
abbrev X4 : (⟨ReferenceIdeal.S256, .f32⟩ : BufTy).Contents (Elt Ideal) := m ((c.tc : Thread nD τ).loc main_arg4)
/-- The second layer's weights and bias. -/
abbrev X5 : (⟨ReferenceIdeal.S256x256, .f32⟩ : BufTy).Contents (Elt Ideal) := m ((c.tc : Thread nD τ).loc main_arg5)
abbrev X6 : (⟨ReferenceIdeal.S256, .f32⟩ : BufTy).Contents (Elt Ideal) := m ((c.tc : Thread nD τ).loc main_arg6)
/-- The third layer's weights and bias. -/
abbrev X7 : (⟨ReferenceIdeal.S256x256, .f32⟩ : BufTy).Contents (Elt Ideal) := m ((c.tc : Thread nD τ).loc main_arg7)
abbrev X8 : (⟨ReferenceIdeal.S256, .f32⟩ : BufTy).Contents (Elt Ideal) := m ((c.tc : Thread nD τ).loc main_arg8)
/-- The output layer's weights and bias. -/
abbrev X9 : (⟨ReferenceIdeal.S768x8, .f32⟩ : BufTy).Contents (Elt Ideal) := m ((c.tc : Thread nD τ).loc main_arg9)
abbrev X10 : (⟨ReferenceIdeal.S8, .f32⟩ : BufTy).Contents (Elt Ideal) := m ((c.tc : Thread nD τ).loc main_arg10)

/-! ## The first stretch: the edge list's rows, the edge weights, the degree -/

/-- `src`: row 0 of the edge list. -/
theorem V1_v1 : V1 m c (Proc.devRef .tc main_v1) = val_main_v1 (F := Ideal) (X1 m c) := by
  dsimp only [V1, hostOps0]
  after_results_simp
  rfl

/-- `dst`: row 1 of the edge list. -/
theorem V1_v3 : V1 m c (Proc.devRef .tc main_v3) = val_main_v3 (F := Ideal) (X1 m c) := by
  dsimp only [V1, hostOps0]
  after_results_simp
  rfl

/-- The edge weights `w = 1 / (1 + exp (−logit))`. -/
theorem V1_v9 : V1 m c (Proc.devRef .tc main_v9) = val_main_v9 (F := Ideal) (X2 m c) := by
  dsimp only [V1, hostOps0]
  after_results_simp
  rfl

/-- The all-ones edge weights (the last layer aggregates unweighted). -/
theorem V1_v10 : V1 m c (Proc.devRef .tc main_v10) = val_main_v10 (F := Ideal) := by
  dsimp only [V1, hostOps0]
  after_results_simp
  rfl

/-- `deg > 0`, where `deg` is the weights scatter-added at `dst`, plus 1. -/
theorem V1_v17 : V1 m c (Proc.devRef .tc main_v17) = val_main_v17 (F := Ideal) (X1 m c) (X2 m c) := by
  dsimp only [V1, hostOps0]
  after_results_simp
  rfl

/-- `deg^(−1/2)`. -/
theorem V1_v18 : V1 m c (Proc.devRef .tc main_v18) = val_main_v18 (F := Ideal) (X1 m c) (X2 m c) := by
  dsimp only [V1, hostOps0]
  after_results_simp
  rfl

/-- The scalar 0 that stands where the degree vanishes. -/
theorem V1_cst5 : V1 m c (Proc.devRef .tc main_cst_5) = val_main_cst_5 (F := Ideal) := by
  dsimp only [V1, hostOps0]
  after_results_simp
  rfl

/-! ## The second stretch: `dinv = where (deg > 0, deg^(−1/2), 0)` -/

/-- The stretch as a function of what it reads: from a condition `p`, a value `r` and a scalar `z` it leaves
    `where (p, r, z broadcast)`. -/
theorem where_stage0 (W : Valuation τ sig (Elt Ideal))
    (p : (⟨ReferenceIdeal.S50000, .i1⟩ : BufTy).Contents (Elt Ideal))
    (r : (⟨ReferenceIdeal.S50000, .f32⟩ : BufTy).Contents (Elt Ideal))
    (z : (⟨ReferenceIdeal.S_, .f32⟩ : BufTy).Contents (Elt Ideal))
    (e17 : W (Proc.devRef .tc main_v17) = p) (e18 : W (Proc.devRef .tc main_v18) = r)
    (e5 : W (Proc.devRef .tc main_cst_5) = z) :
    StableHlo.after hostOps0_1 W (Proc.devRef .tc main_v19)
      = select p r (broadcastInDim ReferenceIdeal.S50000 ![] ReferenceIdeal.Facts₀.bcast_S_S50000 (id z)) := by
  dsimp only [hostOps0_1]
  after_results_simp
  rw [e17, e18, e5]
  rfl

theorem V2_v19 : V2 m c (Proc.devRef .tc main_v19) = val_main_v19 (F := Ideal) (X1 m c) (X2 m c) :=
  (where_stage0 (V1 m c) _ _ _ (V1_v17 m c) (V1_v18 m c) (V1_cst5 m c)).trans rfl

/-- The second stretch writes none of `src`, `dst`, `w`. -/
theorem V2_v1 : V2 m c (Proc.devRef .tc main_v1) = val_main_v1 (F := Ideal) (X1 m c) :=
  (V2_of m c main_v1 (by decide)).trans (V1_v1 m c)
theorem V2_v3 : V2 m c (Proc.devRef .tc main_v3) = val_main_v3 (F := Ideal) (X1 m c) :=
  (V2_of m c main_v3 (by decide)).trans (V1_v3 m c)
theorem V2_v9 : V2 m c (Proc.devRef .tc main_v9) = val_main_v9 (F := Ideal) (X2 m c) :=
  (V2_of m c main_v9 (by decide)).trans (V1_v9 m c)

/-! ## The third stretch: `norm = dinv[src] · w · dinv[dst]` -/

theorem V3_v35 : V3 m c (Proc.devRef .tc main_v35) = val_main_v35 (F := Ideal) (X1 m c) (X2 m c) := by
  have e1 := V2_v1 m c
  have e3 := V2_v3 m c
  have e9 := V2_v9 m c
  have e19 := V2_v19 m c
  show StableHlo.after hostOps0_2 (V2 m c) (Proc.devRef .tc main_v35) = _
  generalize V2 m c = W at e1 e3 e9 e19 ⊢
  dsimp only [hostOps0_2]
  after_results_simp
  rw [e1, e3, e9, e19]
  rfl

end Cert.HostBridge

end
-- ==== Proof.Host.Layer1.lean ====
/-
  The first graph-convolution layer around its dense product.

  With `h = x · W₁` the layer computes
    agg   = scatter-add at dst of  h[src] · norm      (each edge carries its source's row, scaled),
    out₁  = relu (agg + h · dinv² + b₁)                (the self loop enters with weight dinv²),
  and then, for the next layer, the normalisation again from the same edge weights (the jnp code recomputes degree,
  dinv and norm in every layer). In the kernel program `h` is what the first kernel launch leaves in its output array;
  everything else is host operations, the same ones the reference runs. So GIVEN that the launch leaves the product
  (`Dense1`), the buffers read later hold the reference's stages.
-/
import proofs.«141398_j71476845740179_1_alg».proof.Proof.Host.Prefix

set_option maxRecDepth 4096
set_option maxHeartbeats 400000

noncomputable section

namespace Cert.HostBridge

open Idealize.ShloMosaic Idealize.ShloMosaic.TcCoe Idealize.SL.Sem Idealize.ShloMosaic.StableHlo
open Cert.KernelIdeal Cert.KernelIdeal.Gen Cert.ReferenceIdeal.ReadP

variable (m : (ℓ : Loc nD τ sig) → Buf (Elt Ideal) ℓ) (outs : Outs (F := Ideal)) (c : Dev nD)

/-- What the first dense layer's launch is to leave in its output array: the product of the node features (as the state
    before the launch holds them) with the first weight matrix. -/
def Dense1 : Prop :=
  outs 4 main_v36 c = Host.dotGeneral (F := Ideal) (φ₁ := .f32) (φ₂ := .f32) ReferenceIdeal.dot_S50000x512_S512x256_S50000x256_1_0_0_1_n_n none
    (V3 m c main_arg0) (V3 m c main_arg3)

/-! ## The launch: `h = x · W₁` -/

/-- No host operation writes an argument: before the launch they are as launched. -/
theorem V3_arg0 : V3 m c (Proc.devRef .tc main_arg0) = X0 m c :=
  (V3_of m c main_arg0 (by decide)).trans ((V2_of m c main_arg0 (by decide)).trans (V1_of m c main_arg0 (by decide)))
theorem V3_arg3 : V3 m c (Proc.devRef .tc main_arg3) = X3 m c :=
  (V3_of m c main_arg3 (by decide)).trans ((V2_of m c main_arg3 (by decide)).trans (V1_of m c main_arg3 (by decide)))

theorem V4_v36 (h0 : Dense1 m outs c) :
    V4 m outs c (Proc.devRef .tc main_v36) = val_main_v36 (F := Ideal) (X0 m c) (X3 m c) := by
  show Function.update (V3 m c) (Proc.devRef .tc main_v36) (outs 4 main_v36 c) (Proc.devRef .tc main_v36) = _
  rw [Function.update_self]
  refine h0.trans ?_
  rw [V3_arg0 m c, V3_arg3 m c]
  rfl

/-- The launch writes its output array only. -/
theorem V4_v1 : V4 m outs c (Proc.devRef .tc main_v1) = val_main_v1 (F := Ideal) (X1 m c) :=
  (stage_carry m outs c 1 3 main_v1 (by decide)).trans (V1_v1 m c)
theorem V4_v3 : V4 m outs c (Proc.devRef .tc main_v3) = val_main_v3 (F := Ideal) (X1 m c) :=
  (stage_carry m outs c 1 3 main_v3 (by decide)).trans (V1_v3 m c)
theorem V4_v19 : V4 m outs c (Proc.devRef .tc main_v19) = val_main_v19 (F := Ideal) (X1 m c) (X2 m c) :=
  (stage_carry m outs c 2 2 main_v19 (by decide)).trans (V2_v19 m c)
theorem V4_v35 : V4 m outs c (Proc.devRef .tc main_v35) = val_main_v35 (F := Ideal) (X1 m c) (X2 m c) :=
  (stage_carry m outs c 3 1 main_v35 (by decide)).trans (V3_v35 m c)
theorem V4_arg4 : V4 m outs c (Proc.devRef .tc main_arg4) = X4 m c := stage_carry m outs c 0 4 main_arg4 (by decide)

/-! ## Aggregation, self loop and bias: `agg + h · dinv² + b₁` -/

theorem V5_v57 (h0 : Dense1 m outs c) :
    V5 m outs c (Proc.devRef .tc main_v57) = val_main_v57 (F := Ideal) (X0 m c) (X1 m c) (X2 m c) (X3 m c) (X4 m c) := by
  have e1 := V4_v1 m outs c
  have e3 := V4_v3 m outs c
  have e19 := V4_v19 m outs c
  have e35 := V4_v35 m outs c
  have e36 := V4_v36 m outs c h0
  have e4 := V4_arg4 m outs c
  show StableHlo.after hostOps1 (V4 m outs c) (Proc.devRef .tc main_v57) = _
  generalize V4 m outs c = W at e1 e3 e19 e35 e36 e4 ⊢
  dsimp only [hostOps1]
  after_results_simp
  rw [e1, e3, e19, e35, e36, e4]
  rfl

/-! ## The activation: `out₁ = max (·, 0)` -/

/-- The stretch as a function of what it reads: from an array `y` it leaves `max (y, 0)`. -/
theorem relu_stage1 (W : Valuation τ sig (Elt Ideal))
    (y : (⟨ReferenceIdeal.S50000x256, .f32⟩ : BufTy).Contents (Elt Ideal))
    (e57 : W (Proc.devRef .tc main_v57) = y) :
    StableHlo.after hostOps1_1 W (Proc.devRef .tc main_v58)
      = maximumf y (broadcastInDim ReferenceIdeal.S50000x256 ![] ReferenceIdeal.Facts₀.bcast_S_S50000x256
          (constant (F := Ideal) ReferenceIdeal.S_ .f32 0x00000000#32)) := by
  dsimp only [hostOps1_1]
  after_results_simp
  rw [e57]
  rfl

theorem V6_v58 (h0 : Dense1 m outs c) :
    V6 m outs c (Proc.devRef .tc main_v58) = val_main_v58 (F := Ideal) (X0 m c) (X1 m c) (X2 m c) (X3 m c) (X4 m c) :=
  (relu_stage1 (V5 m outs c) _ (V5_v57 m outs c h0)).trans rfl

/-! ## The second layer's normalisation: degree, `dinv`, `norm` again -/

theorem V6_v3 : V6 m outs c (Proc.devRef .tc main_v3) = val_main_v3 (F := Ideal) (X1 m c) :=
  (stage_carry m outs c 1 5 main_v3 (by decide)).trans (V1_v3 m c)
theorem V6_v9 : V6 m outs c (Proc.devRef .tc main_v9) = val_main_v9 (F := Ideal) (X2 m c) :=
  (stage_carry m outs c 1 5 main_v9 (by decide)).trans (V1_v9 m c)

/-- `deg > 0`. -/
theorem V7_v65 : V7 m outs c (Proc.devRef .tc main_v65) = val_main_v65 (F := Ideal) (X1 m c) (X2 m c) := by
  have e3 := V6_v3 m outs c
  have e9 := V6_v9 m outs c
  show StableHlo.after hostOps1_2 (V6 m outs c) (Proc.devRef .tc main_v65) = _
  generalize V6 m outs c = W at e3 e9 ⊢
  dsimp only [hostOps1_2]
  after_results_simp
  rw [e3, e9]
  rfl

/-- `deg^(−1/2)`. -/
theorem V7_v66 : V7 m outs c (Proc.devRef .tc main_v66) = val_main_v66 (F := Ideal) (X1 m c) (X2 m c) := by
  have e3 := V6_v3 m outs c
  have e9 := V6_v9 m outs c
  show StableHlo.after hostOps1_2 (V6 m outs c) (Proc.devRef .tc main_v66) = _
  generalize V6 m outs c = W at e3 e9 ⊢
  dsimp only [hostOps1_2]
  after_results_simp
  rw [e3, e9]
  rfl

theorem V7_cst15 : V7 m outs c (Proc.devRef .tc main_cst_15) = val_main_cst_15 (F := Ideal) := by
  show StableHlo.after hostOps1_2 (V6 m outs c) (Proc.devRef .tc main_cst_15) = _
  generalize V6 m outs c = W
  dsimp only [hostOps1_2]
  after_results_simp
  rfl

/-- The stretch as a function of what it reads: `where (p, r, z broadcast)`. -/
theorem where_stage1 (W : Valuation τ sig (Elt Ideal))
    (p : (⟨ReferenceIdeal.S50000, .i1⟩ : BufTy).Contents (Elt Ideal))
    (r : (⟨ReferenceIdeal.S50000, .f32⟩ : BufTy).Contents (Elt Ideal))
    (z : (⟨ReferenceIdeal.S_, .f32⟩ : BufTy).Contents (Elt Ideal))
    (e65 : W (Proc.devRef .tc main_v65) = p) (e66 : W (Proc.devRef .tc main_v66) = r)
    (e15 : W (Proc.devRef .tc main_cst_15) = z) :
    StableHlo.after hostOps1_3 W (Proc.devRef .tc main_v67)
      = select p r (broadcastInDim ReferenceIdeal.S50000 ![] ReferenceIdeal.Facts₀.bcast_S_S50000 (id z)) := by
  dsimp only [hostOps1_3]
  after_results_simp
  rw [e65, e66, e15]
  rfl

/-- `dinv`. -/
theorem V8_v67 : V8 m outs c (Proc.devRef .tc main_v67) = val_main_v67 (F := Ideal) (X1 m c) (X2 m c) :=
  (where_stage1 (V7 m outs c) _ _ _ (V7_v65 m outs c) (V7_v66 m outs c) (V7_cst15 m outs c)).trans rfl

theorem V8_v1 : V8 m outs c (Proc.devRef .tc main_v1) = val_main_v1 (F := Ideal) (X1 m c) :=
  (stage_carry m outs c 1 7 main_v1 (by decide)).trans (V1_v1 m c)
theorem V8_v3 : V8 m outs c (Proc.devRef .tc main_v3) = val_main_v3 (F := Ideal) (X1 m c) :=
  (stage_carry m outs c 1 7 main_v3 (by decide)).trans (V1_v3 m c)
theorem V8_v9 : V8 m outs c (Proc.devRef .tc main_v9) = val_main_v9 (F := Ideal) (X2 m c) :=
  (stage_carry m outs c 1 7 main_v9 (by decide)).trans (V1_v9 m c)

/-- `norm`. -/
theorem V9_v83 : V9 m outs c (Proc.devRef .tc main_v83) = val_main_v83 (F := Ideal) (X1 m c) (X2 m c) := by
  have e1 := V8_v1 m outs c
  have e3 := V8_v3 m outs c
  have e9 := V8_v9 m outs c
  have e67 := V8_v67 m outs c
  show StableHlo.after hostOps1_4 (V8 m outs c) (Proc.devRef .tc main_v83) = _
  generalize V8 m outs c = W at e1 e3 e9 e67 ⊢
  dsimp only [hostOps1_4]
  after_results_simp
  rw [e1, e3, e9, e67]
  rfl

end Cert.HostBridge

end
-- ==== Proof.Host.Layer2.lean ====
/-
  The second graph-convolution layer around its dense product.

  The same computation as the first layer, one level up: with `h = out₁ · W₂`,
    out₂ = relu (scatter-add at dst of h[src] · norm  +  h · dinv²  +  b₂),
  `norm` and `dinv` being the second copies computed after the first layer. Then the normalisation for the LAST layer,
  which aggregates with unit edge weights: degree = (number of incoming edges) + 1, `dinv` and `norm` from it.
  `h` is what the second kernel launch leaves (`Dense2`); the rest is host operations shared with the reference.
-/
import proofs.«141398_j71476845740179_1_alg».proof.Proof.Host.Layer1

set_option maxRecDepth 4096
set_option maxHeartbeats 400000

noncomputable section

namespace Cert.HostBridge

open Idealize.ShloMosaic Idealize.ShloMosaic.TcCoe Idealize.SL.Sem Idealize.ShloMosaic.StableHlo
open Cert.KernelIdeal Cert.KernelIdeal.Gen Cert.ReferenceIdeal.ReadP

variable (m : (ℓ : Loc nD τ sig) → Buf (Elt Ideal) ℓ) (outs : Outs (F := Ideal)) (c : Dev nD)

/-- What the second dense layer's launch is to leave in its output array: the product of the first layer's output (as
    the state before the launch holds it) with the second weight matrix. -/
def Dense2 : Prop :=
  outs 10 main_v84 c = Host.dotGeneral (F := Ideal) (φ₁ := .f32) (φ₂ := .f32) ReferenceIdeal.dot_S50000x256_S256x256_S50000x256_1_0_0_1_n_n none
    (V9 m outs c main_v58) (V9 m outs c main_arg5)

/-! ## The launch: `h = out₁ · W₂` -/

theorem V9_v58 (h0 : Dense1 m outs c) :
    V9 m outs c (Proc.devRef .tc main_v58) = val_main_v58 (F := Ideal) (X0 m c) (X1 m c) (X2 m c) (X3 m c) (X4 m c) :=
  (stage_carry m outs c 6 3 main_v58 (by decide)).trans (V6_v58 m outs c h0)
theorem V9_arg5 : V9 m outs c (Proc.devRef .tc main_arg5) = X5 m c := stage_carry m outs c 0 9 main_arg5 (by decide)

theorem V10_v84 (h0 : Dense1 m outs c) (h1 : Dense2 m outs c) :
    V10 m outs c (Proc.devRef .tc main_v84) = val_main_v84 (F := Ideal) (X0 m c) (X1 m c) (X2 m c) (X3 m c) (X4 m c) (X5 m c) := by
  show Function.update (V9 m outs c) (Proc.devRef .tc main_v84) (outs 10 main_v84 c) (Proc.devRef .tc main_v84) = _
  rw [Function.update_self]
  refine h1.trans ?_
  rw [V9_v58 m outs c h0, V9_arg5 m outs c]
  rfl

theorem V10_v1 : V10 m outs c (Proc.devRef .tc main_v1) = val_main_v1 (F := Ideal) (X1 m c) :=
  (stage_carry m outs c 1 9 main_v1 (by decide)).trans (V1_v1 m c)
theorem V10_v3 : V10 m outs c (Proc.devRef .tc main_v3) = val_main_v3 (F := Ideal) (X1 m c) :=
  (stage_carry m outs c 1 9 main_v3 (by decide)).trans (V1_v3 m c)
theorem V10_v67 : V10 m outs c (Proc.devRef .tc main_v67) = val_main_v67 (F := Ideal) (X1 m c) (X2 m c) :=
  (stage_carry m outs c 8 2 main_v67 (by decide)).trans (V8_v67 m outs c)
theorem V10_v83 : V10 m outs c (Proc.devRef .tc main_v83) = val_main_v83 (F := Ideal) (X1 m c) (X2 m c) :=
  (stage_carry m outs c 9 1 main_v83 (by decide)).trans (V9_v83 m outs c)
theorem V10_arg6 : V10 m outs c (Proc.devRef .tc main_arg6) = X6 m c := stage_carry m outs c 0 10 main_arg6 (by decide)

/-! ## Aggregation, self loop and bias: `agg + h · dinv² + b₂` -/

theorem V11_v105 (h0 : Dense1 m outs c) (h1 : Dense2 m outs c) :
    V11 m outs c (Proc.devRef .tc main_v105) = val_main_v105 (F := Ideal) (X0 m c) (X1 m c) (X2 m c) (X3 m c) (X4 m c) (X5 m c) (X6 m c) := by
  have e1 := V10_v1 m outs c
  have e3 := V10_v3 m outs c
  have e67 := V10_v67 m outs c
  have e83 := V10_v83 m outs c
  have e84 := V10_v84 m outs c h0 h1
  have e6 := V10_arg6 m outs c
  show StableHlo.after hostOps2 (V10 m outs c) (Proc.devRef .tc main_v105) = _
  generalize V10 m outs c = W at e1 e3 e67 e83 e84 e6 ⊢
  dsimp only [hostOps2]
  after_results_simp
  rw [e1, e3, e67, e83, e84, e6]
  rfl

/-! ## The activation: `out₂ = max (·, 0)` -/

/-- The stretch as a function of what it reads: from an array `y` it leaves `max (y, 0)`. -/
theorem relu_stage2 (W : Valuation τ sig (Elt Ideal))
    (y : (⟨ReferenceIdeal.S50000x256, .f32⟩ : BufTy).Contents (Elt Ideal))
    (e105 : W (Proc.devRef .tc main_v105) = y) :
    StableHlo.after hostOps2_1 W (Proc.devRef .tc main_v106)
      = maximumf y (broadcastInDim ReferenceIdeal.S50000x256 ![] ReferenceIdeal.Facts₀.bcast_S_S50000x256
          (constant (F := Ideal) ReferenceIdeal.S_ .f32 0x00000000#32)) := by
  dsimp only [hostOps2_1]
  after_results_simp
  rw [e105]
  rfl

theorem V12_v106 (h0 : Dense1 m outs c) (h1 : Dense2 m outs c) :
    V12 m outs c (Proc.devRef .tc main_v106) = val_main_v106 (F := Ideal) (X0 m c) (X1 m c) (X2 m c) (X3 m c) (X4 m c) (X5 m c) (X6 m c) :=
  (relu_stage2 (V11 m outs c) _ (V11_v105 m outs c h0 h1)).trans rfl

/-! ## The last layer's normalisation, with unit edge weights -/

theorem V12_v3 : V12 m outs c (Proc.devRef .tc main_v3) = val_main_v3 (F := Ideal) (X1 m c) :=
  (stage_carry m outs c 1 11 main_v3 (by decide)).trans (V1_v3 m c)
theorem V12_v10 : V12 m outs c (Proc.devRef .tc main_v10) = val_main_v10 (F := Ideal) :=
  (stage_carry m outs c 1 11 main_v10 (by decide)).trans (V1_v10 m c)

/-- `deg > 0`, the degree now the number of incoming edges plus 1. -/
theorem V13_v113 : V13 m outs c (Proc.devRef .tc main_v113) = val_main_v113 (F := Ideal) (X1 m c) := by
  have e3 := V12_v3 m outs c
  have e10 := V12_v10 m outs c
  show StableHlo.after hostOps2_2 (V12 m outs c) (Proc.devRef .tc main_v113) = _
  generalize V12 m outs c = W at e3 e10 ⊢
  dsimp only [hostOps2_2]
  after_results_simp
  rw [e3, e10]
  rfl

/-- `deg^(−1/2)`. -/
theorem V13_v114 : V13 m outs c (Proc.devRef .tc main_v114) = val_main_v114 (F := Ideal) (X1 m c) := by
  have e3 := V12_v3 m outs c
  have e10 := V12_v10 m outs c
  show StableHlo.after hostOps2_2 (V12 m outs c) (Proc.devRef .tc main_v114) = _
  generalize V12 m outs c = W at e3 e10 ⊢
  dsimp only [hostOps2_2]
  after_results_simp
  rw [e3, e10]
  rfl

theorem V13_cst26 : V13 m outs c (Proc.devRef .tc main_cst_26) = val_main_cst_26 (F := Ideal) := by
  show StableHlo.after hostOps2_2 (V12 m outs c) (Proc.devRef .tc main_cst_26) = _
  generalize V12 m outs c = W
  dsimp only [hostOps2_2]
  after_results_simp
  rfl

/-- The stretch as a function of what it reads: `where (p, r, z broadcast)`. -/
theorem where_stage2 (W : Valuation τ sig (Elt Ideal))
    (p : (⟨ReferenceIdeal.S50000, .i1⟩ : BufTy).Contents (Elt Ideal))
    (r : (⟨ReferenceIdeal.S50000, .f32⟩ : BufTy).Contents (Elt Ideal))
    (z : (⟨ReferenceIdeal.S_, .f32⟩ : BufTy).Contents (Elt Ideal))
    (e113 : W (Proc.devRef .tc main_v113) = p) (e114 : W (Proc.devRef .tc main_v114) = r)
    (e26 : W (Proc.devRef .tc main_cst_26) = z) :
    StableHlo.after hostOps2_3 W (Proc.devRef .tc main_v115)
      = select p r (broadcastInDim ReferenceIdeal.S50000 ![] ReferenceIdeal.Facts₀.bcast_S_S50000 (id z)) := by
  dsimp only [hostOps2_3]
  after_results_simp
  rw [e113, e114, e26]
  rfl

/-- `dinv`. -/
theorem V14_v115 : V14 m outs c (Proc.devRef .tc main_v115) = val_main_v115 (F := Ideal) (X1 m c) :=
  (where_stage2 (V13 m outs c) _ _ _ (V13_v113 m outs c) (V13_v114 m outs c) (V13_cst26 m outs c)).trans rfl

theorem V14_v1 : V14 m outs c (Proc.devRef .tc main_v1) = val_main_v1 (F := Ideal) (X1 m c) :=
  (stage_carry m outs c 1 13 main_v1 (by decide)).trans (V1_v1 m c)
theorem V14_v3 : V14 m outs c (Proc.devRef .tc main_v3) = val_main_v3 (F := Ideal) (X1 m c) :=
  (stage_carry m outs c 1 13 main_v3 (by decide)).trans (V1_v3 m c)
theorem V14_v10 : V14 m outs c (Proc.devRef .tc main_v10) = val_main_v10 (F := Ideal) :=
  (stage_carry m outs c 1 13 main_v10 (by decide)).trans (V1_v10 m c)

/-- `norm = dinv[src] · 1 · dinv[dst]`. -/
theorem V15_v131 : V15 m outs c (Proc.devRef .tc main_v131) = val_main_v131 (F := Ideal) (X1 m c) := by
  have e1 := V14_v1 m outs c
  have e3 := V14_v3 m outs c
  have e10 := V14_v10 m outs c
  have e115 := V14_v115 m outs c
  show StableHlo.after hostOps2_4 (V14 m outs c) (Proc.devRef .tc main_v131) = _
  generalize V14 m outs c = W at e1 e3 e10 e115 ⊢
  dsimp only [hostOps2_4]
  after_results_simp
  rw [e1, e3, e10, e115]
  rfl

end Cert.HostBridge

end
-- ==== Proof.Host.Concat.lean ====
import proofs.«141398_j71476845740179_1_alg».proof.Proof.Gen.KernelIdeal.Regions
import proofs.«141398_j71476845740179_1_alg».proof.Proof.RefRead
import Idealize.ShloMosaic.PureOps.Ideal

/-!
# The last graph-convolution layer, the concatenation, and the bias row, on any state

The host stretch before the output layer computes, from `h = out₂ · W₃` (what the third launch left),
  out₃ = scatter-add at dst of h[src] · norm  +  h · dinv²  +  b₃
(no activation, unit edge weights), then sets the three layers' outputs side by side, `[out₁ | out₂ | out₃]`, 768
columns, and finally reshapes the 8 output biases to a 1 × 8 row. The reference runs the same operations, one stage
each; its bias row is the 8 entries broadcast along a new leading axis of length one, which is the same row.

Both facts are stated for an ARBITRARY state `W` of the buffers, from what `W` holds at the buffers the stretch reads:
nothing here depends on how those contents came about.
-/

set_option maxRecDepth 4096
set_option maxHeartbeats 400000

noncomputable section

namespace Cert.HostBridge

open Idealize.ShloMosaic Idealize.ShloMosaic.TcCoe Idealize.SL.Sem Idealize.ShloMosaic.StableHlo
open Cert.KernelIdeal Cert.KernelIdeal.Gen Cert.ReferenceIdeal.ReadP

/-! ## Two general facts -/

/-- The result of an operation with three operands, each operand's contents read at its own buffer. -/
theorem nary3_result_at {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- A vector of 8 entries reshaped to a 1 × 8 row is the vector broadcast along a new leading axis of length one: both
    read entry `j 1` at position `(j 0, j 1)`, the row-major position of `(0, j 1)` among 1 × 8 being `j 1`. -/
theorem reshape_row_eq_bcast {α : Type} (x : (⟨1, ![8]⟩ : Shape).Idx → α)
    (hc : (⟨1, ![8]⟩ : Shape).ShapeCasts ⟨2, ![1, 8]⟩)
    (hb : (⟨1, ![8]⟩ : Shape).BroadcastsInDim ⟨2, ![1, 8]⟩ (![1] : Fin 1 → Fin 2)) :
    shapeCast (⟨2, ![1, 8]⟩ : Shape) x hc = broadcastInDim (⟨2, ![1, 8]⟩ : Shape) ![1] hb x := by
  funext j
  have e1 := shapeCast_apply x hc j (fun a => match a with | ⟨0, _⟩ => ⟨(j 1).val, (j 1).isLt⟩)
    (by rewrite [Shape.rowMajor_val_one, Shape.rowMajor_val_two]
        have h0 : (j 0).val < 1 := (j 0).isLt
        show (j 1).val = (j 0).val * 8 + (j 1).val
        omega)
  have e2 := broadcastInDim_apply (![1] : Fin 1 → Fin 2) hb x j (fun a => match a with | ⟨0, _⟩ => ⟨(j 1).val, (j 1).isLt⟩)
    (fun a => match a with
      | ⟨0, _⟩ => by show (j 1).val = if (8 : Nat) = 1 then 0 else (j 1).val; rw [if_neg (by decide)])
  exact e1.trans e2.symm

/-! ## The last layer and the concatenation `[out₁ | out₂ | out₃]` -/

/-- On a state that holds the reference's stages at the buffers the stretch reads — src, dst, dinv, the unit-weight
    normalisation, `h`, the first two layers' outputs, and the third bias —, the stretch leaves the reference's
    concatenation in its buffer. -/
theorem concat_stage (W : Valuation τ sig (Elt Ideal))
    (x0 : (⟨ReferenceIdeal.S50000x512, .f32⟩ : BufTy).Contents (Elt Ideal)) (x1 : (⟨ReferenceIdeal.S2x400000, .i32⟩ : BufTy).Contents (Elt Ideal)) (x2 : (⟨ReferenceIdeal.S400000, .f32⟩ : BufTy).Contents (Elt Ideal)) (x3 : (⟨ReferenceIdeal.S512x256, .f32⟩ : BufTy).Contents (Elt Ideal)) (x4 : (⟨ReferenceIdeal.S256, .f32⟩ : BufTy).Contents (Elt Ideal)) (x5 : (⟨ReferenceIdeal.S256x256, .f32⟩ : BufTy).Contents (Elt Ideal)) (x6 : (⟨ReferenceIdeal.S256, .f32⟩ : BufTy).Contents (Elt Ideal)) (x7 : (⟨ReferenceIdeal.S256x256, .f32⟩ : BufTy).Contents (Elt Ideal)) (x8 : (⟨ReferenceIdeal.S256, .f32⟩ : BufTy).Contents (Elt Ideal))
    (e1 : W (Proc.devRef .tc main_v1) = val_main_v1 (F := Ideal) x1)
    (e3 : W (Proc.devRef .tc main_v3) = val_main_v3 (F := Ideal) x1)
    (e115 : W (Proc.devRef .tc main_v115) = val_main_v115 (F := Ideal) x1)
    (e131 : W (Proc.devRef .tc main_v131) = val_main_v131 (F := Ideal) x1)
    (e132 : W (Proc.devRef .tc main_v132) = val_main_v132 (F := Ideal) x0 x1 x2 x3 x4 x5 x6 x7)
    (e58 : W (Proc.devRef .tc main_v58) = val_main_v58 (F := Ideal) x0 x1 x2 x3 x4)
    (e106 : W (Proc.devRef .tc main_v106) = val_main_v106 (F := Ideal) x0 x1 x2 x3 x4 x5 x6)
    (e8 : W (Proc.devRef .tc main_arg8) = x8) :
    StableHlo.after hostOps3 W (Proc.devRef .tc main_v154) = val_main_v154 (F := Ideal) x0 x1 x2 x3 x4 x5 x6 x7 x8 := by
  dsimp only [hostOps3]
  simp only [after_cons, after_nil]
  -- the last operation (the bias row) writes another buffer; the one before it is the concatenation, which reads its
  -- three operands off the state `St` the first twenty-four operations leave
  rw [reshape_result_ne]; rotate_left; decide
  rw [nary3_result_at]
  generalize hSt : HloOp.result _ _ = St
  -- the first two layers' outputs are not written by this stretch; the third is computed by it
  have h58 : St (Proc.devRef .tc main_v58) = val_main_v58 (F := Ideal) x0 x1 x2 x3 x4 := by
    rw [← hSt]; after_results_simp; exact e58
  have h106 : St (Proc.devRef .tc main_v106) = val_main_v106 (F := Ideal) x0 x1 x2 x3 x4 x5 x6 := by
    rw [← hSt]; after_results_simp; exact e106
  have h153 : St (Proc.devRef .tc main_v153) = val_main_v153 (F := Ideal) x0 x1 x2 x3 x4 x5 x6 x7 x8 := by
    rw [← hSt]; after_results_simp; rw [e1, e3, e115, e131, e132, e8]; rfl
  rw [h58, h106, h153]
  rfl

/-! ## The output bias as a row -/

/-- On a state that holds the output bias, the stretch leaves the reference's 1 × 8 bias row in its buffer. -/
theorem biasrow_stage (W : Valuation τ sig (Elt Ideal)) (x10 : (⟨ReferenceIdeal.S8, .f32⟩ : BufTy).Contents (Elt Ideal))
    (e : W (Proc.devRef .tc main_arg10) = x10) :
    StableHlo.after hostOps3 W (Proc.devRef .tc main_v155) = val_main_v156 (F := Ideal) x10 := by
  dsimp only [hostOps3]
  after_results_simp
  rw [e]
  exact reshape_row_eq_bcast x10 _ _

end Cert.HostBridge

end
-- ==== Proof.Host.Layer3.lean ====
/-
  The third graph-convolution layer, the concatenation of the three layers' outputs, and the output bias as a row.

  With `h = out₂ · W₃` the last layer computes, WITHOUT activation and with unit edge weights,
    out₃ = scatter-add at dst of h[src] · norm  +  h · dinv²  +  b₃,
  and the classifier's input is the three outputs side by side: `[out₁ | out₂ | out₃]`, 768 columns. `h` is what the
  third kernel launch leaves (`Dense3`). The kernel program also prepares the output bias as a 1×8 row by a reshape,
  where the reference broadcasts the 8 entries along a new leading axis of length one: the same row. What the last host
  stretch before the output layer computes from the buffers it reads is proved separately, over an arbitrary state; here
  it is fed with the stages the earlier items left.
-/
import proofs.«141398_j71476845740179_1_alg».proof.Proof.Host.Layer2
import proofs.«141398_j71476845740179_1_alg».proof.Proof.Host.Concat

set_option maxRecDepth 4096
set_option maxHeartbeats 400000

noncomputable section

namespace Cert.HostBridge

open Idealize.ShloMosaic Idealize.ShloMosaic.TcCoe Idealize.SL.Sem Idealize.ShloMosaic.StableHlo
open Cert.KernelIdeal Cert.KernelIdeal.Gen Cert.ReferenceIdeal.ReadP

variable (m : (ℓ : Loc nD τ sig) → Buf (Elt Ideal) ℓ) (outs : Outs (F := Ideal)) (c : Dev nD)

/-- What the third dense layer's launch is to leave in its output array: the product of the second layer's output (as
    the state before the launch holds it) with the third weight matrix. -/
def Dense3 : Prop :=
  outs 16 main_v132 c = Host.dotGeneral (F := Ideal) (φ₁ := .f32) (φ₂ := .f32) ReferenceIdeal.dot_S50000x256_S256x256_S50000x256_1_0_0_1_n_n none
    (V15 m outs c main_v106) (V15 m outs c main_arg7)

/-! ## The launch: `h = out₂ · W₃` -/

theorem V15_v106 (h0 : Dense1 m outs c) (h1 : Dense2 m outs c) :
    V15 m outs c (Proc.devRef .tc main_v106) = val_main_v106 (F := Ideal) (X0 m c) (X1 m c) (X2 m c) (X3 m c) (X4 m c) (X5 m c) (X6 m c) :=
  (stage_carry m outs c 12 3 main_v106 (by decide)).trans (V12_v106 m outs c h0 h1)
theorem V15_arg7 : V15 m outs c (Proc.devRef .tc main_arg7) = X7 m c := stage_carry m outs c 0 15 main_arg7 (by decide)

theorem V16_v132 (h0 : Dense1 m outs c) (h1 : Dense2 m outs c) (h2 : Dense3 m outs c) :
    V16 m outs c (Proc.devRef .tc main_v132) = val_main_v132 (F := Ideal) (X0 m c) (X1 m c) (X2 m c) (X3 m c) (X4 m c) (X5 m c) (X6 m c) (X7 m c) := by
  show Function.update (V15 m outs c) (Proc.devRef .tc main_v132) (outs 16 main_v132 c) (Proc.devRef .tc main_v132) = _
  rw [Function.update_self]
  refine h2.trans ?_
  rw [V15_v106 m outs c h0 h1, V15_arg7 m outs c]
  rfl

theorem V16_v1 : V16 m outs c (Proc.devRef .tc main_v1) = val_main_v1 (F := Ideal) (X1 m c) :=
  (stage_carry m outs c 1 15 main_v1 (by decide)).trans (V1_v1 m c)
theorem V16_v3 : V16 m outs c (Proc.devRef .tc main_v3) = val_main_v3 (F := Ideal) (X1 m c) :=
  (stage_carry m outs c 1 15 main_v3 (by decide)).trans (V1_v3 m c)
theorem V16_v115 : V16 m outs c (Proc.devRef .tc main_v115) = val_main_v115 (F := Ideal) (X1 m c) :=
  (stage_carry m outs c 14 2 main_v115 (by decide)).trans (V14_v115 m outs c)
theorem V16_v131 : V16 m outs c (Proc.devRef .tc main_v131) = val_main_v131 (F := Ideal) (X1 m c) :=
  (stage_carry m outs c 15 1 main_v131 (by decide)).trans (V15_v131 m outs c)
theorem V16_v58 (h0 : Dense1 m outs c) :
    V16 m outs c (Proc.devRef .tc main_v58) = val_main_v58 (F := Ideal) (X0 m c) (X1 m c) (X2 m c) (X3 m c) (X4 m c) :=
  (stage_carry m outs c 6 10 main_v58 (by decide)).trans (V6_v58 m outs c h0)
theorem V16_v106 (h0 : Dense1 m outs c) (h1 : Dense2 m outs c) :
    V16 m outs c (Proc.devRef .tc main_v106) = val_main_v106 (F := Ideal) (X0 m c) (X1 m c) (X2 m c) (X3 m c) (X4 m c) (X5 m c) (X6 m c) :=
  (stage_carry m outs c 12 4 main_v106 (by decide)).trans (V12_v106 m outs c h0 h1)
theorem V16_arg8 : V16 m outs c (Proc.devRef .tc main_arg8) = X8 m c := stage_carry m outs c 0 16 main_arg8 (by decide)
theorem V16_arg10 : V16 m outs c (Proc.devRef .tc main_arg10) = X10 m c := stage_carry m outs c 0 16 main_arg10 (by decide)

/-! ## The last layer and the concatenation `[out₁ | out₂ | out₃]` -/

/-- The last stretch before the output layer, as a function of what it reads (`concat_stage`), fed with the
    stages the earlier items left. -/
theorem V17_v154 (h0 : Dense1 m outs c) (h1 : Dense2 m outs c) (h2 : Dense3 m outs c) :
    V17 m outs c (Proc.devRef .tc main_v154) = val_main_v154 (F := Ideal) (X0 m c) (X1 m c) (X2 m c) (X3 m c) (X4 m c) (X5 m c) (X6 m c) (X7 m c) (X8 m c) :=
  concat_stage (V16 m outs c) _ _ _ _ _ _ _ _ _ (V16_v1 m outs c) (V16_v3 m outs c) (V16_v115 m outs c)
    (V16_v131 m outs c) (V16_v132 m outs c h0 h1 h2) (V16_v58 m outs c h0) (V16_v106 m outs c h0 h1) (V16_arg8 m outs c)

/-! ## The output bias as a row -/

theorem V17_v155 : V17 m outs c (Proc.devRef .tc main_v155) = val_main_v156 (F := Ideal) (X10 m c) :=
  biasrow_stage (V16 m outs c) _ (V16_arg10 m outs c)

end Cert.HostBridge

end
-- ==== Proof.Host.Softmax.lean ====
import proofs.«141398_j71476845740179_1_alg».proof.Proof.Gen.KernelIdeal.Regions
import proofs.«141398_j71476845740179_1_alg».proof.Proof.RefRead
import Idealize.ShloMosaic.PureOps.Ideal

/-!
# The final log-softmax, on any state

After the output layer both programs apply jnp's `log_softmax` along each row of the 50000 × 8 logits `y`:
  m   = max (−∞, max over the row)          (the row maximum, guarded by the identity of max)
  z   = y − m                                (shifted logits)
  lse = log (∑ over the row of exp z)        (the log of the row's sum of exponentials)
  out = z − lse.
The kernel program's @main runs these fifteen operations as its last host stretch; the reference's stages are the same
operations one definition each. `logSoftmaxRows` spells the composition out over a variable `y`; the stretch, run on ANY
state that holds `y` in the logits' buffer, leaves `logSoftmaxRows y` in the result's buffer; and the reference's last
stage is `logSoftmaxRows` of its logits by definition.
-/

set_option maxRecDepth 8192
set_option maxHeartbeats 400000

noncomputable section

namespace Cert.HostBridge

open Idealize.ShloMosaic Idealize.ShloMosaic.TcCoe Idealize.SL.Sem Idealize.ShloMosaic.StableHlo
open Cert.KernelIdeal Cert.KernelIdeal.Gen Cert.ReferenceIdeal.ReadP

/-- `log_softmax` along the rows of a 50000 × 8 matrix, operation by operation as jnp lowers it. -/
def logSoftmaxRows (y : FVec Ideal ReferenceIdeal.S50000x8 .f32) : FVec Ideal ReferenceIdeal.S50000x8 .f32 :=
  -- the row maximum, guarded: max (−∞ everywhere) (max over the row starting from −∞)
  let rowMax : FVec Ideal ReferenceIdeal.S50000 .f32 :=
    maximumf
      (broadcastInDim ReferenceIdeal.S50000 ![] ReferenceIdeal.Facts₀.bcast_S_S50000
        (constant (F := Ideal) ReferenceIdeal.S_ .f32 0xFF800000#32))
      (Host.reduce FloatOps.maximumf y (constant (F := Ideal) ReferenceIdeal.S_ .f32 0xFF800000#32)
        ReferenceIdeal.Facts₀.reducesTo_S50000x8_S50000_d1 ReferenceIdeal.Facts₀.h_S_)
  -- the logits shifted by their row's maximum
  let shifted : FVec Ideal ReferenceIdeal.S50000x8 .f32 :=
    subf y
      (broadcastInDim ReferenceIdeal.S50000x8 ![0, 1] ReferenceIdeal.Facts₀.bcast_S50000x1_S50000x8_0_1
        (broadcastInDim ReferenceIdeal.S50000x1 ![0] ReferenceIdeal.Facts₀.bcast_S50000_S50000x1_0 rowMax))
  -- the log of each row's sum of exponentials, as a column
  let logSumExp : FVec Ideal ReferenceIdeal.S50000x1 .f32 :=
    Host.log
      (broadcastInDim ReferenceIdeal.S50000x1 ![0] ReferenceIdeal.Facts₀.bcast_S50000_S50000x1_0
        (Host.reduceAdd (Host.exp shifted) (constant (F := Ideal) ReferenceIdeal.S_ .f32 0x00000000#32)
          ReferenceIdeal.Facts₀.reducesTo_S50000x8_S50000_d1 ReferenceIdeal.Facts₀.h_S_))
  subf shifted
    (broadcastInDim ReferenceIdeal.S50000x8 ![0, 1] ReferenceIdeal.Facts₀.bcast_S50000x1_S50000x8_0_1 logSumExp)

/-- The stretch on a state holding `y` in the logits' buffer leaves `logSoftmaxRows y` in the result's buffer. -/
theorem softmax_ops (W : Valuation τ sig (Elt Ideal)) (y : (⟨ReferenceIdeal.S50000x8, .f32⟩ : BufTy).Contents (Elt Ideal))
    (e : W (Proc.devRef .tc main_v156) = y) :
    StableHlo.after hostOps4 W (Proc.devRef .tc main_v157) = logSoftmaxRows y := by
  dsimp only [hostOps4]
  after_results_simp
  rw [e]
  unfold logSoftmaxRows
  -- each intermediate result is stored at its buffer's own type and read back at the operation's: the identity twice
  simp only [TRef.toBuf, TRef.ofBuf, cast_cast, cast_eq]

/-- On a state that holds the reference's logits in the logits' buffer, the stretch leaves the reference's result. -/
theorem softmax_stage (W : Valuation τ sig (Elt Ideal))
    (x0 : (⟨ReferenceIdeal.S50000x512, .f32⟩ : BufTy).Contents (Elt Ideal)) (x1 : (⟨ReferenceIdeal.S2x400000, .i32⟩ : BufTy).Contents (Elt Ideal)) (x2 : (⟨ReferenceIdeal.S400000, .f32⟩ : BufTy).Contents (Elt Ideal)) (x3 : (⟨ReferenceIdeal.S512x256, .f32⟩ : BufTy).Contents (Elt Ideal)) (x4 : (⟨ReferenceIdeal.S256, .f32⟩ : BufTy).Contents (Elt Ideal)) (x5 : (⟨ReferenceIdeal.S256x256, .f32⟩ : BufTy).Contents (Elt Ideal)) (x6 : (⟨ReferenceIdeal.S256, .f32⟩ : BufTy).Contents (Elt Ideal)) (x7 : (⟨ReferenceIdeal.S256x256, .f32⟩ : BufTy).Contents (Elt Ideal)) (x8 : (⟨ReferenceIdeal.S256, .f32⟩ : BufTy).Contents (Elt Ideal)) (x9 : (⟨ReferenceIdeal.S768x8, .f32⟩ : BufTy).Contents (Elt Ideal)) (x10 : (⟨ReferenceIdeal.S8, .f32⟩ : BufTy).Contents (Elt Ideal))
    (e : W (Proc.devRef .tc main_v156) = val_main_v158 (F := Ideal) x0 x1 x2 x3 x4 x5 x6 x7 x8 x9 x10) :
    StableHlo.after hostOps4 W (Proc.devRef .tc main_v157) = val_main_v159 (F := Ideal) x0 x1 x2 x3 x4 x5 x6 x7 x8 x9 x10 :=
  (softmax_ops W _ e).trans rfl

end Cert.HostBridge

end
-- ==== Proof.Host.Result.lean ====
/-
  The output layer, log_softmax, and the two programs' results.

  The classifier is one more dense layer on the concatenated features, `logits = [out₁ | out₂ | out₃] · W + b`. In the
  kernel program the fourth launch computes product AND bias (`Dense4`: it leaves the product plus the bias row broadcast
  down the 50000 rows); the reference adds the broadcast bias as a host operation. Either way the logits are the
  reference's stage `val_main_v158`. Both programs finish with the same row-wise log_softmax,
  `z − max z − log Σ exp (z − max z)`, so the kernel program's result buffer holds the reference's result stage.
-/
import proofs.«141398_j71476845740179_1_alg».proof.Proof.Host.Layer3
import proofs.«141398_j71476845740179_1_alg».proof.Proof.Host.Softmax

set_option maxRecDepth 4096
set_option maxHeartbeats 400000

noncomputable section

namespace Cert.HostBridge

open Idealize.ShloMosaic Idealize.ShloMosaic.TcCoe Idealize.SL.Sem Idealize.ShloMosaic.StableHlo
open Cert.KernelIdeal Cert.KernelIdeal.Gen Cert.ReferenceIdeal.ReadP

variable (m : (ℓ : Loc nD τ sig) → Buf (Elt Ideal) ℓ) (outs : Outs (F := Ideal)) (c : Dev nD)

/-- What the output layer's launch is to leave in its output array: the product of the concatenated features with the
    output weights, plus the bias row broadcast over the rows (all read in the state before the launch). -/
def Dense4 : Prop :=
  outs 18 main_v156 c = addf (F := Ideal) (φ := .f32)
    (Host.dotGeneral (F := Ideal) (φ₁ := .f32) (φ₂ := .f32) ReferenceIdeal.dot_S50000x768_S768x8_S50000x8_1_0_0_1_n_n none
      (V17 m outs c main_v154) (V17 m outs c main_arg9))
    (broadcastInDim ReferenceIdeal.S50000x8 ![0, 1] ReferenceIdeal.Facts₀.bcast_S1x8_S50000x8_0_1 (V17 m outs c main_v155))

theorem V17_arg9 : V17 m outs c (Proc.devRef .tc main_arg9) = X9 m c := stage_carry m outs c 0 17 main_arg9 (by decide)

/-- The logits. -/
theorem V18_v156 (h0 : Dense1 m outs c) (h1 : Dense2 m outs c) (h2 : Dense3 m outs c) (h3 : Dense4 m outs c) :
    V18 m outs c (Proc.devRef .tc main_v156) = val_main_v158 (F := Ideal) (X0 m c) (X1 m c) (X2 m c) (X3 m c) (X4 m c) (X5 m c) (X6 m c) (X7 m c) (X8 m c) (X9 m c) (X10 m c) := by
  show Function.update (V17 m outs c) (Proc.devRef .tc main_v156) (outs 18 main_v156 c) (Proc.devRef .tc main_v156) = _
  rw [Function.update_self]
  refine h3.trans ?_
  rw [V17_v154 m outs c h0 h1 h2, V17_arg9 m outs c, V17_v155 m outs c]
  rfl

/-- The result: log_softmax of the logits. -/
theorem V19_v157 (h0 : Dense1 m outs c) (h1 : Dense2 m outs c) (h2 : Dense3 m outs c) (h3 : Dense4 m outs c) :
    V19 m outs c (Proc.devRef .tc main_v157) = val_main_v159 (F := Ideal) (X0 m c) (X1 m c) (X2 m c) (X3 m c) (X4 m c) (X5 m c) (X6 m c) (X7 m c) (X8 m c) (X9 m c) (X10 m c) :=
  softmax_stage (V18 m outs c) _ _ _ _ _ _ _ _ _ _ _ (V18_v156 m outs c h0 h1 h2 h3)

/-- THE HOST CHAINS ARE ONE FUNCTION. If each of the four launches leaves in its output array the dense layer of the
    values the state before it holds, then after the last host stretch the kernel program's result buffer holds the
    reference's result stage of the launch arguments. -/
theorem result_eq
    (h0 : outs 4 main_v36 c = Host.dotGeneral (F := Ideal) (φ₁ := .f32) (φ₂ := .f32) ReferenceIdeal.dot_S50000x512_S512x256_S50000x256_1_0_0_1_n_n none
      (V3 m c main_arg0) (V3 m c main_arg3))
    (h1 : outs 10 main_v84 c = Host.dotGeneral (F := Ideal) (φ₁ := .f32) (φ₂ := .f32) ReferenceIdeal.dot_S50000x256_S256x256_S50000x256_1_0_0_1_n_n none
      (V9 m outs c main_v58) (V9 m outs c main_arg5))
    (h2 : outs 16 main_v132 c = Host.dotGeneral (F := Ideal) (φ₁ := .f32) (φ₂ := .f32) ReferenceIdeal.dot_S50000x256_S256x256_S50000x256_1_0_0_1_n_n none
      (V15 m outs c main_v106) (V15 m outs c main_arg7))
    (h3 : outs 18 main_v156 c = addf (F := Ideal) (φ := .f32)
      (Host.dotGeneral (F := Ideal) (φ₁ := .f32) (φ₂ := .f32) ReferenceIdeal.dot_S50000x768_S768x8_S50000x8_1_0_0_1_n_n none
        (V17 m outs c main_v154) (V17 m outs c main_arg9))
      (broadcastInDim ReferenceIdeal.S50000x8 ![0, 1] ReferenceIdeal.Facts₀.bcast_S1x8_S50000x8_0_1 (V17 m outs c main_v155))) :
    V19 m outs c main_v157
      = val_main_v159 (F := Ideal)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) :=
  V19_v157 m outs c h0 h1 h2 h3

end Cert.HostBridge

end
-- ==== Proof.lean ====
/-
  The certificate of a three-layer graph convolution whose four dense layers run as tiled matrix-product kernels,
  against the same network written with plain `x @ W`.

  Both programs compute, per layer, deg = segment_sum(w, dst) + 1, dinv = where(deg > 0, rsqrt(deg), 0),
  norm = dinv[src] · w · dinv[dst], h = x · W, out = segment_sum(h[src] · norm, dst) + h · dinv² + b (with relu after
  the first two layers), then log_softmax(cat(x₁, x₂, x₃) · W_lin + b_lin). The only difference is how the four
  products are computed: the kernel rounds both operands to bf16 and multiplies 2000-row blocks into a zero
  accumulator, block by block over a grid of 25 points, while the reference takes one whole `dot_general`. At the ideal
  instance a change of float format is the identity and both a block product and the whole product are the exact sum
  ∑ₖ x[i,k] · W[k,j] over the extended reals, so each kernel launch leaves exactly the reference's product in its
  output array (the blocks are restrictions of one whole-array function and cover the array); everything around the
  products is the same composition of the same host operations in both programs, carried along unopened.

  The pieces: the frames of the two kernel programs are the run of @main as nineteen segments (host stretches and the
  four launches, each launch's body run once symbolically); the reference's frame is its run read back; nothing was
  rewritten by the idealization, so `preserves` is trivial; and the algebraic claim puts the two runs side by side,
  with the kernel's result read off the last host stretch and identified, stage by stage, with the reference's.
  No precondition is used: only commutativity-free rearrangements of the same sums are needed.
-/
import proofs.«141398_j71476845740179_1_alg».proof.Defs
import proofs.«141398_j71476845740179_1_alg».proof.Proof.Gen.Kernel
import proofs.«141398_j71476845740179_1_alg».proof.Proof.Gen.KernelIdeal
import proofs.«141398_j71476845740179_1_alg».proof.Proof.Gen.ReferenceIdeal
import proofs.«141398_j71476845740179_1_alg».proof.Proof.Gen.Pre_finite_inputs
import proofs.«141398_j71476845740179_1_alg».proof.Proof.K.Outs
import proofs.«141398_j71476845740179_1_alg».proof.Proof.KI.Outs
import proofs.«141398_j71476845740179_1_alg».proof.Proof.RefRunHand
import proofs.«141398_j71476845740179_1_alg».proof.Proof.Val.Arr0
import proofs.«141398_j71476845740179_1_alg».proof.Proof.Val.Arr1
import proofs.«141398_j71476845740179_1_alg».proof.Proof.Val.Arr2
import proofs.«141398_j71476845740179_1_alg».proof.Proof.Val.Arr3
import proofs.«141398_j71476845740179_1_alg».proof.Proof.Host.Result
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments as launched. -/
theorem frame_k : Cert.frame_Kernel := fun m ρ _ =>
  Cert.Kernel.Hand.frame_of m ρ (Cert.Kernel.Hand.outsD m) (Cert.Kernel.Hand.outsD_ok m)

/-- The same for the idealized kernel program. -/
theorem frame_ki : Cert.frame_KernelIdeal := fun m ρ _ =>
  Cert.KernelIdeal.Hand.frame_of m ρ (Cert.KernelIdeal.Hand.outsD m) (Cert.KernelIdeal.Hand.outsD_ok m)

/-- The reference is a straight line of host operations: its run read back, the result dropped. -/
theorem frame_ri : Cert.frame_ReferenceIdeal := fun m ρ _ =>
  (θ_run Cert.ReferenceIdeal.defs _ _).mono (fun _ h c => (h c).2) (Cert.ReferenceIdeal.RunHand.run m ρ)

/-- The idealization rewrote nothing. -/
theorem preserves : Cert.preserves_Kernel_KernelIdeal := trivial

/-- From memories agreeing on the arguments both programs end with the same result array: the kernel's is the last
    host stretch's value over the four launch outputs, each launch output is the reference's matrix product of the
    contents the launch was entered at, and the host operations around them are the reference's own. -/
theorem algebraic : Cert.algebraic_KernelIdeal_ReferenceIdeal := by
  intro m ρ m' ρ' _ hagree
  have hok := Cert.KernelIdeal.Hand.outsD_ok (F := Ideal) m
  refine ⟨fun c => Cert.KernelIdeal.Gen.V19 m (Cert.KernelIdeal.Hand.outsD m) c Cert.KernelIdeal.main_v157,
    Cert.KernelIdeal.Hand.run_value m ρ _ hok, ?_⟩
  refine (θ_run Cert.ReferenceIdeal.defs _ _).mono (fun _ h c => ⟨(h c).1.trans ?_, (h c).2⟩)
    (Cert.ReferenceIdeal.RunHand.run m' ρ')
  obtain ⟨e0, e1, e2, e3, e4, e5, e6, e7, e8, e9, e10⟩ := hagree c
  rw [e0, e1, e2, e3, e4, e5, e6, e7, e8, e9, e10]
  exact (Cert.HostBridge.result_eq m (Cert.KernelIdeal.Hand.outsD m) c
    ((hok.o4 c).trans (Cert.KernelIdeal.MatVal.arr0 (fun c b => Cert.KernelIdeal.Gen.V3 m c b) c))
    ((hok.o10 c).trans (Cert.KernelIdeal.MatVal.arr1 (fun c b => Cert.KernelIdeal.Gen.V9 m (Cert.KernelIdeal.Hand.outsD m) c b) c))
    ((hok.o16 c).trans (Cert.KernelIdeal.MatVal.arr2 (fun c b => Cert.KernelIdeal.Gen.V15 m (Cert.KernelIdeal.Hand.outsD m) c b) c))
    ((hok.o18 c).trans (Cert.KernelIdeal.MatVal.arr3 (fun c b => Cert.KernelIdeal.Gen.V17 m (Cert.KernelIdeal.Hand.outsD m) c b) c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
